-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x3 : Shape := ⟨3, ![8, 2048, 3]⟩
abbrev S8x2048 : Shape := ⟨2, ![8, 2048]⟩
abbrev S_ : Shape := ⟨0, ![]⟩

class Facts : Prop where
  bcast_S_S8x2048x3 : S_.BroadcastsInDim S8x2048x3 (![] : Fin 0 → Fin S8x2048x3.rank)
  reducesTo_S8x2048x3_S_d0_1_2 : S8x2048x3.ReducesTo [0, 1, 2] S_
  h_S_ : 0 < S_.numel
  bcast_S_S8x2048 : S_.BroadcastsInDim S8x2048 (![] : Fin 0 → Fin S8x2048.rank)
  reducesTo_S8x2048_S_d0_1 : S8x2048.ReducesTo [0, 1] S_

variable [Facts]

def fn {F : FTy → Type} [FloatOps F] (main_arg0 : FVec F S8x2048x3 .f32) (main_arg1 : FVec F S8x2048 .f32) : IVec S_ 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  let main_c : IVec S_ 1 := constantI S_ 1 1#1
  let main_v3 : IVec S_ 1 := (fun x v => Host.reduce IntOp.andi x v reducesTo_S8x2048x3_S_d0_1_2 h_S_) main_v2 main_c
  let main_v4 : FVec F S8x2048 .f32 := Host.absf main_arg1
  let main_cst_0 : FVec F S_ .f32 := constant S_ .f32 0x7F800000#32
  let main_v5 : FVec F S8x2048 .f32 := broadcastInDim S8x2048 ![] bcast_S_S8x2048 main_cst_0
  let main_v6 : IVec S8x2048 1 := cmpf .olt main_v4 main_v5
  let main_c_1 : IVec S_ 1 := constantI S_ 1 1#1
  let main_v7 : IVec S_ 1 := (fun x v => Host.reduce IntOp.andi x v reducesTo_S8x2048_S_d0_1 h_S_) main_v6 main_c_1
  let main_v8 : IVec S_ 1 := andi main_v3 main_v7
  main_v8
-- ==== Kernel.lean ====
abbrev S8x2048x3 : Shape := ⟨3, ![8, 2048, 3]⟩
abbrev S8x2048 : Shape := ⟨2, ![8, 2048]⟩
abbrev S8x2048x1 : Shape := ⟨3, ![8, 2048, 1]⟩
abbrev S1x8x2048 : Shape := ⟨3, ![1, 8, 2048]⟩
abbrev S3x8x2048 : Shape := ⟨3, ![3, 8, 2048]⟩
abbrev S8x1x128 : Shape := ⟨3, ![8, 1, 128]⟩
abbrev S3x8x256 : Shape := ⟨3, ![3, 8, 256]⟩
abbrev S8x256 : Shape := ⟨2, ![8, 256]⟩
abbrev S1x1x128 : Shape := ⟨3, ![1, 1, 128]⟩
abbrev S1x8x256 : Shape := ⟨3, ![1, 8, 256]⟩
abbrev S8x256x1 : Shape := ⟨3, ![8, 256, 1]⟩
abbrev S8x1x256 : Shape := ⟨3, ![8, 1, 256]⟩
abbrev S8x256x256 : Shape := ⟨3, ![8, 256, 256]⟩
abbrev S256 : Shape := ⟨1, ![256]⟩
abbrev S1x256 : Shape := ⟨2, ![1, 256]⟩
abbrev S1 : Shape := ⟨1, ![1]⟩
abbrev S1x1 : Shape := ⟨2, ![1, 1]⟩
abbrev S1x1x1 : Shape := ⟨3, ![1, 1, 1]⟩
abbrev S8x1x1 : Shape := ⟨3, ![8, 1, 1]⟩
abbrev S8 : Shape := ⟨1, ![8]⟩
abbrev S_ : Shape := ⟨0, ![]⟩

abbrev nBuf : Space → Nat
  | .hbm => 52
  | .vmem => 14
  | .smem => 0
  | _ => 0

abbrev bufTy : (tb : Table) → Fin (tcTables nBuf tb) → BufTy
  | .hbm, ⟨0, _⟩ => ⟨S8x2048x3, .f32⟩
  | .hbm, ⟨1, _⟩ => ⟨S8x2048, .f32⟩
  | .hbm, ⟨2, _⟩ => ⟨S8x2048x1, .f32⟩
  | .hbm, ⟨3, _⟩ => ⟨S8x2048, .f32⟩
  | .hbm, ⟨4, _⟩ => ⟨S8x2048x1, .f32⟩
  | .hbm, ⟨5, _⟩ => ⟨S8x2048, .f32⟩
  | .hbm, ⟨6, _⟩ => ⟨S8x2048x1, .f32⟩
  | .hbm, ⟨7, _⟩ => ⟨S8x2048, .f32⟩
  | .hbm, ⟨8, _⟩ => ⟨S1x8x2048, .f32⟩
  | .hbm, ⟨9, _⟩ => ⟨S1x8x2048, .f32⟩
  | .hbm, ⟨10, _⟩ => ⟨S1x8x2048, .f32⟩
  | .hbm, ⟨11, _⟩ => ⟨S3x8x2048, .f32⟩
  | .hbm, ⟨12, _⟩ => ⟨S8x1x128, .f32⟩
  | .hbm, ⟨13, _⟩ => ⟨S8x1x128, .f32⟩
  | .hbm, ⟨14, _⟩ => ⟨S8x1x128, .f32⟩
  | .hbm, ⟨15, _⟩ => ⟨S8x1x1, .f32⟩
  | .hbm, ⟨16, _⟩ => ⟨S8, .f32⟩
  | .hbm, ⟨17, _⟩ => ⟨S_, .f32⟩
  | .hbm, ⟨18, _⟩ => ⟨S_, .f32⟩
  | .hbm, ⟨19, _⟩ => ⟨S8x1x1, .f32⟩
  | .hbm, ⟨20, _⟩ => ⟨S8, .f32⟩
  | .hbm, ⟨21, _⟩ => ⟨S_, .f32⟩
  | .hbm, ⟨22, _⟩ => ⟨S_, .f32⟩
  | .hbm, ⟨23, _⟩ => ⟨S8x1x1, .f32⟩
  | .hbm, ⟨24, _⟩ => ⟨S8, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .local _ .vmem, ⟨0, _⟩ => ⟨S3x8x256, .f32⟩
  | .local _ .vmem, ⟨1, _⟩ => ⟨S3x8x256, .f32⟩
  | .local _ .vmem, ⟨2, _⟩ => ⟨S3x8x256, .f32⟩
  | .local _ .vmem, ⟨3, _⟩ => ⟨S3x8x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10_0 : Ref sig .tc := ⟨.hbm, 12, rfl⟩
abbrev main_v10_1 : Ref sig .tc := ⟨.hbm, 13, rfl⟩
abbrev main_v10_2 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_cst_6 : Ref sig .tc := ⟨.hbm, 46, rfl⟩
abbrev main_v25 : Ref sig .tc := ⟨.hbm, 47, rfl⟩
abbrev main_v26 : Ref sig .tc := ⟨.hbm, 48, rfl⟩
abbrev main_cst_7 : Ref sig .tc := ⟨.hbm, 49, rfl⟩
abbrev main_v27 : Ref sig .tc := ⟨.hbm, 50, rfl⟩
abbrev main_v28 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v55 : BitVec 1 := Scalar.cmpi .eq arg1 c0_i32
  let v56 : BitVec 32 := Scalar.extui v55
  let c0_i32_24 : BitVec 32 := 0#32
  let v57 : BitVec 1 := Scalar.cmpi .ne v56 c0_i32_24
  v57

def k0_cond2 (i : grid0.Coords) : BitVec 1 :=
  let arg1 : BitVec 32 := BitVec.ofNat 32 (i 1).val
  let c0_i32_25 : BitVec 32 := 0#32
  let v58 : BitVec 1 := Scalar.cmpi .ne arg1 c0_i32_25
  let v59 : BitVec 32 := Scalar.extui v58
  let c0_i32_26 : BitVec 32 := 0#32
  let v60 : BitVec 1 := Scalar.cmpi .ne v59 c0_i32_26
  v60

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  slices_S8x2048x3_S8x2048x1_0_0_0 : S8x2048x3.Slices ![0, 0, 0] S8x2048x1
  shapeCasts_S8x2048x1_S8x2048 : S8x2048x1.ShapeCasts S8x2048
  slices_S8x2048x3_S8x2048x1_0_0_1 : S8x2048x3.Slices ![0, 0, 1] S8x2048x1
  slices_S8x2048x3_S8x2048x1_0_0_2 : S8x2048x3.Slices ![0, 0, 2] S8x2048x1
  bcast_S8x2048_S1x8x2048_1_2 : S8x2048.BroadcastsInDim S1x8x2048 (![1, 2] : Fin 2 → Fin S1x8x2048.rank)
  concatenates_S1x8x2048_S1x8x2048_S1x8x2048_S3x8x2048_d0 : Shape.Concatenates [S1x8x2048, S1x8x2048, S1x8x2048] S3x8x2048 0
  inb_S3x8x256_S1x8x256_0_0_0 : ∀ a, (![0, 0, 0] : Fin 3 → Nat) a + S1x8x256.size a ≤ S3x8x256.size a
  h_S1x8x256 : 0 < S1x8x256.numel
  shapeCasts_S1x8x256_S8x256 : S1x8x256.ShapeCasts S8x256
  inb_S3x8x256_S1x8x256_1_0_0 : ∀ a, (![1, 0, 0] : Fin 3 → Nat) a + S1x8x256.size a ≤ S3x8x256.size a
  inb_S3x8x256_S1x8x256_2_0_0 : ∀ a, (![2, 0, 0] : Fin 3 → Nat) a + S1x8x256.size a ≤ S3x8x256.size a
  inb_S8x256_S8x256_0_0 : ∀ a, (![0, 0] : Fin 2 → Nat) a + S8x256.size a ≤ S8x256.size a
  h_S8x256 : 0 < S8x256.numel
  shapeCasts_S8x256_S8x256x1 : S8x256.ShapeCasts S8x256x1
  shapeCasts_S8x256_S8x1x256 : S8x256.ShapeCasts S8x1x256
  broadcasts_S8x256x1_S8x256x256 : S8x256x1.Broadcasts S8x256x256
  broadcasts_S8x1x256_S8x256x256 : S8x1x256.Broadcasts S8x256x256
  natLt_1_32 : 1 < 32
  reduces_S8x256x256_S8x256 : S8x256x256.Reduces [2] S8x256
  reduces_S8x256_S256 : S8x256.Reduces [0] S256
  shapeCasts_S256_S1x256 : S256.ShapeCasts S1x256
  reduces_S1x256_S1 : S1x256.Reduces [1] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  slices_S8x1x128_S8x1x1_0_0_0 : S8x1x128.Slices ![0, 0, 0] S8x1x1
  shapeCasts_S8x1x1_S8 : S8x1x1.ShapeCasts S8
  reducesTo_S8_S_d0 : S8.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x8x256.size a ≤ S3x8x2048.size a
  hwx0_0 : ∀ i : grid0.Coords, EltTy.bits .f32 = 32 ∨ (Rect.block (s := S3x8x2048) S3x8x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x8x256.size a ≤ S3x8x2048.size a
  hwx0_1 : ∀ i : grid0.Coords, EltTy.bits .f32 = 32 ∨ (Rect.block (s := S3x8x2048) S3x8x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S8x2048.size a
  hwx0_2 : ∀ i : grid0.Coords, EltTy.bits .f32 = 32 ∨ (Rect.block (s := S8x2048) S8x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S8x2048.size a
  hwx0_3 : ∀ i : grid0.Coords, EltTy.bits .f32 = 32 ∨ (Rect.block (s := S8x2048) S8x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S8x1x128.size a
  hwx0_4 : ∀ i : grid0.Coords, EltTy.bits .f32 = 32 ∨ (Rect.block (s := S8x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S8x1x128.size a
  hwx0_5 : ∀ i : grid0.Coords, EltTy.bits .f32 = 32 ∨ (Rect.block (s := S8x1x128) S1x1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S8x1x128.size a
  hwx0_6 : ∀ i : grid0.Coords, EltTy.bits .f32 = 32 ∨ (Rect.block (s := S8x1x128) S1x1x128.size (cc0_transform_6 i) (hinb0_6 i)).WholeWords (EltTy.packing .f32)

variable [Facts₀]

abbrev win0_0 : Pipeline.Window sig grid0 :=
  Pipeline.Window.ofSpec (Memref.whole main_v9) S3x8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S3x8x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S8x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_0) S1x1x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_1) S1x1x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_2) S1x1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond1 i == 1#1) && !(k0_cond2 i == 1#1) | 5 => fun i => !(k0_cond1 i == 1#1) | 6 => fun i => !(k0_cond1 i == 1#1) | ⟨_ + 7, h⟩ => absurd h (Nat.not_lt.2 (Nat.le_add_left _ _))

class Facts : Prop extends Facts₀ where

variable [Facts]
-- ==== ReferenceIdeal.lean ====
abbrev S8x2048x3 : Shape := ⟨3, ![8, 2048, 3]⟩
abbrev S8x2048 : Shape := ⟨2, ![8, 2048]⟩
abbrev S8x2048x1 : Shape := ⟨3, ![8, 2048, 1]⟩
abbrev S_ : Shape := ⟨0, ![]⟩
abbrev S8x2048x1x3 : Shape := ⟨4, ![8, 2048, 1, 3]⟩
abbrev S8x1x2048x3 : Shape := ⟨4, ![8, 1, 2048, 3]⟩
abbrev S8x2048x2048x3 : Shape := ⟨4, ![8, 2048, 2048, 3]⟩
abbrev S8x1x2048 : Shape := ⟨3, ![8, 1, 2048]⟩
abbrev S8x2048x2048 : Shape := ⟨3, ![8, 2048, 2048]⟩

abbrev nBuf : Space → Nat
  | .hbm => 71
  | .vmem => 0
  | .smem => 0
  | _ => 0

abbrev bufTy : (tb : Table) → Fin (tcTables nBuf tb) → BufTy
  | .hbm, ⟨0, _⟩ => ⟨S8x2048x3, .f32⟩
  | .hbm, ⟨1, _⟩ => ⟨S8x2048, .f32⟩
  | .hbm, ⟨2, _⟩ => ⟨S8x2048x1, .f32⟩
  | .hbm, ⟨3, _⟩ => ⟨S8x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8x2048x1, .f32⟩
  | .hbm, ⟨9, _⟩ => ⟨S8x2048, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S_, .f32⟩
  | .hbm, ⟨15, _⟩ => ⟨S8x2048, .f32⟩
  | .hbm, ⟨16, _⟩ => ⟨S8x2048, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8x2048x1x3, .f32⟩
  | .hbm, ⟨22, _⟩ => ⟨S8x1x2048x3, .f32⟩
  | .hbm, ⟨23, _⟩ => ⟨S8x2048x2048x3, .f32⟩
  | .hbm, ⟨24, _⟩ => ⟨S8x2048x2048x3, .f32⟩
  | .hbm, ⟨25, _⟩ => ⟨S8x2048x2048x3, .f32⟩
  | .hbm, ⟨26, _⟩ => ⟨S8x2048x1, .f32⟩
  | .hbm, ⟨27, _⟩ => ⟨S8x1x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048x3, .f32⟩
  | .hbm, ⟨32, _⟩ => ⟨S_, .f32⟩
  | .hbm, ⟨33, _⟩ => ⟨S8x2048x2048, .f32⟩
  | .hbm, ⟨34, _⟩ => ⟨S_, .f32⟩
  | .hbm, ⟨35, _⟩ => ⟨S8x2048x2048, .f32⟩
  | .hbm, ⟨36, _⟩ => ⟨S8x2048x2048, .i1⟩
  | .hbm, ⟨37, _⟩ => ⟨S_, .f32⟩
  | .hbm, ⟨38, _⟩ => ⟨S_, .f32⟩
  | .hbm, ⟨39, _⟩ => ⟨S8x2048x2048, .f32⟩
  | .hbm, ⟨40, _⟩ => ⟨S8x2048x2048, .f32⟩
  | .hbm, ⟨41, _⟩ => ⟨S8x2048x2048, .f32⟩
  | .hbm, ⟨42, _⟩ => ⟨S_, .f32⟩
  | .hbm, ⟨43, _⟩ => ⟨S8x2048x2048, .f32⟩
  | .hbm, ⟨44, _⟩ => ⟨S8x2048x2048, .i1⟩
  | .hbm, ⟨45, _⟩ => ⟨S8x2048x2048, .f32⟩
  | .hbm, ⟨46, _⟩ => ⟨S8x2048x2048, .f32⟩
  | .hbm, ⟨47, _⟩ => ⟨S8x2048x2048, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .i1⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_call0_cst : Ref sig .tc := ⟨.hbm, 14, rfl⟩
abbrev main_call0_v0 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_call1_v0 : Ref sig .tc := ⟨.hbm, 38, rfl⟩
abbrev main_call1_v1 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_call2_cst : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_v35 : Ref sig .tc := ⟨.hbm, 62, rfl⟩
abbrev main_cst_10 : Ref sig .tc := ⟨.hbm, 63, rfl⟩
abbrev main_v36 : Ref sig .tc := ⟨.hbm, 64, rfl⟩
abbrev main_cst_11 : Ref sig .tc := ⟨.hbm, 65, rfl⟩
abbrev main_v37 : Ref sig .tc := ⟨.hbm, 66, rfl⟩
abbrev main_v38 : Ref sig .tc := ⟨.hbm, 67, rfl⟩
abbrev main_cst_12 : Ref sig .tc := ⟨.hbm, 68, rfl⟩
abbrev main_v39 : Ref sig .tc := ⟨.hbm, 69, rfl⟩
abbrev main_v40 : Ref sig .tc := ⟨.hbm, 70, rfl⟩

abbrev nD : Nat := 1
abbrev τ : Topo := Topo.v7x

variable {F : FTy → Type} [FloatOps F]

class Facts₀ : Prop where
  slices_S8x2048x3_S8x2048x1_0_0_1 : S8x2048x3.Slices ![0, 0, 1] S8x2048x1
  shapeCasts_S8x2048x1_S8x2048 : S8x2048x1.ShapeCasts S8x2048
  reducesTo_S8x2048_S_d0_1 : S8x2048.ReducesTo [0, 1] S_
  h_S_ : 0 < S_.numel
  bcast_S_S8x2048 : S_.BroadcastsInDim S8x2048 (![] : Fin 0 → Fin S8x2048.rank)
  bcast_S8x2048x3_S8x2048x1x3_0_1_3 : S8x2048x3.BroadcastsInDim S8x2048x1x3 (![0, 1, 3] : Fin 3 → Fin S8x2048x1x3.rank)
  bcast_S8x2048x3_S8x1x2048x3_0_2_3 : S8x2048x3.BroadcastsInDim S8x1x2048x3 (![0, 2, 3] : Fin 3 → Fin S8x1x2048x3.rank)
  bcast_S8x2048x1x3_S8x2048x2048x3_0_1_2_3 : S8x2048x1x3.BroadcastsInDim S8x2048x2048x3 (![0, 1, 2, 3] : Fin 4 → Fin S8x2048x2048x3.rank)
  bcast_S8x1x2048x3_S8x2048x2048x3_0_1_2_3 : S8x1x2048x3.BroadcastsInDim S8x2048x2048x3 (![0, 1, 2, 3] : Fin 4 → Fin S8x2048x2048x3.rank)
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  reducesTo_S8x2048x2048x3_S8x2048x2048_d3 : S8x2048x2048x3.ReducesTo [3] S8x2048x2048
  bcast_S_S8x2048x2048 : S_.BroadcastsInDim S8x2048x2048 (![] : Fin 0 → Fin S8x2048x2048.rank)
  reducesTo_S8x2048x2048_S_d0_1_2 : S8x2048x2048.ReducesTo [0, 1, 2] S_

variable [Facts₀]

class Facts : Prop extends Facts₀ where

variable [Facts]
-- ==== Proof.KBase.lean ====
/-
  The kernel program around its one region: what every buffer holds when the region is entered, the program
  as host lines, the region, host lines, the blocks each window reads at a grid point, and the two branch conditions of the
  body decided over the grid.

  The grid is 8 × 8, a point `t` standing for row `t / 8` (the `i` tile) and column `t % 8` (the `j` tile). The first
  condition holds exactly on the first column (`j = 0`: the three results are stored), the second exactly off it
  (`j ≠ 0`: the first result is added to). Windows 0 and 2 (the `i` blocks of the stacked positions and of the radii)
  change with the row only, windows 1 and 3 (the `j` blocks) with the column, and the three result windows with the row.
-/
import proofs.«104090_j82532091560339_2_alg».proof.Proof.Gen.Kernel.Launch
import proofs.«104090_j82532091560339_2_alg».proof.Proof.Gen.Kernel.Skeleton
import proofs.«104090_j82532091560339_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffers' contents when the region is entered: the ten host lines before it have run (the three coordinate planes
    sliced out of the positions and stacked). -/
abbrev V0 (c : Dev nD) : Valuation τ sig (Elt F) := StableHlo.after (List.flatten [hostOps0]) (fun b => m (c, b))
/-- The same read at a reference of the core. -/
abbrev V (c : Dev nD) (b : Ref sig .tc) : Buf (Elt F) ((c : Thread nD τ).loc b) := V0 m c (Proc.devRef .tc b)

/-- The host lines after the region: the three sums over the rows, their quotients, the softplus, the weighted sum. -/
abbrev tailOps : List (List (HloOp τ sig (Elt F))) := [hostOps1, hostOps1_1, hostOps1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The program is the lines before the region, the region, and the lines after it: it reduces to the region continued
    by the later lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- No line before the region writes the positions: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor the radii. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The branch conditions over the grid -/

/-- The first condition holds on the first column only. -/
theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
/-- The second holds off the first column only. -/
theorem hcond2 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-! ## The staging memrefs the body is called with -/

abbrev ms0_0 (t : Fin cfg0.N) : Memref sig .tc .vmem S3x8x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x8x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x128 .f32 := win0_6.stage (cfg0.slots t 6)
abbrev hs0_6 (t : Fin cfg0.N) : (ms0_6 t).IsWhole := hstage0_6 ((cfg0.slots t 6).cast nbuf0_6)

/-! ## An input window's buffer holds its block at every point -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand

end
-- ==== Proof.KRuns.lean ====
/-
  The tile body's two control cases share a vocabulary, collected here.

  Each grid point sees two position tiles of shape 3x8x256 (the x, y and z planes; 8 batches; 256 points) — one
  for the row of the pair grid, one for the column — and two radius tiles of shape 8x256. From the six planes it
  forms the 8x256x256 array of squared distances between row points and column points; from that and the two
  radius tiles the pairwise term  radius(p) + radius(q) − distance(p, q)  (the distance read as zero where the
  squared distance is zero), summed over batches, row points and column points to ONE number, spread over 128
  lanes. At the first column tile of a row that number is written out, together with two sums over the row tile
  alone; at a later column tile it is added to what the output already holds. The definitions below name these
  results as functions of the tiles' contents alone, so that the two runs can be stated without any memory
  vocabulary.
-/
import proofs.«104090_j82532091560339_2_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The rectangles the body reads and writes -/

theorem zero3 : (![0, 0, 0] : Fin 3 → Nat) = fun _ => 0 := funext fun a => by fin_cases a <;> rfl
theorem zero2 : (![0, 0] : Fin 2 → Nat) = fun _ => 0 := funext fun a => by fin_cases a <;> rfl

/-- Plane `k` of a 3x8x256 position tile, as a 1x8x256 rectangle: plane 0 holds x, plane 1 holds y, plane 2 holds z. -/
abbrev plane0 : Rect S3x8x256 := Rect.unit (s := S3x8x256) ![0, 0, 0] S1x8x256.size inb_S3x8x256_S1x8x256_0_0_0
abbrev plane1 : Rect S3x8x256 := Rect.unit (s := S3x8x256) ![1, 0, 0] S1x8x256.size inb_S3x8x256_S1x8x256_1_0_0
abbrev plane2 : Rect S3x8x256 := Rect.unit (s := S3x8x256) ![2, 0, 0] S1x8x256.size inb_S3x8x256_S1x8x256_2_0_0

/-- The whole of a 1x1x128 output tile. -/
abbrev lanes : Rect S1x1x128 := Rect.unit (s := S1x1x128) ![0, 0, 0] S1x1x128.size inb_S1x1x128_S1x1x128_0_0_0

/-! ## What the body computes, as functions of the tiles -/

/-- The squared distances between the points of the row tile `x0` and those of the column tile `x1`, batch by
    batch: at (b, p, q) the sum over the three planes of (x0 plane at (b, p) − x1 plane at (b, q)) squared. -/
def sqDist (x0 x1 : Vec F S3x8x256 .f32) : FVec F S8x256x256 .f32 :=
  k0_pay7 (View.ld x0 plane0) (View.ld x0 plane1) (View.ld x0 plane2) (View.ld x1 plane0) (View.ld x1 plane1) (View.ld x1 plane2)

/-- The y plane (plane 1) of the row tile, as an 8x256 array. -/
def rowY (x0 : Vec F S3x8x256 .f32) : FVec F S8x256 .f32 := k0_pay6 (View.ld x0 plane1)

/-- First column tile, first output: the pairwise term of the two tiles (radii `x2` of the row points, `x3` of the
    column points) summed over batches and both point axes to one number, on every lane. -/
def blkA4 (x0 x1 : Vec F S3x8x256 .f32) (x2 x3 : Vec F S8x256 .f32) : Vec F S1x1x128 .f32 :=
  k0_pay2 x2 x3 (sqDist x0 x1) (k0_pay8 (F := F))

/-- First column tile, second output: the sum of the row tile's y plane over batches and points, on every lane. -/
def blkA5 (x0 : Vec F S3x8x256 .f32) : Vec F S1x1x128 .f32 := k0_pay3 (rowY x0)

/-- First column tile, third output: the sum over batches and points of max(row radius − y + 0, 0), on every lane. -/
def blkA6 (x0 : Vec F S3x8x256 .f32) (x2 : Vec F S8x256 .f32) : Vec F S1x1x128 .f32 := k0_pay4 (rowY x0) x2

/-- Later column tile, first output: what the output held, `xo4`, plus (lane by lane) the summed pairwise term of the
    two tiles. -/
def blkB4 (x0 x1 : Vec F S3x8x256 .f32) (x2 x3 : Vec F S8x256 .f32) (xo4 : Vec F S1x1x128 .f32) : Vec F S1x1x128 .f32 :=
  k0_pay5 x2 x3 (sqDist x0 x1) (k0_pay8 (F := F)) xo4

/-! ## Reading back a buffer written whole, and loading a buffer whole -/

/-- One store through the whole of a 1x1x128 buffer leaves exactly its payload, whatever was there before. -/
theorem read_store_lanes (m : Memref sig .tc .vmem S1x1x128 .f32) (f : m.view.ty.Contents (Elt F)) (w : Vec F S1x1x128 .f32) :
    m.view.read (Elt F) (m.view.writes (Elt F) f [(⟨lanes, w⟩ : View.Piece (Elt F) S1x1x128 .f32)]) = w :=
  (View.read_writes_eq_canon m.view f [(⟨lanes, w⟩ : View.Piece (Elt F) S1x1x128 .f32)]
    (fun y => ⟨⟨lanes, w⟩, List.mem_singleton_self _,
      View.mem_set_unit_zero (S := S1x1x128) zero3 inb_S1x1x128_S1x1x128_0_0_0 y⟩)).trans
    (View.canon_unit_zero (S := S1x1x128) zero3 inb_S1x1x128_S1x1x128_0_0_0 w)

/-- A load through the whole of an 8x256 buffer reads its contents. -/
theorem ld_whole_S8x256 (X : Vec F S8x256 .f32) :
    View.ld X (Rect.unit (s := S8x256) ![0, 0] S8x256.size inb_S8x256_S8x256_0_0) = X :=
  View.ld_unit_zero (S := S8x256) zero2 inb_S8x256_S8x256_0_0 X

/-- A load through the whole of a 1x1x128 buffer reads its contents. -/
theorem ld_whole_lanes (X : Vec F S1x1x128 .f32) : View.ld X lanes = X :=
  View.ld_unit_zero (S := S1x1x128) zero3 inb_S1x1x128_S1x1x128_0_0_0 X

end Cert.Kernel.Hand

end
-- ==== Proof.KRunA.lean ====
/-
  The tile body at the FIRST column tile of a row (the column-tile coordinate is zero).

  There the body reads the two position tiles and the two radius tiles, and overwrites all three output tiles:
  the first with the pairwise term of the two tiles summed to one number, the second with the sum of the row
  tile's y plane, the third with the sum of max(row radius − y + 0, 0). Nothing the outputs held before
  survives, so they may hold anything on entry.
-/
import proofs.«104090_j82532091560339_2_alg».proof.Proof.KRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- On whole buffers — the four inputs at contents `x0 … x3`, the three outputs at anything — the body at the first
    column tile runs to any continuation that accepts the inputs unchanged and the outputs at `blkA4`, `blkA5`, `blkA6`
    of the inputs: every load reads the named plane of its buffer, each output is covered by one store, and a
    buffer stored whole reads back as the stored value. -/
theorem runA (c : Dev nD) (i : grid0.Coords) (arg2 : Memref sig .tc .vmem S3x8x256 .f32) (harg2 : arg2.IsWhole) (arg3 : Memref sig .tc .vmem S3x8x256 .f32) (harg3 : arg3.IsWhole) (arg4 : Memref sig .tc .vmem S8x256 .f32) (harg4 : arg4.IsWhole) (arg5 : Memref sig .tc .vmem S8x256 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole)
    (hc1 : k0_cond1 i = 1#1) (hc2 : ¬ k0_cond2 i = 1#1)
    (x0 x1 : Vec F S3x8x256 .f32) (x2 x3 : Vec F S8x256 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3
          ∗ (∃ d, owns (c : Thread nD τ) arg6 fullShare d) ∗ (∃ d, owns (c : Thread nD τ) arg7 fullShare d) ∗ (∃ d, owns (c : Thread nD τ) arg8 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3
              ∗ owns (c : Thread nD τ) arg6 fullShare (blkA4 x0 x1 x2 x3)
              ∗ owns (c : Thread nD τ) arg7 fullShare (blkA5 x0)
              ∗ owns (c : Thread nD τ) arg8 fullShare (blkA6 x0 x2)) -∗ K ⟨⟩))
        ⊢ wp frame (wpE (defs₀ (F := F)) Variants.none c none) E (cc0__kernel i arg2 harg2 arg3 harg3 arg4 harg4 arg5 harg5 arg6 harg6 arg7 harg7 arg8 harg8) K := by
  intro E K
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (read_store_lanes arg6 f4 _).trans ?_
    dsimp only
    simp only [View.readAt_eq_ld, hf0, hf1, hf2, hf3]
    exact congrArg₂ (fun a b => k0_pay2 a b (sqDist x0 x1) (k0_pay8 (F := F))) (ld_whole_S8x256 x2) (ld_whole_S8x256 x3)
  isplitl [H5]
  · iexists _; isplitr
    swap; · iexact H5
    ipureintro
    refine (read_store_lanes arg7 f5 _).trans ?_
    dsimp only
    simp only [View.readAt_eq_ld, hf0, hf1, hf2, hf3]
    rfl
  iexists _; isplitr
  swap; · iexact H6
  ipureintro
  refine (read_store_lanes arg8 f6 _).trans ?_
  dsimp only
  simp only [View.readAt_eq_ld, hf0, hf1, hf2, hf3]
  exact congrArg (fun b => k0_pay4 (rowY x0) b) (ld_whole_S8x256 x2)

end Cert.Kernel.Hand

end
-- ==== Proof.KRunB.lean ====
/-
  The tile body at a LATER column tile of a row (the column-tile coordinate is not zero).

  There the body reads the two position tiles and the two radius tiles, reads the first output tile, adds to it
  (lane by lane) the pairwise term of the two tiles summed to one number, and writes the sum back over the whole
  tile. The second and third output tiles are neither read nor written, and keep what they held.
-/
import proofs.«104090_j82532091560339_2_alg».proof.Proof.KRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- On whole buffers — the four inputs at contents `x0 … x3`, the three outputs at `xo4`, `xo5`, `xo6` — the body at a
    later column tile runs to any continuation that accepts the inputs unchanged, the first output at `blkB4` of
    the inputs and of `xo4`, and the other two outputs as they were: the first output is loaded whole before its
    one covering store, so the stored value is a function of what it held. -/
theorem runB (c : Dev nD) (i : grid0.Coords) (arg2 : Memref sig .tc .vmem S3x8x256 .f32) (harg2 : arg2.IsWhole) (arg3 : Memref sig .tc .vmem S3x8x256 .f32) (harg3 : arg3.IsWhole) (arg4 : Memref sig .tc .vmem S8x256 .f32) (harg4 : arg4.IsWhole) (arg5 : Memref sig .tc .vmem S8x256 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole)
    (hc1 : ¬ k0_cond1 i = 1#1) (hc2 : k0_cond2 i = 1#1)
    (x0 x1 : Vec F S3x8x256 .f32) (x2 x3 : Vec F S8x256 .f32) (xo4 xo5 xo6 : Vec F S1x1x128 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg6 fullShare xo4 ∗ owns (c : Thread nD τ) arg7 fullShare xo5 ∗ owns (c : Thread nD τ) arg8 fullShare xo6
          ∗ (iprop(owns (c : Thread nD τ) arg2 fullShare x0 ∗ owns (c : Thread nD τ) arg3 fullShare x1 ∗ owns (c : Thread nD τ) arg4 fullShare x2 ∗ owns (c : Thread nD τ) arg5 fullShare x3
              ∗ owns (c : Thread nD τ) arg6 fullShare (blkB4 x0 x1 x2 x3 xo4)
              ∗ owns (c : Thread nD τ) arg7 fullShare xo5
              ∗ owns (c : Thread nD τ) arg8 fullShare xo6) -∗ K ⟨⟩))
        ⊢ wp frame (wpE (defs₀ (F := F)) Variants.none c none) E (cc0__kernel i arg2 harg2 arg3 harg3 arg4 harg4 arg5 harg5 arg6 harg6 arg7 harg7 arg8 harg8) K := by
  intro E K
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3
  obtain rfl := harg6.eq_unread hf4
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (read_store_lanes arg6 _ _).trans ?_
    dsimp only
    simp only [View.readAt_eq_ld, hf0, hf1, hf2, hf3, hf4]
    exact (congrArg₂ (fun a b => k0_pay5 a b (sqDist x0 x1) (k0_pay8 (F := F)) (View.ld xo4 lanes)) (ld_whole_S8x256 x2) (ld_whole_S8x256 x3)).trans
      (congrArg (k0_pay5 x2 x3 (sqDist x0 x1) (k0_pay8 (F := F))) (ld_whole_lanes xo4))
  isplitl [H5]
  · iexists _; isplitr; · ipureintro; exact hf5
    iexact H5
  iexists _; isplitr; · ipureintro; exact hf6
  iexact H6

end Cert.Kernel.Hand

end
-- ==== Proof.KFrame.lean ====
/-
  The proof data of the kernel's one region and the body's obligation at every grid point.

  A row of the grid is eight consecutive points. On the row's first point the body stores three values — the pair sum of
  the point's blocks, the sum of the `i` block's `y` coordinates, and the sum of the positive parts of radius less `y` —
  into the three result windows' buffers. On the other seven it reads the first result's buffer, adds the point's pair
  sum and stores it back, and leaves the other two buffers alone. The result buffers are written back to their arrays at
  the row's last point only. So after any point the first buffer holds the pair sums of the row so far, and the other
  two what the row's first point stored.
-/
import proofs.«104090_j82532091560339_2_alg».proof.Proof.KBase
import proofs.«104090_j82532091560339_2_alg».proof.Proof.KRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the three result windows' buffers hold after each point -/

/-- After the body at position `n`: on the first column the three stored values of that point's blocks; off it the
    first result is the point's pair sum added to what the point before left, the other two as the point before left
    them (the body does not touch them, and their buffers are not written back inside a row). -/
def outsAt0 (c : Dev nD) : (n : ℕ) → n < cfg0.N → Vec F S1x1x128 .f32 × Vec F S1x1x128 .f32 × Vec F S1x1x128 .f32
  | 0, hn => (blkA4 (iblk m c 0 ⟨0, hn⟩) (iblk m c 1 ⟨0, hn⟩) (iblk m c 2 ⟨0, hn⟩) (iblk m c 3 ⟨0, hn⟩),
      blkA5 (iblk m c 0 ⟨0, hn⟩), blkA6 (iblk m c 0 ⟨0, hn⟩) (iblk m c 2 ⟨0, hn⟩))
  | n + 1, hn =>
    if h0 : (n + 1) % 8 = 0 then
      (blkA4 (iblk m c 0 ⟨n + 1, hn⟩) (iblk m c 1 ⟨n + 1, hn⟩) (iblk m c 2 ⟨n + 1, hn⟩) (iblk m c 3 ⟨n + 1, hn⟩),
        blkA5 (iblk m c 0 ⟨n + 1, hn⟩), blkA6 (iblk m c 0 ⟨n + 1, hn⟩) (iblk m c 2 ⟨n + 1, hn⟩))
    else
      (blkB4 (iblk m c 0 ⟨n + 1, hn⟩) (iblk m c 1 ⟨n + 1, hn⟩) (iblk m c 2 ⟨n + 1, hn⟩) (iblk m c 3 ⟨n + 1, hn⟩)
          (outsAt0 c n (Nat.lt_of_succ_lt hn)).1,
        (outsAt0 c n (Nat.lt_of_succ_lt hn)).2.1, (outsAt0 c n (Nat.lt_of_succ_lt hn)).2.2)

/-- On the first column. -/
theorem outsAt0_A (c : Dev nD) (t : Fin cfg0.N) (h0 : t.val % 8 = 0) :
    outsAt0 m c t.val t.isLt = (blkA4 (iblk m c 0 t) (iblk m c 1 t) (iblk m c 2 t) (iblk m c 3 t),
      blkA5 (iblk m c 0 t), blkA6 (iblk m c 0 t) (iblk m c 2 t)) := by
  obtain ⟨n, hn⟩ := t
  cases n with
  | zero => exact rfl
  | succ n => exact (dif_pos h0).trans rfl

/-- Off the first column. -/
theorem outsAt0_B (c : Dev nD) (t : Fin cfg0.N) (h0 : ¬t.val % 8 = 0) :
    outsAt0 m c t.val t.isLt = (blkB4 (iblk m c 0 t) (iblk m c 1 t) (iblk m c 2 t) (iblk m c 3 t)
        (outsAt0 m c (t.val - 1) (Nat.lt_of_le_of_lt (Nat.sub_le _ _) t.isLt)).1,
      (outsAt0 m c (t.val - 1) (Nat.lt_of_le_of_lt (Nat.sub_le _ _) t.isLt)).2.1,
      (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The proof data -/

/-- The arrays as the region finds them; after the body each input window's buffer at its block and the result windows'
    at `outsAt0`; the two arrays that two windows read are held half and half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## Where the result windows are idle, and where they are written back -/

/-- The first result window is stored into at every point. -/
theorem live4 : ∀ i : grid0.Coords, cfg0.idle 4 i = false := by decide +kernel
/-- The other two are stored into on the first column only. -/
theorem idle5_iff (t : Fin cfg0.N) : cfg0.idle 5 (grid0.coords t) = true ↔ ¬ t.val % 8 = 0 := by
  show (!(k0_cond1 (grid0.coords t) == 1#1)) = true ↔ _
  rw [Bool.not_eq_true', beq_eq_false_iff_ne, Ne, hcond1]
theorem idle6_iff (t : Fin cfg0.N) : cfg0.idle 6 (grid0.coords t) = true ↔ ¬ t.val % 8 = 0 := by
  show (!(k0_cond1 (grid0.coords t) == 1#1)) = true ↔ _
  rw [Bool.not_eq_true', beq_eq_false_iff_ne, Ne, hcond1]

/-! ## What the result windows' buffers hold when the body runs off the first column -/

/-- The first result's buffer holds what the point before left: it was not written back in between. -/
theorem before0_4_B (c : Dev nD) (t : Fin cfg0.N) (h0 : ¬t.val % 8 = 0) (d) :
    (dats m 0 c).before 4 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    live4 (fun _ _ => rfl)]
  dsimp only [dats]

/-- What an uncut window's buffer keeps of what the body left is all of it. -/
theorem kept_eq_after (c : Dev nD) (w : Fin cfg0.W) (hclip : ∀ (i : cfg0.grid.Coords) a, (cfg0.win w).clip i a = none) (t : Fin cfg0.N) (d) :
    (dats m 0 c).kept w t d = (dats m 0 c).after w t := by
  unfold Dat.kept
  rw [Pipeline.fill_of_clip_none w _ (hclip _) d ((dats m 0 c).after w t), Window.fill_cut]

/-- The second result's buffer holds what the point before left, through the run of points that leave it alone. -/
theorem before0_5_B (c : Dev nD) : ∀ (n : ℕ) (hn : n < cfg0.N), ¬n % 8 = 0 → ∀ d,
    (dats m 0 c).before 5 ⟨n, hn⟩ d = (outsAt0 m c (n - 1) (Nat.lt_of_le_of_lt (Nat.sub_le _ _) hn)).2.1 := by
  intro n
  induction n using Nat.strong_induction_on with
  | _ n ih =>
    intro hn h0 d
    have hN : n < 64 := lt_of_lt_of_eq hn (show cfg0.N = 64 from N_0)
    have hn0 : n ≠ 0 := fun h => h0 (by rw [h])
    rw [(dats m 0 c).before_of_pos 5 ⟨n, hn⟩ hn0 ((cfg0.win 5).fetch_out rfl _)]
    rw [show (cfg0.win 5).flush ⟨n - 1, Nat.lt_of_le_of_lt (Nat.sub_le _ _) hn⟩ = false from
      Bool.eq_false_iff.mpr fun h => by have := (flush0_5 _).mp h; dsimp only at this; omega, if_neg Bool.false_ne_true]
    unfold Dat.left
    by_cases h1 : (n - 1) % 8 = 0
    · rw [show cfg0.idle 5 (cfg0.grid.coords ⟨n - 1, Nat.lt_of_le_of_lt (Nat.sub_le _ _) hn⟩) = false from
        Bool.eq_false_iff.mpr fun h => ((idle5_iff ⟨n - 1, _⟩).mp h) h1]
      dsimp only
      rw [kept_eq_after m c 5 (fun _ _ => rfl)]
      dsimp only [dats]
    · rw [show cfg0.idle 5 (cfg0.grid.coords ⟨n - 1, Nat.lt_of_le_of_lt (Nat.sub_le _ _) hn⟩) = true from (idle5_iff ⟨n - 1, _⟩).mpr h1]
      dsimp only
      rw [ih (n - 1) (by omega) _ h1 d, outsAt0_B m c ⟨n - 1, Nat.lt_of_le_of_lt (Nat.sub_le _ _) hn⟩ h1]

/-- The third result's likewise. -/
theorem before0_6_B (c : Dev nD) : ∀ (n : ℕ) (hn : n < cfg0.N), ¬n % 8 = 0 → ∀ d,
    (dats m 0 c).before 6 ⟨n, hn⟩ d = (outsAt0 m c (n - 1) (Nat.lt_of_le_of_lt (Nat.sub_le _ _) hn)).2.2 := by
  intro n
  induction n using Nat.strong_induction_on with
  | _ n ih =>
    intro hn h0 d
    have hN : n < 64 := lt_of_lt_of_eq hn (show cfg0.N = 64 from N_0)
    have hn0 : n ≠ 0 := fun h => h0 (by rw [h])
    rw [(dats m 0 c).before_of_pos 6 ⟨n, hn⟩ hn0 ((cfg0.win 6).fetch_out rfl _)]
    rw [show (cfg0.win 6).flush ⟨n - 1, Nat.lt_of_le_of_lt (Nat.sub_le _ _) hn⟩ = false from
      Bool.eq_false_iff.mpr fun h => by have := (flush0_6 _).mp h; dsimp only at this; omega, if_neg Bool.false_ne_true]
    unfold Dat.left
    by_cases h1 : (n - 1) % 8 = 0
    · rw [show cfg0.idle 6 (cfg0.grid.coords ⟨n - 1, Nat.lt_of_le_of_lt (Nat.sub_le _ _) hn⟩) = false from
        Bool.eq_false_iff.mpr fun h => ((idle6_iff ⟨n - 1, _⟩).mp h) h1]
      dsimp only
      rw [kept_eq_after m c 6 (fun _ _ => rfl)]
      dsimp only [dats]
    · rw [show cfg0.idle 6 (cfg0.grid.coords ⟨n - 1, Nat.lt_of_le_of_lt (Nat.sub_le _ _) hn⟩) = true from (idle6_iff ⟨n - 1, _⟩).mpr h1]
      dsimp only
      rw [ih (n - 1) (by omega) _ h1 d, outsAt0_B m c ⟨n - 1, Nat.lt_of_le_of_lt (Nat.sub_le _ _) hn⟩ h1]

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

theorem leaves0 (c : Dev nD) (t : Fin cfg0.N) : (dats m 0 c).leavesExact 0 t = owns (c : Thread nD τ) (ms0_0 t) fullShare (iblk m c 0 t) := by
  unfold Dat.leavesExact; rw [after0_0]
theorem leaves1 (c : Dev nD) (t : Fin cfg0.N) : (dats m 0 c).leavesExact 1 t = owns (c : Thread nD τ) (ms0_1 t) fullShare (iblk m c 1 t) := by
  unfold Dat.leavesExact; rw [after0_1]
theorem leaves2 (c : Dev nD) (t : Fin cfg0.N) : (dats m 0 c).leavesExact 2 t = owns (c : Thread nD τ) (ms0_2 t) fullShare (iblk m c 2 t) := by
  unfold Dat.leavesExact; rw [after0_2]
theorem leaves3 (c : Dev nD) (t : Fin cfg0.N) : (dats m 0 c).leavesExact 3 t = owns (c : Thread nD τ) (ms0_3 t) fullShare (iblk m c 3 t) := by
  unfold Dat.leavesExact; rw [after0_3]
theorem leaves4 (c : Dev nD) (t : Fin cfg0.N) :
    (dats m 0 c).leavesExact 4 t = owns (c : Thread nD τ) (ms0_4 t) fullShare (outsAt0 m c t.val t.isLt).1 := by
  unfold Dat.leavesExact; rw [live4, after0_4]
/-- A result window at a point that stores into it, or that writes it back: the buffer at `after`. -/
theorem leaves5_after (c : Dev nD) (t : Fin cfg0.N) (h : t.val % 8 = 0 ∨ t.val % 8 = 7) :
    (dats m 0 c).leavesExact 5 t = owns (c : Thread nD τ) (ms0_5 t) fullShare (outsAt0 m c t.val t.isLt).2.1 := by
  unfold Dat.leavesExact
  rcases h with h | h
  · rw [show cfg0.idle 5 (cfg0.grid.coords t) = false from Bool.eq_false_iff.mpr fun hi => ((idle5_iff t).mp hi) h, after0_5]
  · rw [show cfg0.idle 5 (cfg0.grid.coords t) = true from (idle5_iff t).mpr (by omega), show (cfg0.win 5).flush t = true from (flush0_5 t).mpr h, after0_5]
theorem leaves6_after (c : Dev nD) (t : Fin cfg0.N) (h : t.val % 8 = 0 ∨ t.val % 8 = 7) :
    (dats m 0 c).leavesExact 6 t = owns (c : Thread nD τ) (ms0_6 t) fullShare (outsAt0 m c t.val t.isLt).2.2 := by
  unfold Dat.leavesExact
  rcases h with h | h
  · rw [show cfg0.idle 6 (cfg0.grid.coords t) = false from Bool.eq_false_iff.mpr fun hi => ((idle6_iff t).mp hi) h, after0_6]
  · rw [show cfg0.idle 6 (cfg0.grid.coords t) = true from (idle6_iff t).mpr (by omega), show (cfg0.win 6).flush t = true from (flush0_6 t).mpr h, after0_6]

set_option maxHeartbeats 1600000 in
/-- The body at any point. On the first column the three stores cover the three result buffers; off it the first result
    is read and added to, the other two buffers pass through as they were found, which at the last column is what the
    row's first point stored. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    leaves0, leaves1, leaves2, leaves3, leaves4]
  have hN : t.val < 64 := lt_of_lt_of_eq t.isLt (show cfg0.N = 64 from N_0)
  by_cases h0 : t.val % 8 = 0
  · rw [leaves5_after m c t (.inl h0), leaves6_after m c t (.inl h0), outsAt0_A m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (runA c (grid0.coords t) _ _ _ _ _ _ _ _ _ _ _ _ _ _ ((hcond1 t).mpr h0) (fun h => ((hcond2 t).mp h) h0)
      (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · obtain ⟨n, hn⟩ := t
    simp only [before0_4_B m c ⟨n, hn⟩ h0, before0_5_B m c n hn h0, before0_6_B m c n hn h0]
    by_cases h7 : n % 8 = 7
    · rw [leaves5_after m c ⟨n, hn⟩ (.inr h7), leaves6_after m c ⟨n, hn⟩ (.inr h7), outsAt0_B m c ⟨n, hn⟩ h0]
      iintro ⟨HΦ, Ho, ⟨%d0, H0⟩, ⟨%d1, H1⟩, ⟨%d2, H2⟩, ⟨%d3, H3⟩, ⟨%d4, H4⟩, ⟨%d5, H5⟩, ⟨%d6, H6⟩⟩
      iapply (runB c (grid0.coords ⟨n, hn⟩) _ _ _ _ _ _ _ _ _ _ _ _ _ _ (fun h => h0 ((hcond1 ⟨n, hn⟩).mp h)) ((hcond2 ⟨n, hn⟩).mpr h0)
        (iblk m c 0 ⟨n, hn⟩) (iblk m c 1 ⟨n, hn⟩) (iblk m c 2 ⟨n, hn⟩) (iblk m c 3 ⟨n, hn⟩) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dats m 0 c) 5 ⟨n, hn⟩ ((idle5_iff ⟨n, hn⟩).mpr h0)
          (Bool.eq_false_iff.mpr fun h => h7 ((flush0_5 ⟨n, hn⟩).mp h)),
        Dat.leavesExact_idle (dats m 0 c) 6 ⟨n, hn⟩ ((idle6_iff ⟨n, hn⟩).mpr h0)
          (Bool.eq_false_iff.mpr fun h => h7 ((flush0_6 ⟨n, hn⟩).mp h)), outsAt0_B m c ⟨n, hn⟩ h0]
      simp only [before0_5_B m c n hn h0, before0_6_B m c n hn h0]
      iintro ⟨HΦ, Ho, ⟨%d0, H0⟩, ⟨%d1, H1⟩, ⟨%d2, H2⟩, ⟨%d3, H3⟩, ⟨%d4, H4⟩, ⟨%d5, H5⟩, ⟨%d6, H6⟩⟩
      iapply (runB c (grid0.coords ⟨n, hn⟩) _ _ _ _ _ _ _ _ _ _ _ _ _ _ (fun h => h0 ((hcond1 ⟨n, hn⟩).mp h)) ((hcond2 ⟨n, hn⟩).mpr h0)
        (iblk m c 0 ⟨n, hn⟩) (iblk m c 1 ⟨n, hn⟩) (iblk m c 2 ⟨n, hn⟩) (iblk m c 3 ⟨n, hn⟩) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexists d5; iexact H5
      iexists d6; iexact H6

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KLaunch.lean ====
/-
  The launch of the kernel's region and the run of the whole program.

  Two of the arrays the region reads are each read through two windows (the stacked positions by the `i` and the `j`
  block windows, and so the radii). At entry each such array, held whole, is split into two half shares, one per window;
  the region only reads them, and the lines after the region do not touch them. Those lines read the three result arrays,
  which the region hands back whole, and write only buffers of their own.
-/
import proofs.«104090_j82532091560339_2_alg».proof.Proof.KFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-! ## The arrays at entry -/

/-- The distinct buffers behind the seven windows. -/
theorem arr_image : Finset.univ.image (arrRef (spec0)) = ({main_v9, main_arg1, main_v10_0, main_v10_1, main_v10_2} : Finset (Ref sig .tc)) := by
  decide

/-- A conjunction over the five buffers, one by one. -/
theorem bigSep_arrs {M : Type} [URA M] (Φ : Ref sig .tc → sProp M) :
    bigSep ({main_v9, main_arg1, main_v10_0, main_v10_1, main_v10_2} : Finset (Ref sig .tc)) Φ
      = iprop(Φ main_v9 ∗ Φ main_arg1 ∗ Φ main_v10_0 ∗ Φ main_v10_1 ∗ Φ main_v10_2) := by
  rw [BI.bigSep_insert (by decide), BI.bigSep_insert (by decide), BI.bigSep_insert (by decide), BI.bigSep_insert (by decide),
    BI.bigSep_singleton]
  rfl

/-- The windows' arrays are whole buffers: the proof data's `arrays` window by window. -/
theorem arrays_pts (c : Dev nD) (Fw : (w : Fin cfg0.W) → Buf (Elt F) ((cfg0.win w).arr.view.loc (c.tc : Thread nD τ))) :
    (dats m 0 c).arrays Fw = bigSep Finset.univ fun w : Fin 7 =>
      (((c.tc : Thread nD τ).loc (arrRef spec0 w)) ↦{(dats m 0 c).share w} Fw w : sProp 𝕄) := by
  unfold Dat.arrays
  exact bigSep_congr fun w _ => by rw [(arr_whole0 w).set_eq_univ]

theorem share0 (c : Dev nD) : (dats m 0 c).share 0 = fullShare.left := rfl
theorem share1 (c : Dev nD) : (dats m 0 c).share 1 = fullShare.right := rfl
theorem share2 (c : Dev nD) : (dats m 0 c).share 2 = fullShare.left := rfl
theorem share3 (c : Dev nD) : (dats m 0 c).share 3 = fullShare.right := rfl
theorem share4 (c : Dev nD) : (dats m 0 c).share 4 = fullShare := rfl
theorem share5 (c : Dev nD) : (dats m 0 c).share 5 = fullShare := rfl
theorem share6 (c : Dev nD) : (dats m 0 c).share 6 = fullShare := rfl

/-- At entry: each of the two doubly-read arrays is split in halves between its two windows. -/
theorem hsplit0 (c : Dev nD) :
    (arrBufs spec0 c (V m c) : sProp 𝕄) ⊢ (dats m 0 c).arrays ((dats m 0 c).arrAt · 0) := by
  rw [arrays_pts, bigSep_W0, share0, share1, share2, share3, share4, share5, share6]
  unfold arrBufs
  rw [arr_image, bigSep_arrs]
  iintro ⟨H9, H1, Ha, Hb, Hc⟩
  ihave H9' := (pointsTo_share (PosShare.mem_left_op_right fullShare)).1 $$ H9
  ihave H1' := (pointsTo_share (PosShare.mem_left_op_right fullShare)).1 $$ H1
  icases H9' with ⟨H9l, H9r⟩
  icases H1' with ⟨H1l, H1r⟩
  isplitl [H9l]; · iexact H9l
  isplitl [H9r]; · iexact H9r
  isplitl [H1l]; · iexact H1l
  isplitl [H1r]; · iexact H1r
  isplitl [Ha]; · iexact Ha
  isplitl [Hb]; · iexact Hb
  iexact Hc

/-! ## The lines after the region -/

/-- What the buffers hold when the region is left: the three result arrays as the write-backs leave them, every other
    buffer as the region found it. -/
def Wx (c : Dev nD) : Valuation τ sig (Elt F) := fun b =>
  if h4 : Proc.devRef .tc main_v10_0 = b then cast (congrArg (fun b' : DevRef τ sig => b'.ty.Contents (Elt F)) h4) ((dats m 0 c).arrAt 4 cfg0.N)
  else if h5 : Proc.devRef .tc main_v10_1 = b then cast (congrArg (fun b' : DevRef τ sig => b'.ty.Contents (Elt F)) h5) ((dats m 0 c).arrAt 5 cfg0.N)
  else if h6 : Proc.devRef .tc main_v10_2 = b then cast (congrArg (fun b' : DevRef τ sig => b'.ty.Contents (Elt F)) h6) ((dats m 0 c).arrAt 6 cfg0.N)
  else V0 m c b

theorem Wx_v10_0 (c : Dev nD) : Wx m c (Proc.devRef .tc main_v10_0) = (dats m 0 c).arrAt 4 cfg0.N := by
  unfold Wx; rw [dif_pos rfl]; rfl
theorem Wx_v10_1 (c : Dev nD) : Wx m c (Proc.devRef .tc main_v10_1) = (dats m 0 c).arrAt 5 cfg0.N := by
  unfold Wx; rw [dif_neg (StableHlo.devRef_ne_of_ne (by decide)), dif_pos rfl]; rfl
theorem Wx_v10_2 (c : Dev nD) : Wx m c (Proc.devRef .tc main_v10_2) = (dats m 0 c).arrAt 6 cfg0.N := by
  unfold Wx; rw [dif_neg (StableHlo.devRef_ne_of_ne (by decide)), dif_neg (StableHlo.devRef_ne_of_ne (by decide)), dif_pos rfl]; rfl
theorem Wx_other (c : Dev nD) (b : Ref sig .tc) (h0 : main_v10_0 ≠ b) (h1 : main_v10_1 ≠ b) (h2 : main_v10_2 ≠ b) :
    Wx m c (Proc.devRef .tc b) = V m c b := by
  unfold Wx
  rw [dif_neg (StableHlo.devRef_ne_of_ne h0), dif_neg (StableHlo.devRef_ne_of_ne h1), dif_neg (StableHlo.devRef_ne_of_ne h2)]

/-- And after the lines that follow the region. -/
def Wend (c : Dev nD) : Valuation τ sig (Elt F) := StableHlo.after (tailOps (F := F)).flatten (Wx m c)

theorem tail_keeps_v9 : ∀ op ∈ (tailOps (F := F)).flatten, Proc.devRef (τ := τ) .tc main_v9 ∉ op.writes :=
  List.forall_iff_forall_mem.mp (by
    simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))

theorem tail_keeps_arg1 : ∀ op ∈ (tailOps (F := F)).flatten, Proc.devRef (τ := τ) .tc main_arg1 ∉ op.writes :=
  List.forall_iff_forall_mem.mp (by
    simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))

theorem tail_keeps_arg0 : ∀ op ∈ (tailOps (F := F)).flatten, Proc.devRef (τ := τ) .tc main_arg0 ∉ op.writes :=
  List.forall_iff_forall_mem.mp (by
    simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))

theorem tail_keeps_o0 : ∀ op ∈ (tailOps (F := F)).flatten, Proc.devRef (τ := τ) .tc main_v10_0 ∉ op.writes :=
  List.forall_iff_forall_mem.mp (by
    simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))

theorem tail_keeps_o1 : ∀ op ∈ (tailOps (F := F)).flatten, Proc.devRef (τ := τ) .tc main_v10_1 ∉ op.writes :=
  List.forall_iff_forall_mem.mp (by
    simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))

theorem tail_keeps_o2 : ∀ op ∈ (tailOps (F := F)).flatten, Proc.devRef (τ := τ) .tc main_v10_2 ∉ op.writes :=
  List.forall_iff_forall_mem.mp (by
    simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))

/-- The lines after the region touch unscoped buffers of the core only, -/
theorem tail_sub : ∀ ops ∈ (tailOps (F := F)), ∀ op ∈ ops, op.bufs ⊆ ucRefs τ sig := by
  intro ops hops op hop
  simp only [tailOps, List.mem_cons, List.mem_nil_iff, or_false] at hops
  rcases hops with rfl | rfl | rfl
  · exact sub_ucRefs op ((List.forall_iff_forall_mem.mp hostOps1_sub) op hop)
  · exact sub_ucRefs op ((List.forall_iff_forall_mem.mp hostOps1_1_sub) op hop)
  · exact sub_ucRefs op ((List.forall_iff_forall_mem.mp hostOps1_2_sub) op hop)
/-- and allocate nothing. -/
theorem tail_fresh : ∀ ops ∈ (tailOps (F := F)), ∀ op ∈ ops, op.fresh = ∅ := by
  intro ops hops op hop
  simp only [tailOps, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- The core's unscoped buffers, whole at contents `W`: the five buffers behind the windows and the rest. -/
theorem held_uc (c : Dev nD) (W : Valuation τ sig (Elt F)) :
    (StableHlo.held (c.tc : Thread nD τ) (ucRefs τ sig) W : sProp 𝕄)
      = iprop(((((c.tc : Thread nD τ).loc main_v9) ↦{fullShare} W (Proc.devRef .tc main_v9))
          ∗ (((c.tc : Thread nD τ).loc main_arg1) ↦{fullShare} W (Proc.devRef .tc main_arg1))
          ∗ (((c.tc : Thread nD τ).loc main_v10_0) ↦{fullShare} W (Proc.devRef .tc main_v10_0))
          ∗ (((c.tc : Thread nD τ).loc main_v10_1) ↦{fullShare} W (Proc.devRef .tc main_v10_1))
          ∗ (((c.tc : Thread nD τ).loc main_v10_2) ↦{fullShare} W (Proc.devRef .tc main_v10_2)))
          ∗ unscopedRest spec0 c (fun b => W (Proc.devRef .tc b))) := by
  classical
  have hA : Finset.univ.image (arrRef spec0) ⊆ Finset.univ.filter fun b : Ref sig .tc => ¬ b.isScoped := by decide
  rw [← unscopedBufs_held (Ix := Unit) (Name := ℕ) (U := UR sig nD τ) (Lvl := ℕ) c W]
  unfold unscopedBufs unscopedRest
  rw [bigSep_sdiff_split hA]
  congr 1
  rw [arr_image, bigSep_arrs]

set_option maxHeartbeats 1600000 in
/-- From the region's exit — the arrays as the write-backs leave them, the bypassing buffers as the region found them —
    the lines that follow run, and hand back the arrays untouched and the bypassing buffers at `Wend`. The two halves of
    each doubly-read array are joined for the run and split again after it. -/
theorem htail0 (𝒱₀ : Variants) (c : Dev nD) (Q' : PUnit → sProp 𝕄) :
    iprop((iprop((dats m 0 c).arrays ((dats m 0 c).arrAt · cfg0.N) ∗ unscopedRest spec0 c (fun b => Wend m c (Proc.devRef .tc b))) -∗ Q' ⟨⟩)
        ∗ boundary (c.tc : Thread nD τ) ∗ (dats m 0 c).arrays ((dats m 0 c).arrAt · cfg0.N) ∗ unscopedRest spec0 c (V m c))
      ⊢ wp frame (wpE (Pipeline.defs (fun q => Cfg.toPCfg (Val := Elt F) (cfgs q)) defs₀) (Variants.lift 𝒱₀) (c.tc : Thread nD τ) none) Set.univ
          (chain ((tailOps (F := F)).map StableHlo.seq)) Q' := by
  unfold Wend
  rw [arrays_pts, bigSep_W0, share0, share1, share2, share3, share4, share5, share6,
    (dats m 0 c).arrAt_in 0 rfl, (dats m 0 c).arrAt_in 1 rfl, (dats m 0 c).arrAt_in 2 rfl, (dats m 0 c).arrAt_in 3 rfl,
    A_eq, A_eq, A_eq, A_eq]
  have hW := held_uc c (Wx m c)
  rw [Wx_other m c main_v9 (by decide) (by decide) (by decide), Wx_other m c main_arg1 (by decide) (by decide) (by decide),
    Wx_v10_0, Wx_v10_1, Wx_v10_2,
    show unscopedRest spec0 c (fun b => Wx m c (Proc.devRef .tc b)) = (unscopedRest spec0 c (V m c) : sProp 𝕄) from
      bigSep_congr fun b hb => by
        beta_reduce
        rw [Wx_other m c b (fun e => (Finset.mem_sdiff.mp hb).2 (Finset.mem_image.mpr ⟨4, Finset.mem_univ _, e⟩))
          (fun e => (Finset.mem_sdiff.mp hb).2 (Finset.mem_image.mpr ⟨5, Finset.mem_univ _, e⟩))
          (fun e => (Finset.mem_sdiff.mp hb).2 (Finset.mem_image.mpr ⟨6, Finset.mem_univ _, e⟩))]] at hW
  have hW' := held_uc c (StableHlo.after (tailOps (F := F)).flatten (Wx m c))
  rw [show StableHlo.after (tailOps (F := F)).flatten (Wx m c) (Proc.devRef .tc main_v9) = V m c main_v9 from
        (StableHlo.after_of_forall_not_mem _ _ tail_keeps_v9).trans (Wx_other m c main_v9 (by decide) (by decide) (by decide)),
    show StableHlo.after (tailOps (F := F)).flatten (Wx m c) (Proc.devRef .tc main_arg1) = V m c main_arg1 from
        (StableHlo.after_of_forall_not_mem _ _ tail_keeps_arg1).trans (Wx_other m c main_arg1 (by decide) (by decide) (by decide)),
    show StableHlo.after (tailOps (F := F)).flatten (Wx m c) (Proc.devRef .tc main_v10_0) = (dats m 0 c).arrAt 4 cfg0.N from
        (StableHlo.after_of_forall_not_mem _ _ tail_keeps_o0).trans (Wx_v10_0 m c),
    show StableHlo.after (tailOps (F := F)).flatten (Wx m c) (Proc.devRef .tc main_v10_1) = (dats m 0 c).arrAt 5 cfg0.N from
        (StableHlo.after_of_forall_not_mem _ _ tail_keeps_o1).trans (Wx_v10_1 m c),
    show StableHlo.after (tailOps (F := F)).flatten (Wx m c) (Proc.devRef .tc main_v10_2) = (dats m 0 c).arrAt 6 cfg0.N from
        (StableHlo.after_of_forall_not_mem _ _ tail_keeps_o2).trans (Wx_v10_2 m c)] at hW'
  rw [← List.append_nil ((tailOps (F := F)).map StableHlo.seq)]
  iintro ⟨Hk, Hb, ⟨A0, A1, A2, A3, A4, A5, A6⟩, HZ⟩
  ihave H9 := (pointsTo_share (PosShare.mem_left_op_right fullShare)).2 $$ [A0 A1]
  · isplitl [A0]; · iexact A0
    iexact A1
  ihave H1 := (pointsTo_share (PosShare.mem_left_op_right fullShare)).2 $$ [A2 A3]
  · isplitl [A2]; · iexact A2
    iexact A3
  iapply (wp_seqs_then (fun q => Cfg.toPCfg (Val := Elt F) (cfgs q)) defs₀ 𝒱₀ c (ucRefs τ sig) [] (tailOps (F := F)) tail_sub tail_fresh (Wx m c)) $$ [Hb H9 H1 A4 A5 A6 HZ]
  · rw [hW]
    isplitl [Hb]; · iexact Hb
    isplitr [HZ]
    · isplitl [H9]; · iexact H9
      isplitl [H1]; · iexact H1
      isplitl [A4]; · iexact A4
      isplitl [A5]; · iexact A5
      iexact A6
    iexact HZ
  iintro Hb
  rw [chain_nil, wp_pure, hW']
  imodintro
  iapply Hk
  icases Hb with ⟨-, ⟨H9, H1, B4, B5, B6⟩, HZ'⟩
  ihave H9' := (pointsTo_share (PosShare.mem_left_op_right fullShare)).1 $$ H9
  ihave H1' := (pointsTo_share (PosShare.mem_left_op_right fullShare)).1 $$ H1
  icases H9' with ⟨A0, A1⟩
  icases H1' with ⟨A2, A3⟩
  isplitr [HZ']
  · isplitl [A0]; · iexact A0
    isplitl [A1]; · iexact A1
    isplitl [A2]; · iexact A2
    isplitl [A3]; · iexact A3
    isplitl [B4]; · iexact B4
    isplitl [B5]; · iexact B5
    iexact B6
  iexact HZ'

/-! ## The run -/

/-- The core's buffer that no window stages, as the run ends. -/
abbrev pcs0 : Fin 1 → PCfg sig Λ₀ (Elt F) := fun q => (cfgs q).toPCfg (Val := Elt F)
abbrev adm0 : (p : Fin 1) → (pcs0 (F := F) p).Adm := fun q => (cfgs q).toPCfg_adm

theorem cell_inj : Function.Injective (cellOf (nD := nD) (τ := τ) (pin (pcs0 (F := F)) adm0)) := Gen.cellOf_inj

set_option backward.isDefEq.respectTransparency.types false in
set_option maxHeartbeats 1600000 in
/-- At the compiled mesh, from any memory with zero counters: every weakly fair execution of the program terminates, nothing
    faulting; every array a window stages ends as the write-backs leave it (an input array as it was), and every other
    unscoped buffer as the lines after the region leave it. -/
theorem run_main : θ_run (defs (F := F)) (onTc (τ := τ) (main (F := F))) (s₀ m ρ) (fun r => ∀ c : Dev nD,
    (∀ w, r.2.mem (((cfg0).spec w).arr.view.loc (c.tc : Thread nD τ)) = (dats m 0 c).arrAt w cfg0.N)
    ∧ ∀ b ∈ restRefs sig spec0, r.2.mem ((c.tc : Thread nD τ).loc b) = Wend m c (Proc.devRef .tc b)) := by
  classical
  exact θ_run_region_pf_tail (pcs0 (F := F)) adm0 (dats m) () cell_inj 0 winFacts₀0 (OwnSemFacts.none spec0) (PreFacts.none _) emb₁ defs₀ Variants.none m ρ main
    (fun _ => chain ((tailOps (F := F)).map StableHlo.seq)) (fun c => (body_obligation m c).loose)
    block_pos0 arr_whole0 stage_whole0 (fun _ _ => rfl)
    (G := fun _ => iprop(emp)) (u₀ := initOf (cells (pin (pcs0 (F := F)) adm0) cell_inj) (launchToks (pin (pcs0 (F := F)) adm0) cell_inj))
    (hu₀ := by
      iintro Hu; imodintro
      isplitl [Hu]; · iapply (show (ownU _ : sProp 𝕄) ⊢ BI.own (emb₁ (initOf (cells (pin (pcs0 (F := F)) adm0) cell_inj) (launchToks (pin (pcs0 (F := F)) adm0) cell_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit0 m)
    (hpf := fun _ k => k.elim0)
    (X := fun c => iprop(∃ r, prngReg c r)) (Y := fun c => iprop(∃ r, prngReg c r))
    (Z := fun c => unscopedRest (Ix := Unit) (Name := ℕ) (U := UR sig nD τ) (Lvl := ℕ) spec0 c (V m c))
    (Z' := fun c => unscopedRest (Ix := Unit) (Name := ℕ) (U := UR sig nD τ) (Lvl := ℕ) spec0 c (fun b => Wend m c (Proc.devRef .tc b)))
    (hX := fun c => by
      rw [unscopedRestP_none]
      iintro ⟨HU, -, -, -, Hp, -⟩; imodintro
      isplitl [Hp]; · iexists _; iexact Hp
      iexact HU)
    (hin := fun c => by
      show _ ⊢ ΦA spec0 c
      unfold ΦA; iintro ⟨Hp, -, Hr⟩
      isplitl [Hr] <;> iassumption)
    (hout := fun c => by
      show ΦA spec0 c ⊢ _
      rw [ownSems0_none]; unfold ΦA
      iintro ⟨Hr, Hp⟩
      isplitl [Hp]; · iexact Hp
      isplitr; · iempintro
      iexact Hr)
    (htail := fun c Q' => htail0 m Variants.none c Q')
    (QY := fun c s => ∀ b ∈ restRefs sig spec0, s.mem ((c.tc : Thread nD τ).loc b) = Wend m c (Proc.devRef .tc b))
    (hY := fun c s' => by
      iintro ⟨-, HU, HSI⟩
      unfold unscopedRest
      imodintro
      iapply (pointsTo_read_all (restRefs sig spec0) (fun b => (c.tc : Thread nD τ).loc b) (fun b => Wend m c (Proc.devRef .tc b)) s')
      isplitl [HU] <;> iassumption)
    (hQ := fun s h c => ⟨(h c).1, (h c).2.2⟩)

/-! ## The frame, and the run with the result named -/

theorem arg0_end (c : Dev nD) : Wend m c (Proc.devRef .tc main_arg0) = m ((c.tc : Thread nD τ).loc main_arg0) := by
  unfold Wend
  exact (StableHlo.after_of_forall_not_mem _ _ tail_keeps_arg0).trans
    ((Wx_other m c main_arg0 (by decide) (by decide) (by decide)).trans (V_main_arg0 m c))

/-- The program runs, and its two argument arrays end as they were: the positions bypass the region and no line writes
    them; the radii are only read by the region. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (mem_restRefs_of main_arg0 (by decide) (by decide))).trans (arg0_end m c),
     ((h c).1 2).trans (((dats m 0 c).arrAt_in 2 rfl _).trans ((A_eq m c 2).trans (V_main_arg1 m c)))⟩) (run_main m ρ)

/-- The same run with the result's final contents named: what the lines after the region compute from the three result
    arrays as the write-backs leave them. -/
theorem value_run : θ_run (defs (F := F)) (onTc (τ := τ) (main (F := F))) ⟨m, fun _ => 0, ρ⟩ (fun r => ∀ c : Dev nD,
      r.2.mem ((c.tc : Thread nD τ).loc main_v28) = Wend m c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v28 (mem_restRefs_of main_v28 (by decide) (by decide)),
     ((h c).2 main_arg0 (mem_restRefs_of main_arg0 (by decide) (by decide))).trans (arg0_end m c),
     ((h c).1 2).trans (((dats m 0 c).arrAt_in 2 rfl _).trans ((A_eq m c 2).trans (V_main_arg1 m c)))⟩) (run_main m ρ)

end Cert.Kernel.Hand

end
-- ==== Proof.KIBase.lean ====
/-
  The idealized kernel program around its one region: what every buffer holds when the region is entered, the program
  as host lines, the region, host lines, the blocks each window reads at a grid point, and the two branch conditions of the
  body decided over the grid.

  The grid is 8 × 8, a point `t` standing for row `t / 8` (the `i` tile) and column `t % 8` (the `j` tile). The first
  condition holds exactly on the first column (`j = 0`: the three results are stored), the second exactly off it
  (`j ≠ 0`: the first result is added to). Windows 0 and 2 (the `i` blocks of the stacked positions and of the radii)
  change with the row only, windows 1 and 3 (the `j` blocks) with the column, and the three result windows with the row.
-/
import proofs.«104090_j82532091560339_2_alg».proof.Proof.Gen.KernelIdeal.Launch
import proofs.«104090_j82532091560339_2_alg».proof.Proof.Gen.KernelIdeal.Skeleton
import proofs.«104090_j82532091560339_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffers' contents when the region is entered: the ten host lines before it have run (the three coordinate planes
    sliced out of the positions and stacked). -/
abbrev V0 (c : Dev nD) : Valuation τ sig (Elt F) := StableHlo.after (List.flatten [hostOps0]) (fun b => m (c, b))
/-- The same read at a reference of the core. -/
abbrev V (c : Dev nD) (b : Ref sig .tc) : Buf (Elt F) ((c : Thread nD τ).loc b) := V0 m c (Proc.devRef .tc b)

/-- The host lines after the region: the three sums over the rows, their quotients, the softplus, the weighted sum. -/
abbrev tailOps : List (List (HloOp τ sig (Elt F))) := [hostOps1, hostOps1_1, hostOps1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The program is the lines before the region, the region, and the lines after it: it reduces to the region continued
    by the later lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- No line before the region writes the positions: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor the radii. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The branch conditions over the grid -/

/-- The first condition holds on the first column only. -/
theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
/-- The second holds off the first column only. -/
theorem hcond2 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-! ## The staging memrefs the body is called with -/

abbrev ms0_0 (t : Fin cfg0.N) : Memref sig .tc .vmem S3x8x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x8x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x128 .f32 := win0_6.stage (cfg0.slots t 6)
abbrev hs0_6 (t : Fin cfg0.N) : (ms0_6 t).IsWhole := hstage0_6 ((cfg0.slots t 6).cast nbuf0_6)

/-! ## An input window's buffer holds its block at every point -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand

end
-- ==== Proof.KIRuns.lean ====
/-
  The tile body's two control cases share a vocabulary, collected here.

  Each grid point sees two position tiles of shape 3x8x256 (the x, y and z planes; 8 batches; 256 points) — one
  for the row of the pair grid, one for the column — and two radius tiles of shape 8x256. From the six planes it
  forms the 8x256x256 array of squared distances between row points and column points; from that and the two
  radius tiles the pairwise term  radius(p) + radius(q) − distance(p, q)  (the distance read as zero where the
  squared distance is zero), summed over batches, row points and column points to ONE number, spread over 128
  lanes. At the first column tile of a row that number is written out, together with two sums over the row tile
  alone; at a later column tile it is added to what the output already holds. The definitions below name these
  results as functions of the tiles' contents alone, so that the two runs can be stated without any memory
  vocabulary.
-/
import proofs.«104090_j82532091560339_2_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The rectangles the body reads and writes -/

theorem zero3 : (![0, 0, 0] : Fin 3 → Nat) = fun _ => 0 := funext fun a => by fin_cases a <;> rfl
theorem zero2 : (![0, 0] : Fin 2 → Nat) = fun _ => 0 := funext fun a => by fin_cases a <;> rfl

/-- Plane `k` of a 3x8x256 position tile, as a 1x8x256 rectangle: plane 0 holds x, plane 1 holds y, plane 2 holds z. -/
abbrev plane0 : Rect S3x8x256 := Rect.unit (s := S3x8x256) ![0, 0, 0] S1x8x256.size inb_S3x8x256_S1x8x256_0_0_0
abbrev plane1 : Rect S3x8x256 := Rect.unit (s := S3x8x256) ![1, 0, 0] S1x8x256.size inb_S3x8x256_S1x8x256_1_0_0
abbrev plane2 : Rect S3x8x256 := Rect.unit (s := S3x8x256) ![2, 0, 0] S1x8x256.size inb_S3x8x256_S1x8x256_2_0_0

/-- The whole of a 1x1x128 output tile. -/
abbrev lanes : Rect S1x1x128 := Rect.unit (s := S1x1x128) ![0, 0, 0] S1x1x128.size inb_S1x1x128_S1x1x128_0_0_0

/-! ## What the body computes, as functions of the tiles -/

/-- The squared distances between the points of the row tile `x0` and those of the column tile `x1`, batch by
    batch: at (b, p, q) the sum over the three planes of (x0 plane at (b, p) − x1 plane at (b, q)) squared. -/
def sqDist (x0 x1 : Vec F S3x8x256 .f32) : FVec F S8x256x256 .f32 :=
  k0_pay7 (View.ld x0 plane0) (View.ld x0 plane1) (View.ld x0 plane2) (View.ld x1 plane0) (View.ld x1 plane1) (View.ld x1 plane2)

/-- The y plane (plane 1) of the row tile, as an 8x256 array. -/
def rowY (x0 : Vec F S3x8x256 .f32) : FVec F S8x256 .f32 := k0_pay6 (View.ld x0 plane1)

/-- First column tile, first output: the pairwise term of the two tiles (radii `x2` of the row points, `x3` of the
    column points) summed over batches and both point axes to one number, on every lane. -/
def blkA4 (x0 x1 : Vec F S3x8x256 .f32) (x2 x3 : Vec F S8x256 .f32) : Vec F S1x1x128 .f32 :=
  k0_pay2 x2 x3 (sqDist x0 x1) (k0_pay8 (F := F))

/-- First column tile, second output: the sum of the row tile's y plane over batches and points, on every lane. -/
def blkA5 (x0 : Vec F S3x8x256 .f32) : Vec F S1x1x128 .f32 := k0_pay3 (rowY x0)

/-- First column tile, third output: the sum over batches and points of max(row radius − y + 0, 0), on every lane. -/
def blkA6 (x0 : Vec F S3x8x256 .f32) (x2 : Vec F S8x256 .f32) : Vec F S1x1x128 .f32 := k0_pay4 (rowY x0) x2

/-- Later column tile, first output: what the output held, `xo4`, plus (lane by lane) the summed pairwise term of the
    two tiles. -/
def blkB4 (x0 x1 : Vec F S3x8x256 .f32) (x2 x3 : Vec F S8x256 .f32) (xo4 : Vec F S1x1x128 .f32) : Vec F S1x1x128 .f32 :=
  k0_pay5 x2 x3 (sqDist x0 x1) (k0_pay8 (F := F)) xo4

/-! ## Reading back a buffer written whole, and loading a buffer whole -/

/-- One store through the whole of a 1x1x128 buffer leaves exactly its payload, whatever was there before. -/
theorem read_store_lanes (m : Memref sig .tc .vmem S1x1x128 .f32) (f : m.view.ty.Contents (Elt F)) (w : Vec F S1x1x128 .f32) :
    m.view.read (Elt F) (m.view.writes (Elt F) f [(⟨lanes, w⟩ : View.Piece (Elt F) S1x1x128 .f32)]) = w :=
  (View.read_writes_eq_canon m.view f [(⟨lanes, w⟩ : View.Piece (Elt F) S1x1x128 .f32)]
    (fun y => ⟨⟨lanes, w⟩, List.mem_singleton_self _,
      View.mem_set_unit_zero (S := S1x1x128) zero3 inb_S1x1x128_S1x1x128_0_0_0 y⟩)).trans
    (View.canon_unit_zero (S := S1x1x128) zero3 inb_S1x1x128_S1x1x128_0_0_0 w)

/-- A load through the whole of an 8x256 buffer reads its contents. -/
theorem ld_whole_S8x256 (X : Vec F S8x256 .f32) :
    View.ld X (Rect.unit (s := S8x256) ![0, 0] S8x256.size inb_S8x256_S8x256_0_0) = X :=
  View.ld_unit_zero (S := S8x256) zero2 inb_S8x256_S8x256_0_0 X

/-- A load through the whole of a 1x1x128 buffer reads its contents. -/
theorem ld_whole_lanes (X : Vec F S1x1x128 .f32) : View.ld X lanes = X :=
  View.ld_unit_zero (S := S1x1x128) zero3 inb_S1x1x128_S1x1x128_0_0_0 X

end Cert.KernelIdeal.Hand

end
-- ==== Proof.KIRunA.lean ====
/-
  The tile body at the FIRST column tile of a row (the column-tile coordinate is zero).

  There the body reads the two position tiles and the two radius tiles, and overwrites all three output tiles:
  the first with the pairwise term of the two tiles summed to one number, the second with the sum of the row
  tile's y plane, the third with the sum of max(row radius − y + 0, 0). Nothing the outputs held before
  survives, so they may hold anything on entry.
-/
import proofs.«104090_j82532091560339_2_alg».proof.Proof.KIRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- On whole buffers — the four inputs at contents `x0 … x3`, the three outputs at anything — the body at the first
    column tile runs to any continuation that accepts the inputs unchanged and the outputs at `blkA4`, `blkA5`, `blkA6`
    of the inputs: every load reads the named plane of its buffer, each output is covered by one store, and a
    buffer stored whole reads back as the stored value. -/
theorem runA (c : Dev nD) (i : grid0.Coords) (arg2 : Memref sig .tc .vmem S3x8x256 .f32) (harg2 : arg2.IsWhole) (arg3 : Memref sig .tc .vmem S3x8x256 .f32) (harg3 : arg3.IsWhole) (arg4 : Memref sig .tc .vmem S8x256 .f32) (harg4 : arg4.IsWhole) (arg5 : Memref sig .tc .vmem S8x256 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole)
    (hc1 : k0_cond1 i = 1#1) (hc2 : ¬ k0_cond2 i = 1#1)
    (x0 x1 : Vec F S3x8x256 .f32) (x2 x3 : Vec F S8x256 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3
          ∗ (∃ d, owns (c : Thread nD τ) arg6 fullShare d) ∗ (∃ d, owns (c : Thread nD τ) arg7 fullShare d) ∗ (∃ d, owns (c : Thread nD τ) arg8 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3
              ∗ owns (c : Thread nD τ) arg6 fullShare (blkA4 x0 x1 x2 x3)
              ∗ owns (c : Thread nD τ) arg7 fullShare (blkA5 x0)
              ∗ owns (c : Thread nD τ) arg8 fullShare (blkA6 x0 x2)) -∗ K ⟨⟩))
        ⊢ wp frame (wpE (defs₀ (F := F)) Variants.none c none) E (cc0__kernel i arg2 harg2 arg3 harg3 arg4 harg4 arg5 harg5 arg6 harg6 arg7 harg7 arg8 harg8) K := by
  intro E K
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (read_store_lanes arg6 f4 _).trans ?_
    dsimp only
    simp only [View.readAt_eq_ld, hf0, hf1, hf2, hf3]
    exact congrArg₂ (fun a b => k0_pay2 a b (sqDist x0 x1) (k0_pay8 (F := F))) (ld_whole_S8x256 x2) (ld_whole_S8x256 x3)
  isplitl [H5]
  · iexists _; isplitr
    swap; · iexact H5
    ipureintro
    refine (read_store_lanes arg7 f5 _).trans ?_
    dsimp only
    simp only [View.readAt_eq_ld, hf0, hf1, hf2, hf3]
    rfl
  iexists _; isplitr
  swap; · iexact H6
  ipureintro
  refine (read_store_lanes arg8 f6 _).trans ?_
  dsimp only
  simp only [View.readAt_eq_ld, hf0, hf1, hf2, hf3]
  exact congrArg (fun b => k0_pay4 (rowY x0) b) (ld_whole_S8x256 x2)

end Cert.KernelIdeal.Hand

end
-- ==== Proof.KIRunB.lean ====
/-
  The tile body at a LATER column tile of a row (the column-tile coordinate is not zero).

  There the body reads the two position tiles and the two radius tiles, reads the first output tile, adds to it
  (lane by lane) the pairwise term of the two tiles summed to one number, and writes the sum back over the whole
  tile. The second and third output tiles are neither read nor written, and keep what they held.
-/
import proofs.«104090_j82532091560339_2_alg».proof.Proof.KIRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- On whole buffers — the four inputs at contents `x0 … x3`, the three outputs at `xo4`, `xo5`, `xo6` — the body at a
    later column tile runs to any continuation that accepts the inputs unchanged, the first output at `blkB4` of
    the inputs and of `xo4`, and the other two outputs as they were: the first output is loaded whole before its
    one covering store, so the stored value is a function of what it held. -/
theorem runB (c : Dev nD) (i : grid0.Coords) (arg2 : Memref sig .tc .vmem S3x8x256 .f32) (harg2 : arg2.IsWhole) (arg3 : Memref sig .tc .vmem S3x8x256 .f32) (harg3 : arg3.IsWhole) (arg4 : Memref sig .tc .vmem S8x256 .f32) (harg4 : arg4.IsWhole) (arg5 : Memref sig .tc .vmem S8x256 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole)
    (hc1 : ¬ k0_cond1 i = 1#1) (hc2 : k0_cond2 i = 1#1)
    (x0 x1 : Vec F S3x8x256 .f32) (x2 x3 : Vec F S8x256 .f32) (xo4 xo5 xo6 : Vec F S1x1x128 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg6 fullShare xo4 ∗ owns (c : Thread nD τ) arg7 fullShare xo5 ∗ owns (c : Thread nD τ) arg8 fullShare xo6
          ∗ (iprop(owns (c : Thread nD τ) arg2 fullShare x0 ∗ owns (c : Thread nD τ) arg3 fullShare x1 ∗ owns (c : Thread nD τ) arg4 fullShare x2 ∗ owns (c : Thread nD τ) arg5 fullShare x3
              ∗ owns (c : Thread nD τ) arg6 fullShare (blkB4 x0 x1 x2 x3 xo4)
              ∗ owns (c : Thread nD τ) arg7 fullShare xo5
              ∗ owns (c : Thread nD τ) arg8 fullShare xo6) -∗ K ⟨⟩))
        ⊢ wp frame (wpE (defs₀ (F := F)) Variants.none c none) E (cc0__kernel i arg2 harg2 arg3 harg3 arg4 harg4 arg5 harg5 arg6 harg6 arg7 harg7 arg8 harg8) K := by
  intro E K
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3
  obtain rfl := harg6.eq_unread hf4
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (read_store_lanes arg6 _ _).trans ?_
    dsimp only
    simp only [View.readAt_eq_ld, hf0, hf1, hf2, hf3, hf4]
    exact (congrArg₂ (fun a b => k0_pay5 a b (sqDist x0 x1) (k0_pay8 (F := F)) (View.ld xo4 lanes)) (ld_whole_S8x256 x2) (ld_whole_S8x256 x3)).trans
      (congrArg (k0_pay5 x2 x3 (sqDist x0 x1) (k0_pay8 (F := F))) (ld_whole_lanes xo4))
  isplitl [H5]
  · iexists _; isplitr; · ipureintro; exact hf5
    iexact H5
  iexists _; isplitr; · ipureintro; exact hf6
  iexact H6

end Cert.KernelIdeal.Hand

end
-- ==== Proof.KIFrame.lean ====
/-
  The proof data of the idealized kernel's one region and the body's obligation at every grid point.

  A row of the grid is eight consecutive points. On the row's first point the body stores three values — the pair sum of
  the point's blocks, the sum of the `i` block's `y` coordinates, and the sum of the positive parts of radius less `y` —
  into the three result windows' buffers. On the other seven it reads the first result's buffer, adds the point's pair
  sum and stores it back, and leaves the other two buffers alone. The result buffers are written back to their arrays at
  the row's last point only. So after any point the first buffer holds the pair sums of the row so far, and the other
  two what the row's first point stored.
-/
import proofs.«104090_j82532091560339_2_alg».proof.Proof.KIBase
import proofs.«104090_j82532091560339_2_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the three result windows' buffers hold after each point -/

/-- After the body at position `n`: on the first column the three stored values of that point's blocks; off it the
    first result is the point's pair sum added to what the point before left, the other two as the point before left
    them (the body does not touch them, and their buffers are not written back inside a row). -/
def outsAt0 (c : Dev nD) : (n : ℕ) → n < cfg0.N → Vec F S1x1x128 .f32 × Vec F S1x1x128 .f32 × Vec F S1x1x128 .f32
  | 0, hn => (blkA4 (iblk m c 0 ⟨0, hn⟩) (iblk m c 1 ⟨0, hn⟩) (iblk m c 2 ⟨0, hn⟩) (iblk m c 3 ⟨0, hn⟩),
      blkA5 (iblk m c 0 ⟨0, hn⟩), blkA6 (iblk m c 0 ⟨0, hn⟩) (iblk m c 2 ⟨0, hn⟩))
  | n + 1, hn =>
    if h0 : (n + 1) % 8 = 0 then
      (blkA4 (iblk m c 0 ⟨n + 1, hn⟩) (iblk m c 1 ⟨n + 1, hn⟩) (iblk m c 2 ⟨n + 1, hn⟩) (iblk m c 3 ⟨n + 1, hn⟩),
        blkA5 (iblk m c 0 ⟨n + 1, hn⟩), blkA6 (iblk m c 0 ⟨n + 1, hn⟩) (iblk m c 2 ⟨n + 1, hn⟩))
    else
      (blkB4 (iblk m c 0 ⟨n + 1, hn⟩) (iblk m c 1 ⟨n + 1, hn⟩) (iblk m c 2 ⟨n + 1, hn⟩) (iblk m c 3 ⟨n + 1, hn⟩)
          (outsAt0 c n (Nat.lt_of_succ_lt hn)).1,
        (outsAt0 c n (Nat.lt_of_succ_lt hn)).2.1, (outsAt0 c n (Nat.lt_of_succ_lt hn)).2.2)

/-- On the first column. -/
theorem outsAt0_A (c : Dev nD) (t : Fin cfg0.N) (h0 : t.val % 8 = 0) :
    outsAt0 m c t.val t.isLt = (blkA4 (iblk m c 0 t) (iblk m c 1 t) (iblk m c 2 t) (iblk m c 3 t),
      blkA5 (iblk m c 0 t), blkA6 (iblk m c 0 t) (iblk m c 2 t)) := by
  obtain ⟨n, hn⟩ := t
  cases n with
  | zero => exact rfl
  | succ n => exact (dif_pos h0).trans rfl

/-- Off the first column. -/
theorem outsAt0_B (c : Dev nD) (t : Fin cfg0.N) (h0 : ¬t.val % 8 = 0) :
    outsAt0 m c t.val t.isLt = (blkB4 (iblk m c 0 t) (iblk m c 1 t) (iblk m c 2 t) (iblk m c 3 t)
        (outsAt0 m c (t.val - 1) (Nat.lt_of_le_of_lt (Nat.sub_le _ _) t.isLt)).1,
      (outsAt0 m c (t.val - 1) (Nat.lt_of_le_of_lt (Nat.sub_le _ _) t.isLt)).2.1,
      (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The proof data -/

/-- The arrays as the region finds them; after the body each input window's buffer at its block and the result windows'
    at `outsAt0`; the two arrays that two windows read are held half and half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## Where the result windows are idle, and where they are written back -/

/-- The first result window is stored into at every point. -/
theorem live4 : ∀ i : grid0.Coords, cfg0.idle 4 i = false := by decide +kernel
/-- The other two are stored into on the first column only. -/
theorem idle5_iff (t : Fin cfg0.N) : cfg0.idle 5 (grid0.coords t) = true ↔ ¬ t.val % 8 = 0 := by
  show (!(k0_cond1 (grid0.coords t) == 1#1)) = true ↔ _
  rw [Bool.not_eq_true', beq_eq_false_iff_ne, Ne, hcond1]
theorem idle6_iff (t : Fin cfg0.N) : cfg0.idle 6 (grid0.coords t) = true ↔ ¬ t.val % 8 = 0 := by
  show (!(k0_cond1 (grid0.coords t) == 1#1)) = true ↔ _
  rw [Bool.not_eq_true', beq_eq_false_iff_ne, Ne, hcond1]

/-! ## What the result windows' buffers hold when the body runs off the first column -/

/-- The first result's buffer holds what the point before left: it was not written back in between. -/
theorem before0_4_B (c : Dev nD) (t : Fin cfg0.N) (h0 : ¬t.val % 8 = 0) (d) :
    (dats m 0 c).before 4 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    live4 (fun _ _ => rfl)]
  dsimp only [dats]

/-- What an uncut window's buffer keeps of what the body left is all of it. -/
theorem kept_eq_after (c : Dev nD) (w : Fin cfg0.W) (hclip : ∀ (i : cfg0.grid.Coords) a, (cfg0.win w).clip i a = none) (t : Fin cfg0.N) (d) :
    (dats m 0 c).kept w t d = (dats m 0 c).after w t := by
  unfold Dat.kept
  rw [Pipeline.fill_of_clip_none w _ (hclip _) d ((dats m 0 c).after w t), Window.fill_cut]

/-- The second result's buffer holds what the point before left, through the run of points that leave it alone. -/
theorem before0_5_B (c : Dev nD) : ∀ (n : ℕ) (hn : n < cfg0.N), ¬n % 8 = 0 → ∀ d,
    (dats m 0 c).before 5 ⟨n, hn⟩ d = (outsAt0 m c (n - 1) (Nat.lt_of_le_of_lt (Nat.sub_le _ _) hn)).2.1 := by
  intro n
  induction n using Nat.strong_induction_on with
  | _ n ih =>
    intro hn h0 d
    have hN : n < 64 := lt_of_lt_of_eq hn (show cfg0.N = 64 from N_0)
    have hn0 : n ≠ 0 := fun h => h0 (by rw [h])
    rw [(dats m 0 c).before_of_pos 5 ⟨n, hn⟩ hn0 ((cfg0.win 5).fetch_out rfl _)]
    rw [show (cfg0.win 5).flush ⟨n - 1, Nat.lt_of_le_of_lt (Nat.sub_le _ _) hn⟩ = false from
      Bool.eq_false_iff.mpr fun h => by have := (flush0_5 _).mp h; dsimp only at this; omega, if_neg Bool.false_ne_true]
    unfold Dat.left
    by_cases h1 : (n - 1) % 8 = 0
    · rw [show cfg0.idle 5 (cfg0.grid.coords ⟨n - 1, Nat.lt_of_le_of_lt (Nat.sub_le _ _) hn⟩) = false from
        Bool.eq_false_iff.mpr fun h => ((idle5_iff ⟨n - 1, _⟩).mp h) h1]
      dsimp only
      rw [kept_eq_after m c 5 (fun _ _ => rfl)]
      dsimp only [dats]
    · rw [show cfg0.idle 5 (cfg0.grid.coords ⟨n - 1, Nat.lt_of_le_of_lt (Nat.sub_le _ _) hn⟩) = true from (idle5_iff ⟨n - 1, _⟩).mpr h1]
      dsimp only
      rw [ih (n - 1) (by omega) _ h1 d, outsAt0_B m c ⟨n - 1, Nat.lt_of_le_of_lt (Nat.sub_le _ _) hn⟩ h1]

/-- The third result's likewise. -/
theorem before0_6_B (c : Dev nD) : ∀ (n : ℕ) (hn : n < cfg0.N), ¬n % 8 = 0 → ∀ d,
    (dats m 0 c).before 6 ⟨n, hn⟩ d = (outsAt0 m c (n - 1) (Nat.lt_of_le_of_lt (Nat.sub_le _ _) hn)).2.2 := by
  intro n
  induction n using Nat.strong_induction_on with
  | _ n ih =>
    intro hn h0 d
    have hN : n < 64 := lt_of_lt_of_eq hn (show cfg0.N = 64 from N_0)
    have hn0 : n ≠ 0 := fun h => h0 (by rw [h])
    rw [(dats m 0 c).before_of_pos 6 ⟨n, hn⟩ hn0 ((cfg0.win 6).fetch_out rfl _)]
    rw [show (cfg0.win 6).flush ⟨n - 1, Nat.lt_of_le_of_lt (Nat.sub_le _ _) hn⟩ = false from
      Bool.eq_false_iff.mpr fun h => by have := (flush0_6 _).mp h; dsimp only at this; omega, if_neg Bool.false_ne_true]
    unfold Dat.left
    by_cases h1 : (n - 1) % 8 = 0
    · rw [show cfg0.idle 6 (cfg0.grid.coords ⟨n - 1, Nat.lt_of_le_of_lt (Nat.sub_le _ _) hn⟩) = false from
        Bool.eq_false_iff.mpr fun h => ((idle6_iff ⟨n - 1, _⟩).mp h) h1]
      dsimp only
      rw [kept_eq_after m c 6 (fun _ _ => rfl)]
      dsimp only [dats]
    · rw [show cfg0.idle 6 (cfg0.grid.coords ⟨n - 1, Nat.lt_of_le_of_lt (Nat.sub_le _ _) hn⟩) = true from (idle6_iff ⟨n - 1, _⟩).mpr h1]
      dsimp only
      rw [ih (n - 1) (by omega) _ h1 d, outsAt0_B m c ⟨n - 1, Nat.lt_of_le_of_lt (Nat.sub_le _ _) hn⟩ h1]

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

theorem leaves0 (c : Dev nD) (t : Fin cfg0.N) : (dats m 0 c).leavesExact 0 t = owns (c : Thread nD τ) (ms0_0 t) fullShare (iblk m c 0 t) := by
  unfold Dat.leavesExact; rw [after0_0]
theorem leaves1 (c : Dev nD) (t : Fin cfg0.N) : (dats m 0 c).leavesExact 1 t = owns (c : Thread nD τ) (ms0_1 t) fullShare (iblk m c 1 t) := by
  unfold Dat.leavesExact; rw [after0_1]
theorem leaves2 (c : Dev nD) (t : Fin cfg0.N) : (dats m 0 c).leavesExact 2 t = owns (c : Thread nD τ) (ms0_2 t) fullShare (iblk m c 2 t) := by
  unfold Dat.leavesExact; rw [after0_2]
theorem leaves3 (c : Dev nD) (t : Fin cfg0.N) : (dats m 0 c).leavesExact 3 t = owns (c : Thread nD τ) (ms0_3 t) fullShare (iblk m c 3 t) := by
  unfold Dat.leavesExact; rw [after0_3]
theorem leaves4 (c : Dev nD) (t : Fin cfg0.N) :
    (dats m 0 c).leavesExact 4 t = owns (c : Thread nD τ) (ms0_4 t) fullShare (outsAt0 m c t.val t.isLt).1 := by
  unfold Dat.leavesExact; rw [live4, after0_4]
/-- A result window at a point that stores into it, or that writes it back: the buffer at `after`. -/
theorem leaves5_after (c : Dev nD) (t : Fin cfg0.N) (h : t.val % 8 = 0 ∨ t.val % 8 = 7) :
    (dats m 0 c).leavesExact 5 t = owns (c : Thread nD τ) (ms0_5 t) fullShare (outsAt0 m c t.val t.isLt).2.1 := by
  unfold Dat.leavesExact
  rcases h with h | h
  · rw [show cfg0.idle 5 (cfg0.grid.coords t) = false from Bool.eq_false_iff.mpr fun hi => ((idle5_iff t).mp hi) h, after0_5]
  · rw [show cfg0.idle 5 (cfg0.grid.coords t) = true from (idle5_iff t).mpr (by omega), show (cfg0.win 5).flush t = true from (flush0_5 t).mpr h, after0_5]
theorem leaves6_after (c : Dev nD) (t : Fin cfg0.N) (h : t.val % 8 = 0 ∨ t.val % 8 = 7) :
    (dats m 0 c).leavesExact 6 t = owns (c : Thread nD τ) (ms0_6 t) fullShare (outsAt0 m c t.val t.isLt).2.2 := by
  unfold Dat.leavesExact
  rcases h with h | h
  · rw [show cfg0.idle 6 (cfg0.grid.coords t) = false from Bool.eq_false_iff.mpr fun hi => ((idle6_iff t).mp hi) h, after0_6]
  · rw [show cfg0.idle 6 (cfg0.grid.coords t) = true from (idle6_iff t).mpr (by omega), show (cfg0.win 6).flush t = true from (flush0_6 t).mpr h, after0_6]

set_option maxHeartbeats 1600000 in
/-- The body at any point. On the first column the three stores cover the three result buffers; off it the first result
    is read and added to, the other two buffers pass through as they were found, which at the last column is what the
    row's first point stored. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    leaves0, leaves1, leaves2, leaves3, leaves4]
  have hN : t.val < 64 := lt_of_lt_of_eq t.isLt (show cfg0.N = 64 from N_0)
  by_cases h0 : t.val % 8 = 0
  · rw [leaves5_after m c t (.inl h0), leaves6_after m c t (.inl h0), outsAt0_A m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (runA c (grid0.coords t) _ _ _ _ _ _ _ _ _ _ _ _ _ _ ((hcond1 t).mpr h0) (fun h => ((hcond2 t).mp h) h0)
      (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · obtain ⟨n, hn⟩ := t
    simp only [before0_4_B m c ⟨n, hn⟩ h0, before0_5_B m c n hn h0, before0_6_B m c n hn h0]
    by_cases h7 : n % 8 = 7
    · rw [leaves5_after m c ⟨n, hn⟩ (.inr h7), leaves6_after m c ⟨n, hn⟩ (.inr h7), outsAt0_B m c ⟨n, hn⟩ h0]
      iintro ⟨HΦ, Ho, ⟨%d0, H0⟩, ⟨%d1, H1⟩, ⟨%d2, H2⟩, ⟨%d3, H3⟩, ⟨%d4, H4⟩, ⟨%d5, H5⟩, ⟨%d6, H6⟩⟩
      iapply (runB c (grid0.coords ⟨n, hn⟩) _ _ _ _ _ _ _ _ _ _ _ _ _ _ (fun h => h0 ((hcond1 ⟨n, hn⟩).mp h)) ((hcond2 ⟨n, hn⟩).mpr h0)
        (iblk m c 0 ⟨n, hn⟩) (iblk m c 1 ⟨n, hn⟩) (iblk m c 2 ⟨n, hn⟩) (iblk m c 3 ⟨n, hn⟩) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dats m 0 c) 5 ⟨n, hn⟩ ((idle5_iff ⟨n, hn⟩).mpr h0)
          (Bool.eq_false_iff.mpr fun h => h7 ((flush0_5 ⟨n, hn⟩).mp h)),
        Dat.leavesExact_idle (dats m 0 c) 6 ⟨n, hn⟩ ((idle6_iff ⟨n, hn⟩).mpr h0)
          (Bool.eq_false_iff.mpr fun h => h7 ((flush0_6 ⟨n, hn⟩).mp h)), outsAt0_B m c ⟨n, hn⟩ h0]
      simp only [before0_5_B m c n hn h0, before0_6_B m c n hn h0]
      iintro ⟨HΦ, Ho, ⟨%d0, H0⟩, ⟨%d1, H1⟩, ⟨%d2, H2⟩, ⟨%d3, H3⟩, ⟨%d4, H4⟩, ⟨%d5, H5⟩, ⟨%d6, H6⟩⟩
      iapply (runB c (grid0.coords ⟨n, hn⟩) _ _ _ _ _ _ _ _ _ _ _ _ _ _ (fun h => h0 ((hcond1 ⟨n, hn⟩).mp h)) ((hcond2 ⟨n, hn⟩).mpr h0)
        (iblk m c 0 ⟨n, hn⟩) (iblk m c 1 ⟨n, hn⟩) (iblk m c 2 ⟨n, hn⟩) (iblk m c 3 ⟨n, hn⟩) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexists d5; iexact H5
      iexists d6; iexact H6

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KILaunch.lean ====
/-
  The launch of the idealized kernel's region and the run of the whole program.

  Two of the arrays the region reads are each read through two windows (the stacked positions by the `i` and the `j`
  block windows, and so the radii). At entry each such array, held whole, is split into two half shares, one per window;
  the region only reads them, and the lines after the region do not touch them. Those lines read the three result arrays,
  which the region hands back whole, and write only buffers of their own.
-/
import proofs.«104090_j82532091560339_2_alg».proof.Proof.KIFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-! ## The arrays at entry -/

/-- The distinct buffers behind the seven windows. -/
theorem arr_image : Finset.univ.image (arrRef (spec0)) = ({main_v9, main_arg1, main_v10_0, main_v10_1, main_v10_2} : Finset (Ref sig .tc)) := by
  decide

/-- A conjunction over the five buffers, one by one. -/
theorem bigSep_arrs {M : Type} [URA M] (Φ : Ref sig .tc → sProp M) :
    bigSep ({main_v9, main_arg1, main_v10_0, main_v10_1, main_v10_2} : Finset (Ref sig .tc)) Φ
      = iprop(Φ main_v9 ∗ Φ main_arg1 ∗ Φ main_v10_0 ∗ Φ main_v10_1 ∗ Φ main_v10_2) := by
  rw [BI.bigSep_insert (by decide), BI.bigSep_insert (by decide), BI.bigSep_insert (by decide), BI.bigSep_insert (by decide),
    BI.bigSep_singleton]
  rfl

/-- The windows' arrays are whole buffers: the proof data's `arrays` window by window. -/
theorem arrays_pts (c : Dev nD) (Fw : (w : Fin cfg0.W) → Buf (Elt F) ((cfg0.win w).arr.view.loc (c.tc : Thread nD τ))) :
    (dats m 0 c).arrays Fw = bigSep Finset.univ fun w : Fin 7 =>
      (((c.tc : Thread nD τ).loc (arrRef spec0 w)) ↦{(dats m 0 c).share w} Fw w : sProp 𝕄) := by
  unfold Dat.arrays
  exact bigSep_congr fun w _ => by rw [(arr_whole0 w).set_eq_univ]

theorem share0 (c : Dev nD) : (dats m 0 c).share 0 = fullShare.left := rfl
theorem share1 (c : Dev nD) : (dats m 0 c).share 1 = fullShare.right := rfl
theorem share2 (c : Dev nD) : (dats m 0 c).share 2 = fullShare.left := rfl
theorem share3 (c : Dev nD) : (dats m 0 c).share 3 = fullShare.right := rfl
theorem share4 (c : Dev nD) : (dats m 0 c).share 4 = fullShare := rfl
theorem share5 (c : Dev nD) : (dats m 0 c).share 5 = fullShare := rfl
theorem share6 (c : Dev nD) : (dats m 0 c).share 6 = fullShare := rfl

/-- At entry: each of the two doubly-read arrays is split in halves between its two windows. -/
theorem hsplit0 (c : Dev nD) :
    (arrBufs spec0 c (V m c) : sProp 𝕄) ⊢ (dats m 0 c).arrays ((dats m 0 c).arrAt · 0) := by
  rw [arrays_pts, bigSep_W0, share0, share1, share2, share3, share4, share5, share6]
  unfold arrBufs
  rw [arr_image, bigSep_arrs]
  iintro ⟨H9, H1, Ha, Hb, Hc⟩
  ihave H9' := (pointsTo_share (PosShare.mem_left_op_right fullShare)).1 $$ H9
  ihave H1' := (pointsTo_share (PosShare.mem_left_op_right fullShare)).1 $$ H1
  icases H9' with ⟨H9l, H9r⟩
  icases H1' with ⟨H1l, H1r⟩
  isplitl [H9l]; · iexact H9l
  isplitl [H9r]; · iexact H9r
  isplitl [H1l]; · iexact H1l
  isplitl [H1r]; · iexact H1r
  isplitl [Ha]; · iexact Ha
  isplitl [Hb]; · iexact Hb
  iexact Hc

/-! ## The lines after the region -/

/-- What the buffers hold when the region is left: the three result arrays as the write-backs leave them, every other
    buffer as the region found it. -/
def Wx (c : Dev nD) : Valuation τ sig (Elt F) := fun b =>
  if h4 : Proc.devRef .tc main_v10_0 = b then cast (congrArg (fun b' : DevRef τ sig => b'.ty.Contents (Elt F)) h4) ((dats m 0 c).arrAt 4 cfg0.N)
  else if h5 : Proc.devRef .tc main_v10_1 = b then cast (congrArg (fun b' : DevRef τ sig => b'.ty.Contents (Elt F)) h5) ((dats m 0 c).arrAt 5 cfg0.N)
  else if h6 : Proc.devRef .tc main_v10_2 = b then cast (congrArg (fun b' : DevRef τ sig => b'.ty.Contents (Elt F)) h6) ((dats m 0 c).arrAt 6 cfg0.N)
  else V0 m c b

theorem Wx_v10_0 (c : Dev nD) : Wx m c (Proc.devRef .tc main_v10_0) = (dats m 0 c).arrAt 4 cfg0.N := by
  unfold Wx; rw [dif_pos rfl]; rfl
theorem Wx_v10_1 (c : Dev nD) : Wx m c (Proc.devRef .tc main_v10_1) = (dats m 0 c).arrAt 5 cfg0.N := by
  unfold Wx; rw [dif_neg (StableHlo.devRef_ne_of_ne (by decide)), dif_pos rfl]; rfl
theorem Wx_v10_2 (c : Dev nD) : Wx m c (Proc.devRef .tc main_v10_2) = (dats m 0 c).arrAt 6 cfg0.N := by
  unfold Wx; rw [dif_neg (StableHlo.devRef_ne_of_ne (by decide)), dif_neg (StableHlo.devRef_ne_of_ne (by decide)), dif_pos rfl]; rfl
theorem Wx_other (c : Dev nD) (b : Ref sig .tc) (h0 : main_v10_0 ≠ b) (h1 : main_v10_1 ≠ b) (h2 : main_v10_2 ≠ b) :
    Wx m c (Proc.devRef .tc b) = V m c b := by
  unfold Wx
  rw [dif_neg (StableHlo.devRef_ne_of_ne h0), dif_neg (StableHlo.devRef_ne_of_ne h1), dif_neg (StableHlo.devRef_ne_of_ne h2)]

/-- And after the lines that follow the region. -/
def Wend (c : Dev nD) : Valuation τ sig (Elt F) := StableHlo.after (tailOps (F := F)).flatten (Wx m c)

theorem tail_keeps_v9 : ∀ op ∈ (tailOps (F := F)).flatten, Proc.devRef (τ := τ) .tc main_v9 ∉ op.writes :=
  List.forall_iff_forall_mem.mp (by
    simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))

theorem tail_keeps_arg1 : ∀ op ∈ (tailOps (F := F)).flatten, Proc.devRef (τ := τ) .tc main_arg1 ∉ op.writes :=
  List.forall_iff_forall_mem.mp (by
    simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))

theorem tail_keeps_arg0 : ∀ op ∈ (tailOps (F := F)).flatten, Proc.devRef (τ := τ) .tc main_arg0 ∉ op.writes :=
  List.forall_iff_forall_mem.mp (by
    simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))

theorem tail_keeps_o0 : ∀ op ∈ (tailOps (F := F)).flatten, Proc.devRef (τ := τ) .tc main_v10_0 ∉ op.writes :=
  List.forall_iff_forall_mem.mp (by
    simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))

theorem tail_keeps_o1 : ∀ op ∈ (tailOps (F := F)).flatten, Proc.devRef (τ := τ) .tc main_v10_1 ∉ op.writes :=
  List.forall_iff_forall_mem.mp (by
    simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))

theorem tail_keeps_o2 : ∀ op ∈ (tailOps (F := F)).flatten, Proc.devRef (τ := τ) .tc main_v10_2 ∉ op.writes :=
  List.forall_iff_forall_mem.mp (by
    simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))

/-- The lines after the region touch unscoped buffers of the core only, -/
theorem tail_sub : ∀ ops ∈ (tailOps (F := F)), ∀ op ∈ ops, op.bufs ⊆ ucRefs τ sig := by
  intro ops hops op hop
  simp only [tailOps, List.mem_cons, List.mem_nil_iff, or_false] at hops
  rcases hops with rfl | rfl | rfl
  · exact sub_ucRefs op ((List.forall_iff_forall_mem.mp hostOps1_sub) op hop)
  · exact sub_ucRefs op ((List.forall_iff_forall_mem.mp hostOps1_1_sub) op hop)
  · exact sub_ucRefs op ((List.forall_iff_forall_mem.mp hostOps1_2_sub) op hop)
/-- and allocate nothing. -/
theorem tail_fresh : ∀ ops ∈ (tailOps (F := F)), ∀ op ∈ ops, op.fresh = ∅ := by
  intro ops hops op hop
  simp only [tailOps, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- The core's unscoped buffers, whole at contents `W`: the five buffers behind the windows and the rest. -/
theorem held_uc (c : Dev nD) (W : Valuation τ sig (Elt F)) :
    (StableHlo.held (c.tc : Thread nD τ) (ucRefs τ sig) W : sProp 𝕄)
      = iprop(((((c.tc : Thread nD τ).loc main_v9) ↦{fullShare} W (Proc.devRef .tc main_v9))
          ∗ (((c.tc : Thread nD τ).loc main_arg1) ↦{fullShare} W (Proc.devRef .tc main_arg1))
          ∗ (((c.tc : Thread nD τ).loc main_v10_0) ↦{fullShare} W (Proc.devRef .tc main_v10_0))
          ∗ (((c.tc : Thread nD τ).loc main_v10_1) ↦{fullShare} W (Proc.devRef .tc main_v10_1))
          ∗ (((c.tc : Thread nD τ).loc main_v10_2) ↦{fullShare} W (Proc.devRef .tc main_v10_2)))
          ∗ unscopedRest spec0 c (fun b => W (Proc.devRef .tc b))) := by
  classical
  have hA : Finset.univ.image (arrRef spec0) ⊆ Finset.univ.filter fun b : Ref sig .tc => ¬ b.isScoped := by decide
  rw [← unscopedBufs_held (Ix := Unit) (Name := ℕ) (U := UR sig nD τ) (Lvl := ℕ) c W]
  unfold unscopedBufs unscopedRest
  rw [bigSep_sdiff_split hA]
  congr 1
  rw [arr_image, bigSep_arrs]

set_option maxHeartbeats 1600000 in
/-- From the region's exit — the arrays as the write-backs leave them, the bypassing buffers as the region found them —
    the lines that follow run, and hand back the arrays untouched and the bypassing buffers at `Wend`. The two halves of
    each doubly-read array are joined for the run and split again after it. -/
theorem htail0 (𝒱₀ : Variants) (c : Dev nD) (Q' : PUnit → sProp 𝕄) :
    iprop((iprop((dats m 0 c).arrays ((dats m 0 c).arrAt · cfg0.N) ∗ unscopedRest spec0 c (fun b => Wend m c (Proc.devRef .tc b))) -∗ Q' ⟨⟩)
        ∗ boundary (c.tc : Thread nD τ) ∗ (dats m 0 c).arrays ((dats m 0 c).arrAt · cfg0.N) ∗ unscopedRest spec0 c (V m c))
      ⊢ wp frame (wpE (Pipeline.defs (fun q => Cfg.toPCfg (Val := Elt F) (cfgs q)) defs₀) (Variants.lift 𝒱₀) (c.tc : Thread nD τ) none) Set.univ
          (chain ((tailOps (F := F)).map StableHlo.seq)) Q' := by
  unfold Wend
  rw [arrays_pts, bigSep_W0, share0, share1, share2, share3, share4, share5, share6,
    (dats m 0 c).arrAt_in 0 rfl, (dats m 0 c).arrAt_in 1 rfl, (dats m 0 c).arrAt_in 2 rfl, (dats m 0 c).arrAt_in 3 rfl,
    A_eq, A_eq, A_eq, A_eq]
  have hW := held_uc c (Wx m c)
  rw [Wx_other m c main_v9 (by decide) (by decide) (by decide), Wx_other m c main_arg1 (by decide) (by decide) (by decide),
    Wx_v10_0, Wx_v10_1, Wx_v10_2,
    show unscopedRest spec0 c (fun b => Wx m c (Proc.devRef .tc b)) = (unscopedRest spec0 c (V m c) : sProp 𝕄) from
      bigSep_congr fun b hb => by
        beta_reduce
        rw [Wx_other m c b (fun e => (Finset.mem_sdiff.mp hb).2 (Finset.mem_image.mpr ⟨4, Finset.mem_univ _, e⟩))
          (fun e => (Finset.mem_sdiff.mp hb).2 (Finset.mem_image.mpr ⟨5, Finset.mem_univ _, e⟩))
          (fun e => (Finset.mem_sdiff.mp hb).2 (Finset.mem_image.mpr ⟨6, Finset.mem_univ _, e⟩))]] at hW
  have hW' := held_uc c (StableHlo.after (tailOps (F := F)).flatten (Wx m c))
  rw [show StableHlo.after (tailOps (F := F)).flatten (Wx m c) (Proc.devRef .tc main_v9) = V m c main_v9 from
        (StableHlo.after_of_forall_not_mem _ _ tail_keeps_v9).trans (Wx_other m c main_v9 (by decide) (by decide) (by decide)),
    show StableHlo.after (tailOps (F := F)).flatten (Wx m c) (Proc.devRef .tc main_arg1) = V m c main_arg1 from
        (StableHlo.after_of_forall_not_mem _ _ tail_keeps_arg1).trans (Wx_other m c main_arg1 (by decide) (by decide) (by decide)),
    show StableHlo.after (tailOps (F := F)).flatten (Wx m c) (Proc.devRef .tc main_v10_0) = (dats m 0 c).arrAt 4 cfg0.N from
        (StableHlo.after_of_forall_not_mem _ _ tail_keeps_o0).trans (Wx_v10_0 m c),
    show StableHlo.after (tailOps (F := F)).flatten (Wx m c) (Proc.devRef .tc main_v10_1) = (dats m 0 c).arrAt 5 cfg0.N from
        (StableHlo.after_of_forall_not_mem _ _ tail_keeps_o1).trans (Wx_v10_1 m c),
    show StableHlo.after (tailOps (F := F)).flatten (Wx m c) (Proc.devRef .tc main_v10_2) = (dats m 0 c).arrAt 6 cfg0.N from
        (StableHlo.after_of_forall_not_mem _ _ tail_keeps_o2).trans (Wx_v10_2 m c)] at hW'
  rw [← List.append_nil ((tailOps (F := F)).map StableHlo.seq)]
  iintro ⟨Hk, Hb, ⟨A0, A1, A2, A3, A4, A5, A6⟩, HZ⟩
  ihave H9 := (pointsTo_share (PosShare.mem_left_op_right fullShare)).2 $$ [A0 A1]
  · isplitl [A0]; · iexact A0
    iexact A1
  ihave H1 := (pointsTo_share (PosShare.mem_left_op_right fullShare)).2 $$ [A2 A3]
  · isplitl [A2]; · iexact A2
    iexact A3
  iapply (wp_seqs_then (fun q => Cfg.toPCfg (Val := Elt F) (cfgs q)) defs₀ 𝒱₀ c (ucRefs τ sig) [] (tailOps (F := F)) tail_sub tail_fresh (Wx m c)) $$ [Hb H9 H1 A4 A5 A6 HZ]
  · rw [hW]
    isplitl [Hb]; · iexact Hb
    isplitr [HZ]
    · isplitl [H9]; · iexact H9
      isplitl [H1]; · iexact H1
      isplitl [A4]; · iexact A4
      isplitl [A5]; · iexact A5
      iexact A6
    iexact HZ
  iintro Hb
  rw [chain_nil, wp_pure, hW']
  imodintro
  iapply Hk
  icases Hb with ⟨-, ⟨H9, H1, B4, B5, B6⟩, HZ'⟩
  ihave H9' := (pointsTo_share (PosShare.mem_left_op_right fullShare)).1 $$ H9
  ihave H1' := (pointsTo_share (PosShare.mem_left_op_right fullShare)).1 $$ H1
  icases H9' with ⟨A0, A1⟩
  icases H1' with ⟨A2, A3⟩
  isplitr [HZ']
  · isplitl [A0]; · iexact A0
    isplitl [A1]; · iexact A1
    isplitl [A2]; · iexact A2
    isplitl [A3]; · iexact A3
    isplitl [B4]; · iexact B4
    isplitl [B5]; · iexact B5
    iexact B6
  iexact HZ'

/-! ## The run -/

/-- The core's buffer that no window stages, as the run ends. -/
abbrev pcs0 : Fin 1 → PCfg sig Λ₀ (Elt F) := fun q => (cfgs q).toPCfg (Val := Elt F)
abbrev adm0 : (p : Fin 1) → (pcs0 (F := F) p).Adm := fun q => (cfgs q).toPCfg_adm

theorem cell_inj : Function.Injective (cellOf (nD := nD) (τ := τ) (pin (pcs0 (F := F)) adm0)) := Gen.cellOf_inj

set_option backward.isDefEq.respectTransparency.types false in
set_option maxHeartbeats 1600000 in
/-- At the compiled mesh, from any memory with zero counters: every weakly fair execution of the program terminates, nothing
    faulting; every array a window stages ends as the write-backs leave it (an input array as it was), and every other
    unscoped buffer as the lines after the region leave it. -/
theorem run_main : θ_run (defs (F := F)) (onTc (τ := τ) (main (F := F))) (s₀ m ρ) (fun r => ∀ c : Dev nD,
    (∀ w, r.2.mem (((cfg0).spec w).arr.view.loc (c.tc : Thread nD τ)) = (dats m 0 c).arrAt w cfg0.N)
    ∧ ∀ b ∈ restRefs sig spec0, r.2.mem ((c.tc : Thread nD τ).loc b) = Wend m c (Proc.devRef .tc b)) := by
  classical
  exact θ_run_region_pf_tail (pcs0 (F := F)) adm0 (dats m) () cell_inj 0 winFacts₀0 (OwnSemFacts.none spec0) (PreFacts.none _) emb₁ defs₀ Variants.none m ρ main
    (fun _ => chain ((tailOps (F := F)).map StableHlo.seq)) (fun c => (body_obligation m c).loose)
    block_pos0 arr_whole0 stage_whole0 (fun _ _ => rfl)
    (G := fun _ => iprop(emp)) (u₀ := initOf (cells (pin (pcs0 (F := F)) adm0) cell_inj) (launchToks (pin (pcs0 (F := F)) adm0) cell_inj))
    (hu₀ := by
      iintro Hu; imodintro
      isplitl [Hu]; · iapply (show (ownU _ : sProp 𝕄) ⊢ BI.own (emb₁ (initOf (cells (pin (pcs0 (F := F)) adm0) cell_inj) (launchToks (pin (pcs0 (F := F)) adm0) cell_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit0 m)
    (hpf := fun _ k => k.elim0)
    (X := fun c => iprop(∃ r, prngReg c r)) (Y := fun c => iprop(∃ r, prngReg c r))
    (Z := fun c => unscopedRest (Ix := Unit) (Name := ℕ) (U := UR sig nD τ) (Lvl := ℕ) spec0 c (V m c))
    (Z' := fun c => unscopedRest (Ix := Unit) (Name := ℕ) (U := UR sig nD τ) (Lvl := ℕ) spec0 c (fun b => Wend m c (Proc.devRef .tc b)))
    (hX := fun c => by
      rw [unscopedRestP_none]
      iintro ⟨HU, -, -, -, Hp, -⟩; imodintro
      isplitl [Hp]; · iexists _; iexact Hp
      iexact HU)
    (hin := fun c => by
      show _ ⊢ ΦA spec0 c
      unfold ΦA; iintro ⟨Hp, -, Hr⟩
      isplitl [Hr] <;> iassumption)
    (hout := fun c => by
      show ΦA spec0 c ⊢ _
      rw [ownSems0_none]; unfold ΦA
      iintro ⟨Hr, Hp⟩
      isplitl [Hp]; · iexact Hp
      isplitr; · iempintro
      iexact Hr)
    (htail := fun c Q' => htail0 m Variants.none c Q')
    (QY := fun c s => ∀ b ∈ restRefs sig spec0, s.mem ((c.tc : Thread nD τ).loc b) = Wend m c (Proc.devRef .tc b))
    (hY := fun c s' => by
      iintro ⟨-, HU, HSI⟩
      unfold unscopedRest
      imodintro
      iapply (pointsTo_read_all (restRefs sig spec0) (fun b => (c.tc : Thread nD τ).loc b) (fun b => Wend m c (Proc.devRef .tc b)) s')
      isplitl [HU] <;> iassumption)
    (hQ := fun s h c => ⟨(h c).1, (h c).2.2⟩)

/-! ## The frame, and the run with the result named -/

theorem arg0_end (c : Dev nD) : Wend m c (Proc.devRef .tc main_arg0) = m ((c.tc : Thread nD τ).loc main_arg0) := by
  unfold Wend
  exact (StableHlo.after_of_forall_not_mem _ _ tail_keeps_arg0).trans
    ((Wx_other m c main_arg0 (by decide) (by decide) (by decide)).trans (V_main_arg0 m c))

/-- The program runs, and its two argument arrays end as they were: the positions bypass the region and no line writes
    them; the radii are only read by the region. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (mem_restRefs_of main_arg0 (by decide) (by decide))).trans (arg0_end m c),
     ((h c).1 2).trans (((dats m 0 c).arrAt_in 2 rfl _).trans ((A_eq m c 2).trans (V_main_arg1 m c)))⟩) (run_main m ρ)

/-- The same run with the result's final contents named: what the lines after the region compute from the three result
    arrays as the write-backs leave them. -/
theorem value_run : θ_run (defs (F := F)) (onTc (τ := τ) (main (F := F))) ⟨m, fun _ => 0, ρ⟩ (fun r => ∀ c : Dev nD,
      r.2.mem ((c.tc : Thread nD τ).loc main_v28) = Wend m c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v28 (mem_restRefs_of main_v28 (by decide) (by decide)),
     ((h c).2 main_arg0 (mem_restRefs_of main_arg0 (by decide) (by decide))).trans (arg0_end m c),
     ((h c).1 2).trans (((dats m 0 c).arrAt_in 2 rfl _).trans ((A_eq m c 2).trans (V_main_arg1 m c)))⟩) (run_main m ρ)

end Cert.KernelIdeal.Hand

end
-- ==== Proof.KIArrays.lean ====
/-
  From blocks to arrays, for the one region of the idealized kernel.

  Two readings. First, what each input window's block at a grid point IS, entry by entry, as an entry of the array
  the window slides over: at point `t` the row windows see points `256 (t / 8) + p`, the column windows points
  `256 (t % 8) + p`, every plane and every batch. Second, what the three result arrays hold after the run: row `i`
  of each is what the corresponding buffer held after the last point of grid row `i`, since that point alone writes
  the row back and the rows' blocks tile the array.
-/
import proofs.«104090_j82532091560339_2_alg».proof.Proof.KIFrame
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The grid, in numbers -/

theorem N64 : cfg0.N = 64 := N_0

/-- The block index of every input window at every grid point, decided over the grid: the position and radius windows
    of the row move with `t / 8`, those of the column with `t % 8`, along the points axis only. -/
theorem idx_facts : ∀ t : Fin cfg0.N,
      win0_0.index t (0 : Fin 3) = 0 ∧ win0_0.index t (1 : Fin 3) = 0 ∧ win0_0.index t (2 : Fin 3) = t.val / 8
    ∧ win0_1.index t (0 : Fin 3) = 0 ∧ win0_1.index t (1 : Fin 3) = 0 ∧ win0_1.index t (2 : Fin 3) = t.val % 8
    ∧ win0_2.index t (0 : Fin 2) = 0 ∧ win0_2.index t (1 : Fin 2) = t.val / 8
    ∧ win0_3.index t (0 : Fin 2) = 0 ∧ win0_3.index t (1 : Fin 2) = t.val % 8 :=
  (by decide +kernel : ∀ t : Fin grid0.N, _)

/-- The three result windows' block at a point is row `t / 8` of their 8x1x128 arrays. -/
theorem idx_facts_out : ∀ t : Fin cfg0.N,
      win0_4.index t (0 : Fin 3) = t.val / 8 ∧ win0_4.index t (1 : Fin 3) = 0 ∧ win0_4.index t (2 : Fin 3) = 0
    ∧ win0_5.index t (0 : Fin 3) = t.val / 8 ∧ win0_5.index t (1 : Fin 3) = 0 ∧ win0_5.index t (2 : Fin 3) = 0
    ∧ win0_6.index t (0 : Fin 3) = t.val / 8 ∧ win0_6.index t (1 : Fin 3) = 0 ∧ win0_6.index t (2 : Fin 3) = 0 :=
  (by decide +kernel : ∀ t : Fin grid0.N, _)

/-- Point `p` of tile `i` among the 2048 points: number `256 i + p`. -/
def pt (i : Fin 8) (p : Fin 256) : Fin 2048 := ⟨256 * i.val + p.val, by have := i.isLt; have := p.isLt; omega⟩
theorem pt_val (i : Fin 8) (p : Fin 256) : (pt i p).val = 256 * i.val + p.val := rfl

/-- The row tile and the column tile of a grid point. -/
def tileRow (t : Fin cfg0.N) : Fin 8 := ⟨t.val / 8, by have := lt_of_lt_of_eq t.isLt N64; omega⟩
def tileCol (t : Fin cfg0.N) : Fin 8 := ⟨t.val % 8, by omega⟩
theorem tileRow_val (t : Fin cfg0.N) : (tileRow t).val = t.val / 8 := rfl
theorem tileCol_val (t : Fin cfg0.N) : (tileCol t).val = t.val % 8 := rfl

/-- The last point of grid row `i`: the one at which the row's results are written back. -/
def lastOf (i : Fin 8) : Fin cfg0.N := ⟨8 * i.val + 7, by rw [N64]; have := i.isLt; omega⟩
theorem lastOf_val (i : Fin 8) : (lastOf i).val = 8 * i.val + 7 := rfl
theorem lastOf_mod (i : Fin 8) : (lastOf i).val % 8 = 7 := by show (8 * i.val + 7) % 8 = 7; omega

/-- What the result buffers hold after a point depends on the point's number only, not on the proof that it is one. -/
theorem outsAt0_congr (c : Dev nD) {n n' : ℕ} (h : n = n') (hn : n < cfg0.N) (hn' : n' < cfg0.N) :
    outsAt0 m c n hn = outsAt0 m c n' hn' := by subst h; rfl

/-! ## The blocks the body reads, entry by entry

Window 0 is the row tile of the stacked positions (planes x, y, z of points `256 (t / 8) …`), window 1 the column tile
(points `256 (t % 8) …`); windows 2 and 3 the same tiles of the radii. -/

theorem iblk0_apply (c : Dev nD) (t : Fin cfg0.N) (k : Fin 3) (b : Fin 8) (p : Fin 256) :
    (iblk m c 0 t : Vec F S3x8x256 .f32) (ix3 k b p) = (V m c main_v9 : S3x8x2048.Idx → Elt F .f32) (ix3 k b (pt (tileRow t) p)) := by
  obtain ⟨e00, e01, e02, e10, e11, e12, -⟩ := idx_facts t
  show (V m c main_v9 : S3x8x2048.Idx → Elt F .f32) (((cfg0.win 0).blk t).view.emb (ix3 k b p)) = _
  refine congrArg (V m c main_v9 : S3x8x2048.Idx → Elt F .f32) ?_
  funext a; apply Fin.ext
  match a with
  | ⟨0, _⟩ => show win0_0.index t (0 : Fin 3) * 3 + 1 * k.val = k.val; omega
  | ⟨1, _⟩ => show win0_0.index t (1 : Fin 3) * 8 + 1 * b.val = b.val; omega
  | ⟨2, _⟩ => show win0_0.index t (2 : Fin 3) * 256 + 1 * p.val = 256 * (t.val / 8) + p.val; omega

theorem iblk1_apply (c : Dev nD) (t : Fin cfg0.N) (k : Fin 3) (b : Fin 8) (p : Fin 256) :
    (iblk m c 1 t : Vec F S3x8x256 .f32) (ix3 k b p) = (V m c main_v9 : S3x8x2048.Idx → Elt F .f32) (ix3 k b (pt (tileCol t) p)) := by
  obtain ⟨e00, e01, e02, e10, e11, e12, -⟩ := idx_facts t
  show (V m c main_v9 : S3x8x2048.Idx → Elt F .f32) (((cfg0.win 1).blk t).view.emb (ix3 k b p)) = _
  refine congrArg (V m c main_v9 : S3x8x2048.Idx → Elt F .f32) ?_
  funext a; apply Fin.ext
  match a with
  | ⟨0, _⟩ => show win0_1.index t (0 : Fin 3) * 3 + 1 * k.val = k.val; omega
  | ⟨1, _⟩ => show win0_1.index t (1 : Fin 3) * 8 + 1 * b.val = b.val; omega
  | ⟨2, _⟩ => show win0_1.index t (2 : Fin 3) * 256 + 1 * p.val = 256 * (t.val % 8) + p.val; omega

theorem iblk2_apply (c : Dev nD) (t : Fin cfg0.N) (b : Fin 8) (p : Fin 256) :
    (iblk m c 2 t : Vec F S8x256 .f32) (ix2 b p) = (V m c main_arg1 : S8x2048.Idx → Elt F .f32) (ix2 b (pt (tileRow t) p)) := by
  obtain ⟨-, -, -, -, -, -, e20, e21, e30, e31⟩ := idx_facts t
  show (V m c main_arg1 : S8x2048.Idx → Elt F .f32) (((cfg0.win 2).blk t).view.emb (ix2 b p)) = _
  refine congrArg (V m c main_arg1 : S8x2048.Idx → Elt F .f32) ?_
  funext a; apply Fin.ext
  match a with
  | ⟨0, _⟩ => show win0_2.index t (0 : Fin 2) * 8 + 1 * b.val = b.val; omega
  | ⟨1, _⟩ => show win0_2.index t (1 : Fin 2) * 256 + 1 * p.val = 256 * (t.val / 8) + p.val; omega

theorem iblk3_apply (c : Dev nD) (t : Fin cfg0.N) (b : Fin 8) (p : Fin 256) :
    (iblk m c 3 t : Vec F S8x256 .f32) (ix2 b p) = (V m c main_arg1 : S8x2048.Idx → Elt F .f32) (ix2 b (pt (tileCol t) p)) := by
  obtain ⟨-, -, -, -, -, -, e20, e21, e30, e31⟩ := idx_facts t
  show (V m c main_arg1 : S8x2048.Idx → Elt F .f32) (((cfg0.win 3).blk t).view.emb (ix2 b p)) = _
  refine congrArg (V m c main_arg1 : S8x2048.Idx → Elt F .f32) ?_
  funext a; apply Fin.ext
  match a with
  | ⟨0, _⟩ => show win0_3.index t (0 : Fin 2) * 8 + 1 * b.val = b.val; omega
  | ⟨1, _⟩ => show win0_3.index t (1 : Fin 2) * 256 + 1 * p.val = 256 * (t.val % 8) + p.val; omega

/-! ## The three result arrays after the run

Each result array has one 1x1x128 row per grid row, written back once, at the row's last point, from the buffer the
row's points stored into. So after the run row `i` of each array holds what its buffer held after point `8 i + 7`. -/

/-! ### Result window 4 -/

/-- The whole result array as ONE function of its index: row `i`, any lane `l`, holds lane `l` of what the buffer held
    after the last point of grid row `i`. -/
def res4 (c : Dev nD) : S8x1x128.Idx → Elt F .f32 :=
  fun y => (outsAt0 m c (lastOf (y 0)).val (lastOf (y 0)).isLt).1 (ix3 0 0 (y 2))

theorem res4_apply (c : Dev nD) (i : Fin 8) (l : Fin 128) :
    res4 m c (ix3 i 0 l) = (outsAt0 m c (lastOf i).val (lastOf i).isLt).1 (ix3 0 0 l) := rfl

/-- An index of the array is in point `t`'s block iff each coordinate is in the block's range on its axis. -/
theorem mem_blk4 (t : Fin cfg0.N) (y : S8x1x128.Idx) :
    y ∈ ((cfg0.win 4).blk t).view.set ↔ ∀ a : Fin 3, win0_4.index t a * S1x1x128.size a ≤ (y a).val ∧ (y a).val < win0_4.index t a * S1x1x128.size a + S1x1x128.size a := by
  show y ∈ ((View.whole main_v10_0).slice (win0_4.rect t)).set ↔ _
  rw [View.set_slice_whole, Rect.mem_set_unit]
  exact Iff.rfl

/-- What a point that writes back writes is its block of `res4`: it is the last point of its row, and its block is
    that row of the array. -/
theorem flushed4_eq (c : Dev nD) (t : Fin cfg0.N) (hf : (cfg0.win 4).flush t = true) :
    (dats m 0 c).flushed 4 t = ((cfg0.win 4).blk t).view.read (Elt F) (res4 m c) := by
  have h7 : t.val % 8 = 7 := (flush0_4 t).mp hf
  obtain ⟨e0, e1, e2, -⟩ := idx_facts_out t
  show (cfg0.win 4).cut (grid0.coords t) ((dats m 0 c).after 4 t) = _
  rw [after0_4]
  funext j
  obtain ⟨j0, j1, j2, rfl⟩ : ∃ (a : Fin 1) (b : Fin 1) (l : Fin 128), j = ix3 a b l := ⟨j 0, j 1, j 2, eq_ix3 j⟩
  show (outsAt0 m c t.val t.isLt).1 (ix3 j0 j1 j2) = res4 m c (((cfg0.win 4).blk t).view.emb (ix3 j0 j1 j2))
  have hj0 : j0.val = 0 := by have := j0.isLt; omega
  have hj1 : j1.val = 0 := by have := j1.isLt; omega
  have hrow : t.val = (lastOf ((((cfg0.win 4).blk t).view.emb (ix3 j0 j1 j2)) 0)).val := by
    show t.val = 8 * (win0_4.index t (0 : Fin 3) * 1 + 1 * j0.val) + 7; omega
  have hlane : (ix3 j0 j1 j2 : S1x1x128.Idx) = ix3 0 0 ((((cfg0.win 4).blk t).view.emb (ix3 j0 j1 j2)) 2) := by
    funext a; apply Fin.ext
    match a with
    | ⟨0, _⟩ => exact hj0
    | ⟨1, _⟩ => exact hj1
    | ⟨2, _⟩ => show j2.val = win0_4.index t (2 : Fin 3) * 128 + 1 * j2.val; omega
  exact (congrFun (congrArg (fun o => o.1) (outsAt0_congr m c hrow t.isLt (lastOf _).isLt)) _).trans (congrArg _ hlane)

/-- Every index of the array is in the block of the last point of its row, which writes back. -/
theorem cover4 (y : S8x1x128.Idx) : ∃ t : Fin cfg0.N, (cfg0.win 4).flush t = true ∧ y ∈ ((cfg0.win 4).blk t).view.set := by
  refine ⟨lastOf (y 0), (flush0_4 _).mpr (lastOf_mod _), ?_⟩
  obtain ⟨e0, e1, e2, -⟩ := idx_facts_out (lastOf (y 0))
  have hv : (lastOf (y 0)).val = 8 * (y 0).val + 7 := rfl
  have h0 : (y 0).val < 8 := (y 0).isLt
  have h1 : (y 1).val < 1 := (y 1).isLt
  have h2 : (y 2).val < 128 := (y 2).isLt
  rw [mem_blk4]
  intro a
  match a with
  | ⟨0, _⟩ => show win0_4.index (lastOf (y 0)) (0 : Fin 3) * 1 ≤ (y 0).val ∧ (y 0).val < win0_4.index (lastOf (y 0)) (0 : Fin 3) * 1 + 1; omega
  | ⟨1, _⟩ => show win0_4.index (lastOf (y 0)) (1 : Fin 3) * 1 ≤ (y 1).val ∧ (y 1).val < win0_4.index (lastOf (y 0)) (1 : Fin 3) * 1 + 1; omega
  | ⟨2, _⟩ => show win0_4.index (lastOf (y 0)) (2 : Fin 3) * 128 ≤ (y 2).val ∧ (y 2).val < win0_4.index (lastOf (y 0)) (2 : Fin 3) * 128 + 128; omega

/-- The array after the run is `res4`. -/
theorem final4 (c : Dev nD) : (dats m 0 c).arrAt 4 cfg0.N = res4 m c :=
  (dats m 0 c).arrAt_eq_of_cover 4 (res4 m c) (flushed4_eq m c) cover4

/-- Row `i`, lane `l` of the array after the run. -/
theorem arr4_apply (c : Dev nD) (i : Fin 8) (l : Fin 128) :
    ((dats m 0 c).arrAt 4 cfg0.N : S8x1x128.Idx → Elt F .f32) (ix3 i 0 l) = (outsAt0 m c (lastOf i).val (lastOf i).isLt).1 (ix3 0 0 l) :=
  (congrFun (final4 m c) (ix3 i 0 l)).trans (res4_apply m c i l)

/-! ### Result window 5 -/

/-- The whole result array as ONE function of its index: row `i`, any lane `l`, holds lane `l` of what the buffer held
    after the last point of grid row `i`. -/
def res5 (c : Dev nD) : S8x1x128.Idx → Elt F .f32 :=
  fun y => (outsAt0 m c (lastOf (y 0)).val (lastOf (y 0)).isLt).2.1 (ix3 0 0 (y 2))

theorem res5_apply (c : Dev nD) (i : Fin 8) (l : Fin 128) :
    res5 m c (ix3 i 0 l) = (outsAt0 m c (lastOf i).val (lastOf i).isLt).2.1 (ix3 0 0 l) := rfl

/-- An index of the array is in point `t`'s block iff each coordinate is in the block's range on its axis. -/
theorem mem_blk5 (t : Fin cfg0.N) (y : S8x1x128.Idx) :
    y ∈ ((cfg0.win 5).blk t).view.set ↔ ∀ a : Fin 3, win0_5.index t a * S1x1x128.size a ≤ (y a).val ∧ (y a).val < win0_5.index t a * S1x1x128.size a + S1x1x128.size a := by
  show y ∈ ((View.whole main_v10_1).slice (win0_5.rect t)).set ↔ _
  rw [View.set_slice_whole, Rect.mem_set_unit]
  exact Iff.rfl

/-- What a point that writes back writes is its block of `res5`: it is the last point of its row, and its block is
    that row of the array. -/
theorem flushed5_eq (c : Dev nD) (t : Fin cfg0.N) (hf : (cfg0.win 5).flush t = true) :
    (dats m 0 c).flushed 5 t = ((cfg0.win 5).blk t).view.read (Elt F) (res5 m c) := by
  have h7 : t.val % 8 = 7 := (flush0_5 t).mp hf
  obtain ⟨-, -, -, e0, e1, e2, -⟩ := idx_facts_out t
  show (cfg0.win 5).cut (grid0.coords t) ((dats m 0 c).after 5 t) = _
  rw [after0_5]
  funext j
  obtain ⟨j0, j1, j2, rfl⟩ : ∃ (a : Fin 1) (b : Fin 1) (l : Fin 128), j = ix3 a b l := ⟨j 0, j 1, j 2, eq_ix3 j⟩
  show (outsAt0 m c t.val t.isLt).2.1 (ix3 j0 j1 j2) = res5 m c (((cfg0.win 5).blk t).view.emb (ix3 j0 j1 j2))
  have hj0 : j0.val = 0 := by have := j0.isLt; omega
  have hj1 : j1.val = 0 := by have := j1.isLt; omega
  have hrow : t.val = (lastOf ((((cfg0.win 5).blk t).view.emb (ix3 j0 j1 j2)) 0)).val := by
    show t.val = 8 * (win0_5.index t (0 : Fin 3) * 1 + 1 * j0.val) + 7; omega
  have hlane : (ix3 j0 j1 j2 : S1x1x128.Idx) = ix3 0 0 ((((cfg0.win 5).blk t).view.emb (ix3 j0 j1 j2)) 2) := by
    funext a; apply Fin.ext
    match a with
    | ⟨0, _⟩ => exact hj0
    | ⟨1, _⟩ => exact hj1
    | ⟨2, _⟩ => show j2.val = win0_5.index t (2 : Fin 3) * 128 + 1 * j2.val; omega
  exact (congrFun (congrArg (fun o => o.2.1) (outsAt0_congr m c hrow t.isLt (lastOf _).isLt)) _).trans (congrArg _ hlane)

/-- Every index of the array is in the block of the last point of its row, which writes back. -/
theorem cover5 (y : S8x1x128.Idx) : ∃ t : Fin cfg0.N, (cfg0.win 5).flush t = true ∧ y ∈ ((cfg0.win 5).blk t).view.set := by
  refine ⟨lastOf (y 0), (flush0_5 _).mpr (lastOf_mod _), ?_⟩
  obtain ⟨-, -, -, e0, e1, e2, -⟩ := idx_facts_out (lastOf (y 0))
  have hv : (lastOf (y 0)).val = 8 * (y 0).val + 7 := rfl
  have h0 : (y 0).val < 8 := (y 0).isLt
  have h1 : (y 1).val < 1 := (y 1).isLt
  have h2 : (y 2).val < 128 := (y 2).isLt
  rw [mem_blk5]
  intro a
  match a with
  | ⟨0, _⟩ => show win0_5.index (lastOf (y 0)) (0 : Fin 3) * 1 ≤ (y 0).val ∧ (y 0).val < win0_5.index (lastOf (y 0)) (0 : Fin 3) * 1 + 1; omega
  | ⟨1, _⟩ => show win0_5.index (lastOf (y 0)) (1 : Fin 3) * 1 ≤ (y 1).val ∧ (y 1).val < win0_5.index (lastOf (y 0)) (1 : Fin 3) * 1 + 1; omega
  | ⟨2, _⟩ => show win0_5.index (lastOf (y 0)) (2 : Fin 3) * 128 ≤ (y 2).val ∧ (y 2).val < win0_5.index (lastOf (y 0)) (2 : Fin 3) * 128 + 128; omega

/-- The array after the run is `res5`. -/
theorem final5 (c : Dev nD) : (dats m 0 c).arrAt 5 cfg0.N = res5 m c :=
  (dats m 0 c).arrAt_eq_of_cover 5 (res5 m c) (flushed5_eq m c) cover5

/-- Row `i`, lane `l` of the array after the run. -/
theorem arr5_apply (c : Dev nD) (i : Fin 8) (l : Fin 128) :
    ((dats m 0 c).arrAt 5 cfg0.N : S8x1x128.Idx → Elt F .f32) (ix3 i 0 l) = (outsAt0 m c (lastOf i).val (lastOf i).isLt).2.1 (ix3 0 0 l) :=
  (congrFun (final5 m c) (ix3 i 0 l)).trans (res5_apply m c i l)

/-! ### Result window 6 -/

/-- The whole result array as ONE function of its index: row `i`, any lane `l`, holds lane `l` of what the buffer held
    after the last point of grid row `i`. -/
def res6 (c : Dev nD) : S8x1x128.Idx → Elt F .f32 :=
  fun y => (outsAt0 m c (lastOf (y 0)).val (lastOf (y 0)).isLt).2.2 (ix3 0 0 (y 2))

theorem res6_apply (c : Dev nD) (i : Fin 8) (l : Fin 128) :
    res6 m c (ix3 i 0 l) = (outsAt0 m c (lastOf i).val (lastOf i).isLt).2.2 (ix3 0 0 l) := rfl

/-- An index of the array is in point `t`'s block iff each coordinate is in the block's range on its axis. -/
theorem mem_blk6 (t : Fin cfg0.N) (y : S8x1x128.Idx) :
    y ∈ ((cfg0.win 6).blk t).view.set ↔ ∀ a : Fin 3, win0_6.index t a * S1x1x128.size a ≤ (y a).val ∧ (y a).val < win0_6.index t a * S1x1x128.size a + S1x1x128.size a := by
  show y ∈ ((View.whole main_v10_2).slice (win0_6.rect t)).set ↔ _
  rw [View.set_slice_whole, Rect.mem_set_unit]
  exact Iff.rfl

/-- What a point that writes back writes is its block of `res6`: it is the last point of its row, and its block is
    that row of the array. -/
theorem flushed6_eq (c : Dev nD) (t : Fin cfg0.N) (hf : (cfg0.win 6).flush t = true) :
    (dats m 0 c).flushed 6 t = ((cfg0.win 6).blk t).view.read (Elt F) (res6 m c) := by
  have h7 : t.val % 8 = 7 := (flush0_6 t).mp hf
  obtain ⟨-, -, -, -, -, -, e0, e1, e2⟩ := idx_facts_out t
  show (cfg0.win 6).cut (grid0.coords t) ((dats m 0 c).after 6 t) = _
  rw [after0_6]
  funext j
  obtain ⟨j0, j1, j2, rfl⟩ : ∃ (a : Fin 1) (b : Fin 1) (l : Fin 128), j = ix3 a b l := ⟨j 0, j 1, j 2, eq_ix3 j⟩
  show (outsAt0 m c t.val t.isLt).2.2 (ix3 j0 j1 j2) = res6 m c (((cfg0.win 6).blk t).view.emb (ix3 j0 j1 j2))
  have hj0 : j0.val = 0 := by have := j0.isLt; omega
  have hj1 : j1.val = 0 := by have := j1.isLt; omega
  have hrow : t.val = (lastOf ((((cfg0.win 6).blk t).view.emb (ix3 j0 j1 j2)) 0)).val := by
    show t.val = 8 * (win0_6.index t (0 : Fin 3) * 1 + 1 * j0.val) + 7; omega
  have hlane : (ix3 j0 j1 j2 : S1x1x128.Idx) = ix3 0 0 ((((cfg0.win 6).blk t).view.emb (ix3 j0 j1 j2)) 2) := by
    funext a; apply Fin.ext
    match a with
    | ⟨0, _⟩ => exact hj0
    | ⟨1, _⟩ => exact hj1
    | ⟨2, _⟩ => show j2.val = win0_6.index t (2 : Fin 3) * 128 + 1 * j2.val; omega
  exact (congrFun (congrArg (fun o => o.2.2) (outsAt0_congr m c hrow t.isLt (lastOf _).isLt)) _).trans (congrArg _ hlane)

/-- Every index of the array is in the block of the last point of its row, which writes back. -/
theorem cover6 (y : S8x1x128.Idx) : ∃ t : Fin cfg0.N, (cfg0.win 6).flush t = true ∧ y ∈ ((cfg0.win 6).blk t).view.set := by
  refine ⟨lastOf (y 0), (flush0_6 _).mpr (lastOf_mod _), ?_⟩
  obtain ⟨-, -, -, -, -, -, e0, e1, e2⟩ := idx_facts_out (lastOf (y 0))
  have hv : (lastOf (y 0)).val = 8 * (y 0).val + 7 := rfl
  have h0 : (y 0).val < 8 := (y 0).isLt
  have h1 : (y 1).val < 1 := (y 1).isLt
  have h2 : (y 2).val < 128 := (y 2).isLt
  rw [mem_blk6]
  intro a
  match a with
  | ⟨0, _⟩ => show win0_6.index (lastOf (y 0)) (0 : Fin 3) * 1 ≤ (y 0).val ∧ (y 0).val < win0_6.index (lastOf (y 0)) (0 : Fin 3) * 1 + 1; omega
  | ⟨1, _⟩ => show win0_6.index (lastOf (y 0)) (1 : Fin 3) * 1 ≤ (y 1).val ∧ (y 1).val < win0_6.index (lastOf (y 0)) (1 : Fin 3) * 1 + 1; omega
  | ⟨2, _⟩ => show win0_6.index (lastOf (y 0)) (2 : Fin 3) * 128 ≤ (y 2).val ∧ (y 2).val < win0_6.index (lastOf (y 0)) (2 : Fin 3) * 128 + 128; omega

/-- The array after the run is `res6`. -/
theorem final6 (c : Dev nD) : (dats m 0 c).arrAt 6 cfg0.N = res6 m c :=
  (dats m 0 c).arrAt_eq_of_cover 6 (res6 m c) (flushed6_eq m c) cover6

/-- Row `i`, lane `l` of the array after the run. -/
theorem arr6_apply (c : Dev nD) (i : Fin 8) (l : Fin 128) :
    ((dats m 0 c).arrAt 6 cfg0.N : S8x1x128.Idx → Elt F .f32) (ix3 i 0 l) = (outsAt0 m c (lastOf i).val (lastOf i).isLt).2.2 (ix3 0 0 l) :=
  (congrFun (final6 m c) (ix3 i 0 l)).trans (res6_apply m c i l)

end Cert.KernelIdeal.Hand

end
-- ==== Proof.Spec.lean ====
/-
  The quantity both programs compute, as one function of the position array `pos : [8, 2048, 3]` and the radius array
  `rad : [8, 2048]` over the extended reals.

  For a batch `b` and bodies `n`, `n'`: the squared distance `sq` is the sum of the three squared coordinate differences;
  the distance `dist` is its square root, with a zero argument replaced by one under the root and the whole multiplied by
  the indicator of `sq > 0` (so it is `0` at coincident bodies); the pair term is the two radii's sum less the distance.
  Three sums are taken: of the `y` coordinates over all bodies (`gravSum`), of the positive parts of `rad - y + 0` over all
  bodies (`groundSum`), and of the pair terms over all ordered pairs of bodies of a batch (`collSum`). The result is
  `0.2 · gravSum / 16384 + 0.2 · groundSum / 16384 + 0.2 · softplus (collSum / 2^25)`, every constant the value its
  32-bit pattern denotes, `softplus x = max x 0 + log1p (exp (-|x - 0|))` guarded by a comparison `x - 0 ≠ x - 0` that
  never holds on the extended reals.
-/
import Idealize.ShloMosaic.PureOps.Ideal
import Idealize.ShloMosaic.Lib.ValueIdx

noncomputable section

open scoped BigOperators

namespace Cert.Spec

open Idealize.ShloMosaic Idealize.ShloMosaic.ValueIdx

/-- The position array's and the radius array's index sets. -/
abbrev PosIdx := (⟨3, ![8, 2048, 3]⟩ : Shape).Idx
abbrev RadIdx := (⟨2, ![8, 2048]⟩ : Shape).Idx

/-- The constants, as their 32-bit patterns denote them. -/
abbrev zeroE : EReal := Ideal.ofBits .f32 0x00000000#32
abbrev oneE : EReal := Ideal.ofBits .f32 0x3F800000#32
abbrev fifthE : EReal := Ideal.ofBits .f32 0x3E4CCCCD#32
abbrev nBodies : EReal := Ideal.ofBits .f32 0x46800000#32
abbrev nPairs : EReal := Ideal.ofBits .f32 0x4C000000#32

/-- The squared distance between bodies `n` and `n'` of batch `b`: `(dx² + dy²) + dz²`. -/
def sq (pos : PosIdx → EReal) (b : Fin 8) (n n' : Fin 2048) : EReal :=
  ((pos (ix3 b n 0) - pos (ix3 b n' 0)) * (pos (ix3 b n 0) - pos (ix3 b n' 0))
    + (pos (ix3 b n 1) - pos (ix3 b n' 1)) * (pos (ix3 b n 1) - pos (ix3 b n' 1)))
    + (pos (ix3 b n 2) - pos (ix3 b n' 2)) * (pos (ix3 b n 2) - pos (ix3 b n' 2))

/-- The distance from the squared distance: the root of `s` (of `1` where `s = 0`) times the indicator of `s > 0`,
    the indicator read off the comparison's bit widened to 32 bits and converted as a signed integer. -/
def dist (s : EReal) : EReal :=
  Ideal.sqrt (Scalar.select (Ideal.cmp .oeq s zeroE) oneE s)
    * (((((Ideal.cmp .ogt s zeroE).setWidth 32).toInt : ℝ)) : EReal)

/-- The pair term: the radii's sum less the distance. -/
def term (pos : PosIdx → EReal) (rad : RadIdx → EReal) (b : Fin 8) (n n' : Fin 2048) : EReal :=
  (rad (ix2 b n) + rad (ix2 b n')) - dist (sq pos b n n')

/-- The three sums. -/
def gravSum (pos : PosIdx → EReal) : EReal := ∑ b : Fin 8, ∑ n : Fin 2048, pos (ix3 b n 1)

def groundSum (pos : PosIdx → EReal) (rad : RadIdx → EReal) : EReal :=
  ∑ b : Fin 8, ∑ n : Fin 2048, max ((rad (ix2 b n) - pos (ix3 b n 1)) + zeroE) zeroE

def collSum (pos : PosIdx → EReal) (rad : RadIdx → EReal) : EReal :=
  ∑ b : Fin 8, ∑ n : Fin 2048, ∑ n' : Fin 2048, term pos rad b n n'

/-- The host's softplus, operation by operation. -/
def softplus (x : EReal) : EReal :=
  Scalar.select (Ideal.cmp .une (x - zeroE) (x - zeroE)) (x + zeroE)
    (max x zeroE + Ideal.log1p (Ideal.exp (-(max (x - zeroE) (-(x - zeroE))))))

/-- What the host does with the three sums. -/
def combine (coll grav ground : EReal) : EReal :=
  (fifthE * Ideal.div grav nBodies + fifthE * Ideal.div ground nBodies)
    + fifthE * softplus (Ideal.div coll nPairs)

/-- The result, from the two argument arrays. -/
def result (pos : PosIdx → EReal) (rad : RadIdx → EReal) : EReal :=
  combine (collSum pos rad) (gravSum pos) (groundSum pos rad)

end Cert.Spec

end
-- ==== Proof.PointPair.lean ====
/-
  One grid point's pair block, read as mathematics over the extended reals.

  The point holds the three coordinate planes of an "i" block and of a "j" block of 256 bodies for each of the 8
  batches, and the two blocks' radii. From them it forms, for every batch b and every pair (ti, tj) of a body of the
  i block and a body of the j block, the squared distance (dx² + dy²) + dz², then the pair term
  (rad_i + rad_j) − dist(squared distance), and sums the terms: first over tj, then over b, then over ti.
  The three sums are plain finite sums (the sum's initial word is the additive neutral and contributes nothing),
  so the block's value is the triple sum of the pair terms, in any order.
-/
import proofs.«104090_j82532091560339_2_alg».proof.Proof.Spec
import proofs.«104090_j82532091560339_2_alg».proof.Proof.Gen.KernelIdeal.Skeleton
import Idealize.ShloMosaic.Lib.ValueLayout
import Idealize.ShloMosaic.PureOps.Ideal.Laws

noncomputable section

open scoped BigOperators

namespace Cert.KernelIdeal.PointValue

open Idealize.ShloMosaic Idealize.ShloMosaic.ValueIdx Cert.KernelIdeal Cert.KernelIdeal.Gen

/-! ## Column and row forms of a matrix inside a rank-3 array -/

section Layout
variable {α : Type}

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b] array cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An [a, b, 1] array broadcast to [a, b, c] reads, at (i, j, k), the operand's one entry of row (i, j). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An [a, 1, b] array broadcast to [a, c, b] reads, at (i, k, j), the operand's one row of batch i at j. -/
theorem broadcastTo_a1b_acb_apply {a b c : ℕ} (v : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A [1, 1, 1] array broadcast to [1, 1, c] reads its one entry everywhere. -/
theorem broadcastTo_111_11c_apply {c : ℕ} (v : (⟨3, ![1, 1, 1]⟩ : Shape).Idx → α)
    (h : (⟨3, ![1, 1, 1]⟩ : Shape).Broadcasts ⟨3, ![1, 1, c]⟩) (j : (⟨3, ![1, 1, c]⟩ : Shape).Idx) :
    broadcastTo ⟨3, ![1, 1, c]⟩ v h j = v (ix3 (0 : Fin 1) (0 : Fin 1) (0 : Fin 1)) := by
  refine broadcastTo_apply v h j (ix3 (0 : Fin 1) (0 : Fin 1) (0 : Fin 1)) fun ax => ?_
  match ax with
  | ⟨0, _⟩ => rfl
  | ⟨1, _⟩ => rfl
  | ⟨2, _⟩ => rfl

end Layout

/-! ## The three sums -/

section Sums

/-- Over a row (b, ti) of the [8, 256] result, the index with tj put on the last axis is (b, ti, tj). -/
theorem lift_axis2 (h : S8x256x256.Reduces [2] S8x256) (b : Fin 8) (ti tj : Fin 256) :
    h.lift (ix2 b ti) tj = ix3 b ti tj := by
  funext c; match c with | ⟨0, _⟩ => rfl | ⟨1, _⟩ => rfl | ⟨2, _⟩ => rfl

/-- Over an entry ti of the [256] result, the index with b put on the first axis is (b, ti). -/
theorem lift_axis0 (h : S8x256.Reduces [0] S256) (ti : Fin 256) (b : Fin 8) :
    h.lift (ix1 ti) b = ix2 b ti := by
  funext c; match c with | ⟨0, _⟩ => rfl | ⟨1, _⟩ => rfl

/-- Over the one entry of the [1] result, the index with ti put on the last axis is (0, ti). -/
theorem lift_axis1 (h : S1x256.Reduces [1] S1) (u : Fin 1) (ti : Fin 256) :
    h.lift (ix1 u) ti = ix2 u ti := by
  funext c; match c with | ⟨0, _⟩ => rfl | ⟨1, _⟩ => rfl

/-- The sum over the last axis of an [8, 256, 256] array, at (b, ti): the sum over tj. -/
theorem sum_axis2 (src : FVec Ideal S8x256x256 .f32) (h : S8x256x256.Reduces [2] S8x256) (hφ : FKind.Formats .f32)
    (hacc : (0x00000000#32 : BitVec 32) = FKind.add.neutral .f32 hφ) (b : Fin 8) (ti : Fin 256) :
    multiReduction (F := Ideal) .add [2] S8x256 src 0x00000000#32 h hφ hacc (ix2 b ti) = ∑ tj : Fin 256, src (ix3 b ti tj) :=
  (Ideal.multiReduction_add_single src _ h hφ hacc (ix2 b ti)).trans
    (Finset.sum_congr rfl fun tj _ => congrArg src (lift_axis2 h b ti tj))

/-- The sum over the first axis of an [8, 256] array, at ti: the sum over b. -/
theorem sum_axis0 (src : FVec Ideal S8x256 .f32) (h : S8x256.Reduces [0] S256) (hφ : FKind.Formats .f32)
    (hacc : (0x00000000#32 : BitVec 32) = FKind.add.neutral .f32 hφ) (ti : Fin 256) :
    multiReduction (F := Ideal) .add [0] S256 src 0x00000000#32 h hφ hacc (ix1 ti) = ∑ b : Fin 8, src (ix2 b ti) :=
  (Ideal.multiReduction_add_single src _ h hφ hacc (ix1 ti)).trans
    (Finset.sum_congr rfl fun b _ => congrArg src (lift_axis0 h ti b))

/-- The sum over the last axis of a [1, 256] array, at its one entry: the sum over ti. -/
theorem sum_axis1 (src : FVec Ideal S1x256 .f32) (h : S1x256.Reduces [1] S1) (hφ : FKind.Formats .f32)
    (hacc : (0x00000000#32 : BitVec 32) = FKind.add.neutral .f32 hφ) (u : Fin 1) :
    multiReduction (F := Ideal) .add [1] S1 src 0x00000000#32 h hφ hacc (ix1 u) = ∑ ti : Fin 256, src (ix2 u ti) :=
  (Ideal.multiReduction_add_single src _ h hφ hacc (ix1 u)).trans
    (Finset.sum_congr rfl fun ti _ => congrArg src (lift_axis1 h u ti))

/-- A [256] array summed over b from an [8, 256] one, laid as one row, summed over its 256 entries and the one number
    laid as a [1, 1] array: the double sum. -/
theorem sum_rows (src : FVec Ideal S8x256 .f32) (h0 : S8x256.Reduces [0] S256) (h1 : S1x256.Reduces [1] S1)
    (hc1 : S256.ShapeCasts S1x256) (hc2 : S1.ShapeCasts S1x1) (hφ : FKind.Formats .f32)
    (hacc : (0x00000000#32 : BitVec 32) = FKind.add.neutral .f32 hφ) (u u' : Fin 1) :
    shapeCast S1x1 (multiReduction (F := Ideal) .add [1] S1
        (shapeCast S1x256 (multiReduction (F := Ideal) .add [0] S256 src 0x00000000#32 h0 hφ hacc) hc1)
        0x00000000#32 h1 hφ hacc) hc2 (ix2 u u')
      = ∑ ti : Fin 256, ∑ b : Fin 8, src (ix2 b ti) := by
  refine (shapeCast_a_1a_apply _ hc2 u u').trans ?_
  refine (sum_axis1 _ h1 hφ hacc u').trans ?_
  refine Finset.sum_congr rfl fun ti _ => ?_
  refine (shapeCast_a_1a_apply _ hc1 u' ti).trans ?_
  exact sum_axis0 src h0 hφ hacc ti

end Sums

/-! ## The pair term at one (b, ti, tj) -/

section Pair

/-- The squared distances: the i block's planes as columns, the j block's as rows, differences squared and added,
    (dx² + dy²) + dz². -/
theorem sqdist_apply (v0 v2 v4 v6 v8 v10 : Vec Ideal S1x8x256 .f32) (b : Fin 8) (ti tj : Fin 256) :
    k0_pay7 (F := Ideal) v0 v2 v4 v6 v8 v10 (ix3 b ti tj)
      = ((v0 (ix3 0 b ti) - v6 (ix3 0 b tj)) * (v0 (ix3 0 b ti) - v6 (ix3 0 b tj))
          + (v2 (ix3 0 b ti) - v8 (ix3 0 b tj)) * (v2 (ix3 0 b ti) - v8 (ix3 0 b tj)))
        + (v4 (ix3 0 b ti) - v10 (ix3 0 b tj)) * (v4 (ix3 0 b ti) - v10 (ix3 0 b tj)) := by
  unfold k0_pay7 k0_pay6
  dsimp only
  simp only [addf_apply, mulf_apply, subf_apply]
  rw [broadcastTo_ab1_abc_apply, broadcastTo_a1b_acb_apply, broadcastTo_ab1_abc_apply, broadcastTo_a1b_acb_apply,
    broadcastTo_ab1_abc_apply, broadcastTo_a1b_acb_apply]
  simp only [shapeCast_ab_ab1_apply, shapeCast_ab_a1b_apply, shapeCast_1ab_ab_apply]

end Pair

section Block

/-- The pair term's array, before the sums: at (b, ti, tj) it is the two radii's sum less the distance read off the
    squared distance there. The zero array the comparison uses is the array of the zero word. -/
theorem pay1_eq_sum (v12 v13 : Vec Ideal S8x256 .f32) (v33 : FVec Ideal S8x256x256 .f32) :
    k0_pay1 (F := Ideal) v12 v13 v33 (k0_pay8 (F := Ideal)) (ix2 (0 : Fin 1) (0 : Fin 1))
      = ∑ ti : Fin 256, ∑ b : Fin 8, ∑ tj : Fin 256,
          ((v12 (ix2 b ti) + v13 (ix2 b tj)) - Cert.Spec.dist (v33 (ix3 b ti tj))) := by
  unfold k0_pay1
  refine (sum_rows _ _ _ _ _ _ _ 0 0).trans ?_
  refine Finset.sum_congr rfl fun ti _ => Finset.sum_congr rfl fun b _ => ?_
  refine (sum_axis2 _ _ _ _ b ti).trans ?_
  refine Finset.sum_congr rfl fun tj _ => ?_
  show (broadcastTo S8x256x256 (shapeCast S8x256x1 v12 _) _ (ix3 b ti tj)
        + broadcastTo S8x256x256 (shapeCast S8x1x256 v13 _) _ (ix3 b ti tj))
      - Cert.Spec.dist (v33 (ix3 b ti tj)) = _
  rw [broadcastTo_ab1_abc_apply, broadcastTo_a1b_acb_apply, shapeCast_ab_ab1_apply, shapeCast_ab_a1b_apply]

end Block

/-! ## The point's pair block -/

section Point

/-- The squared distance between body ti of the i block and body tj of the j block, in batch b: (dx² + dy²) + dz². -/
def blockSq (v0 v2 v4 v6 v8 v10 : Vec Ideal S1x8x256 .f32) (b : Fin 8) (ti tj : Fin 256) : EReal :=
  ((v0 (ix3 0 b ti) - v6 (ix3 0 b tj)) * (v0 (ix3 0 b ti) - v6 (ix3 0 b tj))
      + (v2 (ix3 0 b ti) - v8 (ix3 0 b tj)) * (v2 (ix3 0 b ti) - v8 (ix3 0 b tj)))
    + (v4 (ix3 0 b ti) - v10 (ix3 0 b tj)) * (v4 (ix3 0 b ti) - v10 (ix3 0 b tj))

/-- The pair term of those two bodies: their radii's sum less their distance. -/
def blockTerm (v0 v2 v4 v6 v8 v10 : Vec Ideal S1x8x256 .f32) (v12 v13 : Vec Ideal S8x256 .f32)
    (b : Fin 8) (ti tj : Fin 256) : EReal :=
  (v12 (ix2 b ti) + v13 (ix2 b tj)) - Cert.Spec.dist (blockSq v0 v2 v4 v6 v8 v10 b ti tj)

/-- The pair terms of the point, summed over the batches and over the pairs of a body of each block. -/
def blockSum (v0 v2 v4 v6 v8 v10 : Vec Ideal S1x8x256 .f32) (v12 v13 : Vec Ideal S8x256 .f32) : EReal :=
  ∑ b : Fin 8, ∑ ti : Fin 256, ∑ tj : Fin 256, blockTerm v0 v2 v4 v6 v8 v10 v12 v13 b ti tj

/-- The point's scalar as the three sums produce it: over tj innermost, then over b, then over ti outermost; no
    initial value enters (each sum starts from the additive neutral, which the sum leaves out). -/
theorem pay1_raw (v0 v2 v4 v6 v8 v10 : Vec Ideal S1x8x256 .f32) (v12 v13 : Vec Ideal S8x256 .f32) :
    k0_pay1 (F := Ideal) v12 v13 (k0_pay7 (F := Ideal) v0 v2 v4 v6 v8 v10) (k0_pay8 (F := Ideal))
        (ix2 (0 : Fin 1) (0 : Fin 1))
      = ∑ ti : Fin 256, ∑ b : Fin 8, ∑ tj : Fin 256,
          ((v12 (ix2 b ti) + v13 (ix2 b tj))
            - Cert.Spec.dist
                (((v0 (ix3 0 b ti) - v6 (ix3 0 b tj)) * (v0 (ix3 0 b ti) - v6 (ix3 0 b tj))
                    + (v2 (ix3 0 b ti) - v8 (ix3 0 b tj)) * (v2 (ix3 0 b ti) - v8 (ix3 0 b tj)))
                  + (v4 (ix3 0 b ti) - v10 (ix3 0 b tj)) * (v4 (ix3 0 b ti) - v10 (ix3 0 b tj)))) := by
  refine (pay1_eq_sum v12 v13 _).trans ?_
  refine Finset.sum_congr rfl fun ti _ => Finset.sum_congr rfl fun b _ => Finset.sum_congr rfl fun tj _ => ?_
  rw [sqdist_apply]

/-- The same with the sums in the order batch, i body, j body. -/
theorem pay1_value (v0 v2 v4 v6 v8 v10 : Vec Ideal S1x8x256 .f32) (v12 v13 : Vec Ideal S8x256 .f32) :
    k0_pay1 (F := Ideal) v12 v13 (k0_pay7 (F := Ideal) v0 v2 v4 v6 v8 v10) (k0_pay8 (F := Ideal))
        (ix2 (0 : Fin 1) (0 : Fin 1))
      = blockSum v0 v2 v4 v6 v8 v10 v12 v13 := by
  rw [pay1_raw, Finset.sum_comm]
  rfl

/-- The scalar laid over the 128 lanes of the stored vector: every lane holds it. -/
theorem pay2_apply (v0 v2 v4 v6 v8 v10 : Vec Ideal S1x8x256 .f32) (v12 v13 : Vec Ideal S8x256 .f32)
    (j : S1x1x128.Idx) :
    k0_pay2 (F := Ideal) v12 v13 (k0_pay7 (F := Ideal) v0 v2 v4 v6 v8 v10) (k0_pay8 (F := Ideal)) j
      = blockSum v0 v2 v4 v6 v8 v10 v12 v13 := by
  unfold k0_pay2
  refine (broadcastTo_111_11c_apply _ _ j).trans ?_
  rw [shapeCast_self]
  refine (shapeCast_ab_1ab_apply _ _ 0 0 0).trans ?_
  exact pay1_value v0 v2 v4 v6 v8 v10 v12 v13

/-- The accumulating store: every lane of the loaded vector gains the point's scalar. -/
theorem pay5_apply (v0 v2 v4 v6 v8 v10 : Vec Ideal S1x8x256 .f32) (v12 v13 : Vec Ideal S8x256 .f32)
    (v61 : Vec Ideal S1x1x128 .f32) (j : S1x1x128.Idx) :
    k0_pay5 (F := Ideal) v12 v13 (k0_pay7 (F := Ideal) v0 v2 v4 v6 v8 v10) (k0_pay8 (F := Ideal)) v61 j
      = v61 j + blockSum v0 v2 v4 v6 v8 v10 v12 v13 := by
  unfold k0_pay5
  show shapeCast S1x1x128 v61 _ j + broadcastTo S1x1x128 _ _ j = _
  rw [shapeCast_self]
  refine congrArg (v61 j + ·) ?_
  refine (broadcastTo_111_11c_apply _ _ j).trans ?_
  rw [shapeCast_self]
  refine (shapeCast_ab_1ab_apply _ _ 0 0 0).trans ?_
  exact pay1_value v0 v2 v4 v6 v8 v10 v12 v13

end Point

/-! ## The point's pair term against the specification's -/

section Bridge

/-- When the six planes are blocks of one position array — body t of the i block is body n t of the array, body t of
    the j block body n' t — and the two radius blocks are blocks of one radius array likewise, the point's pair term is
    the specification's pair term of those two bodies. -/
theorem blockTerm_eq_term (pos : Cert.Spec.PosIdx → EReal) (rad : Cert.Spec.RadIdx → EReal) (n n' : Fin 256 → Fin 2048)
    (v0 v2 v4 v6 v8 v10 : Vec Ideal S1x8x256 .f32) (v12 v13 : Vec Ideal S8x256 .f32)
    (h0 : ∀ (b : Fin 8) (t : Fin 256), v0 (ix3 0 b t) = pos (ix3 b (n t) 0))
    (h2 : ∀ (b : Fin 8) (t : Fin 256), v2 (ix3 0 b t) = pos (ix3 b (n t) 1))
    (h4 : ∀ (b : Fin 8) (t : Fin 256), v4 (ix3 0 b t) = pos (ix3 b (n t) 2))
    (h6 : ∀ (b : Fin 8) (t : Fin 256), v6 (ix3 0 b t) = pos (ix3 b (n' t) 0))
    (h8 : ∀ (b : Fin 8) (t : Fin 256), v8 (ix3 0 b t) = pos (ix3 b (n' t) 1))
    (h10 : ∀ (b : Fin 8) (t : Fin 256), v10 (ix3 0 b t) = pos (ix3 b (n' t) 2))
    (h12 : ∀ (b : Fin 8) (t : Fin 256), v12 (ix2 b t) = rad (ix2 b (n t)))
    (h13 : ∀ (b : Fin 8) (t : Fin 256), v13 (ix2 b t) = rad (ix2 b (n' t)))
    (b : Fin 8) (ti tj : Fin 256) :
    blockTerm v0 v2 v4 v6 v8 v10 v12 v13 b ti tj = Cert.Spec.term pos rad b (n ti) (n' tj) := by
  unfold blockTerm blockSq Cert.Spec.term Cert.Spec.sq
  rw [h0, h2, h4, h6, h8, h10, h12, h13]

/-- So the point's scalar is the specification's pair terms summed over the batches and the two blocks' bodies. -/
theorem blockSum_eq_terms (pos : Cert.Spec.PosIdx → EReal) (rad : Cert.Spec.RadIdx → EReal) (n n' : Fin 256 → Fin 2048)
    (v0 v2 v4 v6 v8 v10 : Vec Ideal S1x8x256 .f32) (v12 v13 : Vec Ideal S8x256 .f32)
    (h0 : ∀ (b : Fin 8) (t : Fin 256), v0 (ix3 0 b t) = pos (ix3 b (n t) 0))
    (h2 : ∀ (b : Fin 8) (t : Fin 256), v2 (ix3 0 b t) = pos (ix3 b (n t) 1))
    (h4 : ∀ (b : Fin 8) (t : Fin 256), v4 (ix3 0 b t) = pos (ix3 b (n t) 2))
    (h6 : ∀ (b : Fin 8) (t : Fin 256), v6 (ix3 0 b t) = pos (ix3 b (n' t) 0))
    (h8 : ∀ (b : Fin 8) (t : Fin 256), v8 (ix3 0 b t) = pos (ix3 b (n' t) 1))
    (h10 : ∀ (b : Fin 8) (t : Fin 256), v10 (ix3 0 b t) = pos (ix3 b (n' t) 2))
    (h12 : ∀ (b : Fin 8) (t : Fin 256), v12 (ix2 b t) = rad (ix2 b (n t)))
    (h13 : ∀ (b : Fin 8) (t : Fin 256), v13 (ix2 b t) = rad (ix2 b (n' t))) :
    blockSum v0 v2 v4 v6 v8 v10 v12 v13
      = ∑ b : Fin 8, ∑ ti : Fin 256, ∑ tj : Fin 256, Cert.Spec.term pos rad b (n ti) (n' tj) := by
  unfold blockSum
  refine Finset.sum_congr rfl fun b _ => Finset.sum_congr rfl fun ti _ => Finset.sum_congr rfl fun tj _ => ?_
  exact blockTerm_eq_term pos rad n n' v0 v2 v4 v6 v8 v10 v12 v13 h0 h2 h4 h6 h8 h10 h12 h13 b ti tj

end Bridge

end Cert.KernelIdeal.PointValue

end
-- ==== Proof.PointRows.lean ====
/-
  One grid point's two row sums, read as mathematics over the extended reals.

  From the y plane of the point's i block (8 batches by 256 bodies) and that block's radii the point forms two
  numbers: the sum of the y coordinates, and the sum of the positive parts max (rad − y + 0, 0). Each is summed
  first over the batches, then over the bodies, from the additive neutral (which a sum leaves out), and the one number
  is laid over the 128 lanes of the stored vector.
-/
import proofs.«104090_j82532091560339_2_alg».proof.Proof.PointPair

noncomputable section

open scoped BigOperators

namespace Cert.KernelIdeal.PointValue

open Idealize.ShloMosaic Idealize.ShloMosaic.ValueIdx Cert.KernelIdeal Cert.KernelIdeal.Gen

/-- The y plane with its leading unit axis dropped: at (b, t) the plane at (0, b, t). -/
theorem pay6_apply (v2 : Vec Ideal S1x8x256 .f32) (b : Fin 8) (t : Fin 256) :
    k0_pay6 (F := Ideal) v2 (ix2 b t) = v2 (ix3 0 b t) := by
  unfold k0_pay6
  exact shapeCast_1ab_ab_apply v2 _ b t

/-- The sum of the y coordinates as the two sums produce it (over the batches inside, over the bodies outside), on
    every lane. -/
theorem pay3_raw (v2 : Vec Ideal S1x8x256 .f32) (j : S1x1x128.Idx) :
    k0_pay3 (F := Ideal) (k0_pay6 (F := Ideal) v2) j = ∑ t : Fin 256, ∑ b : Fin 8, v2 (ix3 0 b t) := by
  unfold k0_pay3
  refine (broadcastTo_111_11c_apply _ _ j).trans ?_
  rw [shapeCast_self]
  refine (shapeCast_ab_1ab_apply _ _ 0 0 0).trans ?_
  refine (sum_rows _ _ _ _ _ _ _ 0 0).trans ?_
  refine Finset.sum_congr rfl fun t _ => Finset.sum_congr rfl fun b _ => ?_
  exact pay6_apply v2 b t

/-- The same with the batches outside. -/
theorem pay3_apply (v2 : Vec Ideal S1x8x256 .f32) (j : S1x1x128.Idx) :
    k0_pay3 (F := Ideal) (k0_pay6 (F := Ideal) v2) j = ∑ b : Fin 8, ∑ t : Fin 256, v2 (ix3 0 b t) := by
  rw [pay3_raw, Finset.sum_comm]

/-- The sum of the positive parts max (rad − y + 0, 0) as the two sums produce it, on every lane; the two zeros are
    the zero word's value, kept as the specification keeps them. -/
theorem pay4_raw (v2 : Vec Ideal S1x8x256 .f32) (v12 : Vec Ideal S8x256 .f32) (j : S1x1x128.Idx) :
    k0_pay4 (F := Ideal) (k0_pay6 (F := Ideal) v2) v12 j
      = ∑ t : Fin 256, ∑ b : Fin 8,
          max ((v12 (ix2 b t) - v2 (ix3 0 b t)) + Cert.Spec.zeroE) Cert.Spec.zeroE := by
  unfold k0_pay4
  refine (broadcastTo_111_11c_apply _ _ j).trans ?_
  rw [shapeCast_self]
  refine (shapeCast_ab_1ab_apply _ _ 0 0 0).trans ?_
  refine (sum_rows _ _ _ _ _ _ _ 0 0).trans ?_
  refine Finset.sum_congr rfl fun t _ => Finset.sum_congr rfl fun b _ => ?_
  show max ((v12 (ix2 b t) - k0_pay6 (F := Ideal) v2 (ix2 b t)) + Cert.Spec.zeroE) Cert.Spec.zeroE = _
  rw [pay6_apply]

/-- The same with the batches outside. -/
theorem pay4_apply (v2 : Vec Ideal S1x8x256 .f32) (v12 : Vec Ideal S8x256 .f32) (j : S1x1x128.Idx) :
    k0_pay4 (F := Ideal) (k0_pay6 (F := Ideal) v2) v12 j
      = ∑ b : Fin 8, ∑ t : Fin 256,
          max ((v12 (ix2 b t) - v2 (ix3 0 b t)) + Cert.Spec.zeroE) Cert.Spec.zeroE := by
  rw [pay4_raw, Finset.sum_comm]

/-! ## Against the position and radius arrays -/

/-- When the y plane is a block of the position array — body t of the block is body n t of the array — the first row
    sum is the sum of those bodies' y coordinates. -/
theorem pay3_eq_pos (pos : Cert.Spec.PosIdx → EReal) (n : Fin 256 → Fin 2048) (v2 : Vec Ideal S1x8x256 .f32)
    (h2 : ∀ (b : Fin 8) (t : Fin 256), v2 (ix3 0 b t) = pos (ix3 b (n t) 1)) (j : S1x1x128.Idx) :
    k0_pay3 (F := Ideal) (k0_pay6 (F := Ideal) v2) j = ∑ b : Fin 8, ∑ t : Fin 256, pos (ix3 b (n t) 1) := by
  rw [pay3_apply]
  exact Finset.sum_congr rfl fun b _ => Finset.sum_congr rfl fun t _ => h2 b t

/-- And with the radii a block of the radius array likewise, the second row sum is the sum of those bodies' positive
    parts, term for term the specification's. -/
theorem pay4_eq_pos (pos : Cert.Spec.PosIdx → EReal) (rad : Cert.Spec.RadIdx → EReal) (n : Fin 256 → Fin 2048)
    (v2 : Vec Ideal S1x8x256 .f32) (v12 : Vec Ideal S8x256 .f32)
    (h2 : ∀ (b : Fin 8) (t : Fin 256), v2 (ix3 0 b t) = pos (ix3 b (n t) 1))
    (h12 : ∀ (b : Fin 8) (t : Fin 256), v12 (ix2 b t) = rad (ix2 b (n t))) (j : S1x1x128.Idx) :
    k0_pay4 (F := Ideal) (k0_pay6 (F := Ideal) v2) v12 j
      = ∑ b : Fin 8, ∑ t : Fin 256,
          max ((rad (ix2 b (n t)) - pos (ix3 b (n t) 1)) + Cert.Spec.zeroE) Cert.Spec.zeroE := by
  rw [pay4_apply]
  refine Finset.sum_congr rfl fun b _ => Finset.sum_congr rfl fun t _ => ?_
  rw [h2, h12]

end Cert.KernelIdeal.PointValue

end
-- ==== Proof.Tiles.lean ====
/-
  The 2048 bodies as eight tiles of 256, and the specification's three sums regrouped by tiles.

  Body t of tile i is body 256 i + t; the pairs (i, t) run over the bodies exactly once, so a sum over the bodies is the
  sum over the tiles of the sums over a tile's bodies. Hence the sum of the y coordinates and the sum of the positive
  parts are sums over the eight tiles of one tile's row sum, and the sum of the pair terms over the ordered pairs of
  bodies is the sum over the 8 × 8 pairs of tiles of one pair of tiles' block sum. A row of tile pairs is gathered by
  a running total: started at the first tile's block sum and increased by each later one, it ends at the row's sum.
-/
import proofs.«104090_j82532091560339_2_alg».proof.Proof.Spec
import Mathlib.Algebra.BigOperators.Fin
import Mathlib.Logic.Equiv.Fin.Basic

noncomputable section

open scoped BigOperators

namespace Cert.KernelIdeal.PointValue

open Idealize.ShloMosaic Idealize.ShloMosaic.ValueIdx

/-- Body t of tile i: body 256 i + t of the 2048. -/
def tileBody (i : Fin 8) (t : Fin 256) : Fin 2048 :=
  ⟨256 * i.val + t.val, by have := i.isLt; have := t.isLt; omega⟩

theorem tileBody_val (i : Fin 8) (t : Fin 256) : (tileBody i t).val = 256 * i.val + t.val := rfl

/-- Eight tiles of 256 cover the 2048 bodies once: a sum over the bodies is the sum over the tiles of the sums over a
    tile's bodies, whatever names body t of tile i, as long as its number is 256 i + t. -/
theorem sum_tiles_of {M : Type*} [AddCommMonoid M] (n : Fin 8 → Fin 256 → Fin 2048)
    (hn : ∀ i t, (n i t).val = 256 * i.val + t.val) (f : Fin 2048 → M) :
    ∑ i : Fin 8, ∑ t : Fin 256, f (n i t) = ∑ x : Fin 2048, f x := by
  rw [← Fintype.sum_prod_type' (f := fun i t => f (n i t))]
  refine Fintype.sum_equiv (finProdFinEquiv (m := 8) (n := 256)) _ _ fun p => ?_
  refine congrArg f (Fin.ext ?_)
  rw [hn]
  show 256 * p.1.val + p.2.val = p.2.val + 256 * p.1.val
  omega

/-- The same for the tiles' bodies as named here. -/
theorem sum_tiles {M : Type*} [AddCommMonoid M] (f : Fin 2048 → M) :
    ∑ i : Fin 8, ∑ t : Fin 256, f (tileBody i t) = ∑ x : Fin 2048, f x :=
  sum_tiles_of tileBody tileBody_val f

/-! ## The specification's three sums, by tiles -/

/-- The sum of the y coordinates: over the tiles, one tile's sum over the batches and the tile's bodies. -/
theorem gravSum_tiles (pos : Cert.Spec.PosIdx → EReal) :
    Cert.Spec.gravSum pos = ∑ i : Fin 8, (∑ b : Fin 8, ∑ t : Fin 256, pos (ix3 b (tileBody i t) 1)) := by
  unfold Cert.Spec.gravSum
  refine (Finset.sum_congr rfl fun b _ => (sum_tiles (M := EReal) fun x => pos (ix3 b x 1)).symm).trans ?_
  exact Finset.sum_comm

/-- The sum of the positive parts likewise. -/
theorem groundSum_tiles (pos : Cert.Spec.PosIdx → EReal) (rad : Cert.Spec.RadIdx → EReal) :
    Cert.Spec.groundSum pos rad
      = ∑ i : Fin 8, (∑ b : Fin 8, ∑ t : Fin 256,
          max ((rad (ix2 b (tileBody i t)) - pos (ix3 b (tileBody i t) 1)) + Cert.Spec.zeroE) Cert.Spec.zeroE) := by
  unfold Cert.Spec.groundSum
  refine (Finset.sum_congr rfl fun b _ => (sum_tiles (M := EReal) fun x =>
    max ((rad (ix2 b x) - pos (ix3 b x 1)) + Cert.Spec.zeroE) Cert.Spec.zeroE).symm).trans ?_
  exact Finset.sum_comm

/-- The sum of the pair terms: over the ordered pairs of tiles, one pair's sum over the batches and over the pairs of
    a body of the first tile and a body of the second. -/
theorem collSum_tiles (pos : Cert.Spec.PosIdx → EReal) (rad : Cert.Spec.RadIdx → EReal) :
    Cert.Spec.collSum pos rad
      = ∑ i : Fin 8, ∑ j : Fin 8, (∑ b : Fin 8, ∑ ti : Fin 256, ∑ tj : Fin 256,
          Cert.Spec.term pos rad b (tileBody i ti) (tileBody j tj)) := by
  unfold Cert.Spec.collSum
  have e : ∀ b : Fin 8, (∑ x : Fin 2048, ∑ x' : Fin 2048, Cert.Spec.term pos rad b x x')
      = ∑ i : Fin 8, ∑ j : Fin 8, ∑ ti : Fin 256, ∑ tj : Fin 256,
          Cert.Spec.term pos rad b (tileBody i ti) (tileBody j tj) := fun b => by
    refine (sum_tiles (M := EReal) fun x => ∑ x' : Fin 2048, Cert.Spec.term pos rad b x x').symm.trans ?_
    refine Finset.sum_congr rfl fun i _ => ?_
    refine (Finset.sum_congr rfl fun ti _ =>
      (sum_tiles (M := EReal) fun x' => Cert.Spec.term pos rad b (tileBody i ti) x').symm).trans ?_
    exact Finset.sum_comm
  refine (Finset.sum_congr rfl fun b _ => e b).trans ?_
  refine Finset.sum_comm.trans ?_
  exact Finset.sum_congr rfl fun i _ => Finset.sum_comm

/-! ## A row's running total -/

/-- A running total over eight numbers — begun at the first, each later one added in turn — ends at their sum. -/
theorem running_total {M : Type*} [AddCommMonoid M] (a : Fin 8 → M) (g : ℕ → M) (h0 : g 0 = a 0)
    (hs : ∀ (j : ℕ) (hj : j < 7), g (j + 1) = g j + a ⟨j + 1, by omega⟩) :
    g 7 = ∑ j : Fin 8, a j := by
  rw [Fin.sum_univ_eight, hs 6 (by omega), hs 5 (by omega), hs 4 (by omega), hs 3 (by omega), hs 2 (by omega),
    hs 1 (by omega), hs 0 (by omega), h0]
  rfl

end Cert.KernelIdeal.PointValue

end
-- ==== Proof.KIRows.lean ====
/-
  What the three result buffers hold at the end of a row of the grid, as sums of the specification's terms.

  A grid point t stands for the pair of tiles (t / 8, t % 8). When the four input windows' blocks at t are the tiles'
  entries of the position and radius arrays, the value the first-column point stores into the first result buffer is
  the pair terms summed over the batches and over the bodies of tile t / 8 against those of tile t % 8, and each later
  point of the row adds its own such sum; so at the row's last point the buffer holds the row tile's pair terms against
  all 2048 bodies, tile by tile. The other two buffers keep, along the row, what the first-column point stored: the row
  tile's sum of y coordinates, and its sum of the positive parts of radius less y.
-/
import proofs.«104090_j82532091560339_2_alg».proof.Proof.KIFrame
import proofs.«104090_j82532091560339_2_alg».proof.Proof.PointPair
import proofs.«104090_j82532091560339_2_alg».proof.Proof.PointRows
import proofs.«104090_j82532091560339_2_alg».proof.Proof.Tiles

set_option maxRecDepth 16384

noncomputable section

open scoped BigOperators

namespace Cert.KernelIdeal.Hand

open Cert.KernelIdeal Cert.KernelIdeal.Gen Cert.KernelIdeal.PointValue
open Idealize.ShloMosaic Idealize.ShloMosaic.TcCoe Idealize.ShloMosaic.ValueIdx
open Idealize.SL Idealize.SL.Sem
open Idealize.ShloMosaic.Pipeline (Dat Cfg Window)

/-! ## A plane of a position tile, entry by entry -/

/-- Entry (0, b, t) of plane 0 of a 3 × 8 × 256 tile is the tile's entry (0, b, t). -/
theorem ld_plane0 (x : Vec Ideal S3x8x256 .f32) (b : Fin 8) (t : Fin 256) :
    View.ld x plane0 (ix3 (0 : Fin 1) b t) = x (ix3 (0 : Fin 3) b t) := by
  refine congrArg x (funext fun a => Fin.ext ?_)
  match a with
  | ⟨0, _⟩ => rfl
  | ⟨1, _⟩ => show 0 + 1 * b.val = b.val; omega
  | ⟨2, _⟩ => show 0 + 1 * t.val = t.val; omega

/-- Entry (0, b, t) of plane 1 is the tile's entry (1, b, t). -/
theorem ld_plane1 (x : Vec Ideal S3x8x256 .f32) (b : Fin 8) (t : Fin 256) :
    View.ld x plane1 (ix3 (0 : Fin 1) b t) = x (ix3 (1 : Fin 3) b t) := by
  refine congrArg x (funext fun a => Fin.ext ?_)
  match a with
  | ⟨0, _⟩ => rfl
  | ⟨1, _⟩ => show 0 + 1 * b.val = b.val; omega
  | ⟨2, _⟩ => show 0 + 1 * t.val = t.val; omega

/-- Entry (0, b, t) of plane 2 is the tile's entry (2, b, t). -/
theorem ld_plane2 (x : Vec Ideal S3x8x256 .f32) (b : Fin 8) (t : Fin 256) :
    View.ld x plane2 (ix3 (0 : Fin 1) b t) = x (ix3 (2 : Fin 3) b t) := by
  refine congrArg x (funext fun a => Fin.ext ?_)
  match a with
  | ⟨0, _⟩ => rfl
  | ⟨1, _⟩ => show 0 + 1 * b.val = b.val; omega
  | ⟨2, _⟩ => show 0 + 1 * t.val = t.val; omega

/-! ## The four stored values of a pair of tiles -/

section Tiles
variable (pos : Cert.Spec.PosIdx → EReal) (rad : Cert.Spec.RadIdx → EReal)

/-- The pair terms of tile i against tile jt, summed over the batches and the two tiles' bodies. -/
def tilePair (i jt : Fin 8) : EReal :=
  ∑ b : Fin 8, ∑ ti : Fin 256, ∑ tj : Fin 256, Cert.Spec.term pos rad b (tileBody i ti) (tileBody jt tj)

/-- The y coordinates of tile i, summed over the batches and the tile's bodies. -/
def tileGrav (i : Fin 8) : EReal := ∑ b : Fin 8, ∑ t : Fin 256, pos (ix3 b (tileBody i t) 1)

/-- The positive parts of radius less y of tile i, summed likewise. -/
def tileGround (i : Fin 8) : EReal :=
  ∑ b : Fin 8, ∑ t : Fin 256,
    max ((rad (ix2 b (tileBody i t)) - pos (ix3 b (tileBody i t) 1)) + Cert.Spec.zeroE) Cert.Spec.zeroE

variable (i jt : Fin 8) (x0 x1 : Vec Ideal S3x8x256 .f32) (x2 x3 : Vec Ideal S8x256 .f32)
  (h0 : ∀ (k : Fin 3) (b : Fin 8) (x : Fin 256), x0 (ix3 k b x) = pos (ix3 b (tileBody i x) k))
  (h1 : ∀ (k : Fin 3) (b : Fin 8) (x : Fin 256), x1 (ix3 k b x) = pos (ix3 b (tileBody jt x) k))
  (h2 : ∀ (b : Fin 8) (x : Fin 256), x2 (ix2 b x) = rad (ix2 b (tileBody i x)))
  (h3 : ∀ (b : Fin 8) (x : Fin 256), x3 (ix2 b x) = rad (ix2 b (tileBody jt x)))

include h0 h1 h2 h3 in
/-- The first result stored on the first column: the two tiles' pair sum, on every lane. -/
theorem blkA4_eq (j : S1x1x128.Idx) : blkA4 (F := Ideal) x0 x1 x2 x3 j = tilePair pos rad i jt := by
  unfold blkA4 sqDist
  refine (pay2_apply _ _ _ _ _ _ x2 x3 j).trans ?_
  exact blockSum_eq_terms pos rad (tileBody i) (tileBody jt) _ _ _ _ _ _ x2 x3
    (fun b t => (ld_plane0 x0 b t).trans (h0 0 b t)) (fun b t => (ld_plane1 x0 b t).trans (h0 1 b t))
    (fun b t => (ld_plane2 x0 b t).trans (h0 2 b t)) (fun b t => (ld_plane0 x1 b t).trans (h1 0 b t))
    (fun b t => (ld_plane1 x1 b t).trans (h1 1 b t)) (fun b t => (ld_plane2 x1 b t).trans (h1 2 b t)) h2 h3

include h0 h1 h2 h3 in
/-- The first result stored off the first column: what the buffer held plus the two tiles' pair sum, lane by lane. -/
theorem blkB4_eq (xo : Vec Ideal S1x1x128 .f32) (j : S1x1x128.Idx) :
    blkB4 (F := Ideal) x0 x1 x2 x3 xo j = xo j + tilePair pos rad i jt := by
  unfold blkB4 sqDist
  refine (pay5_apply _ _ _ _ _ _ x2 x3 xo j).trans ?_
  refine congrArg (xo j + ·) ?_
  exact blockSum_eq_terms pos rad (tileBody i) (tileBody jt) _ _ _ _ _ _ x2 x3
    (fun b t => (ld_plane0 x0 b t).trans (h0 0 b t)) (fun b t => (ld_plane1 x0 b t).trans (h0 1 b t))
    (fun b t => (ld_plane2 x0 b t).trans (h0 2 b t)) (fun b t => (ld_plane0 x1 b t).trans (h1 0 b t))
    (fun b t => (ld_plane1 x1 b t).trans (h1 1 b t)) (fun b t => (ld_plane2 x1 b t).trans (h1 2 b t)) h2 h3

include h0 in
/-- The second result: the row tile's y coordinates summed, on every lane. -/
theorem blkA5_eq (j : S1x1x128.Idx) : blkA5 (F := Ideal) x0 j = tileGrav pos i := by
  unfold blkA5 rowY
  exact pay3_eq_pos pos (tileBody i) _ (fun b t => (ld_plane1 x0 b t).trans (h0 1 b t)) j

include h0 h2 in
/-- The third result: the row tile's positive parts summed, on every lane. -/
theorem blkA6_eq (j : S1x1x128.Idx) : blkA6 (F := Ideal) x0 x2 j = tileGround pos rad i := by
  unfold blkA6 rowY
  exact pay4_eq_pos pos rad (tileBody i) _ x2 (fun b t => (ld_plane1 x0 b t).trans (h0 1 b t)) h2 j

end Tiles

/-! ## Along a row of the grid -/

section Rows
variable (m : (ℓ : Loc nD τ sig) → Buf (Elt Ideal) ℓ) (c : Dev nD)
variable (pos : Cert.Spec.PosIdx → EReal) (rad : Cert.Spec.RadIdx → EReal)

/-- The row tile of a grid point … -/
abbrev rowOf (t : Fin cfg0.N) : Fin 8 :=
  ⟨t.val / 8, by have := t.isLt; have h : cfg0.N = 64 := N_0; omega⟩
/-- … and its column tile. -/
abbrev colOf (t : Fin cfg0.N) : Fin 8 := ⟨t.val % 8, Nat.mod_lt _ (by decide)⟩

/-- The values after a point do not depend on how the point's number is written. -/
theorem outs_congr {n n' : ℕ} (h : n = n') (hn : n < cfg0.N) (hn' : n' < cfg0.N) :
    outsAt0 m c n hn = outsAt0 m c n' hn' := by
  subst h; rfl

variable
  (hb0 : ∀ (t : Fin cfg0.N) (k : Fin 3) (b : Fin 8) (x : Fin 256),
    (iblk m c 0 t : Vec Ideal S3x8x256 .f32) (ix3 k b x) = pos (ix3 b (tileBody (rowOf t) x) k))
  (hb1 : ∀ (t : Fin cfg0.N) (k : Fin 3) (b : Fin 8) (x : Fin 256),
    (iblk m c 1 t : Vec Ideal S3x8x256 .f32) (ix3 k b x) = pos (ix3 b (tileBody (colOf t) x) k))
  (hb2 : ∀ (t : Fin cfg0.N) (b : Fin 8) (x : Fin 256),
    (iblk m c 2 t : Vec Ideal S8x256 .f32) (ix2 b x) = rad (ix2 b (tileBody (rowOf t) x)))
  (hb3 : ∀ (t : Fin cfg0.N) (b : Fin 8) (x : Fin 256),
    (iblk m c 3 t : Vec Ideal S8x256 .f32) (ix2 b x) = rad (ix2 b (tileBody (colOf t) x)))

include hb0 hb1 hb2 hb3 in
/-- On the first column the three buffers hold the point's three stored values. -/
theorem outs_first (t : Fin cfg0.N) (h0 : t.val % 8 = 0) (j : S1x1x128.Idx) :
    (outsAt0 m c t.val t.isLt).1 j = tilePair pos rad (rowOf t) (colOf t)
      ∧ (outsAt0 m c t.val t.isLt).2.1 j = tileGrav pos (rowOf t)
      ∧ (outsAt0 m c t.val t.isLt).2.2 j = tileGround pos rad (rowOf t) := by
  rw [outsAt0_A m c t h0]
  exact ⟨blkA4_eq pos rad (rowOf t) (colOf t) (iblk m c 0 t) (iblk m c 1 t) (iblk m c 2 t) (iblk m c 3 t)
      (hb0 t) (hb1 t) (hb2 t) (hb3 t) j,
    blkA5_eq pos (rowOf t) (iblk m c 0 t) (hb0 t) j,
    blkA6_eq pos rad (rowOf t) (iblk m c 0 t) (iblk m c 2 t) (hb0 t) (hb2 t) j⟩

include hb0 hb1 hb2 hb3 in
/-- Off it the first buffer gains the point's pair sum and the other two are as the point before left them. -/
theorem outs_later (t : Fin cfg0.N) (h0 : ¬t.val % 8 = 0) (j : S1x1x128.Idx) :
    (outsAt0 m c t.val t.isLt).1 j
        = (outsAt0 m c (t.val - 1) (Nat.lt_of_le_of_lt (Nat.sub_le _ _) t.isLt)).1 j
          + tilePair pos rad (rowOf t) (colOf t)
      ∧ (outsAt0 m c t.val t.isLt).2.1 j
        = (outsAt0 m c (t.val - 1) (Nat.lt_of_le_of_lt (Nat.sub_le _ _) t.isLt)).2.1 j
      ∧ (outsAt0 m c t.val t.isLt).2.2 j
        = (outsAt0 m c (t.val - 1) (Nat.lt_of_le_of_lt (Nat.sub_le _ _) t.isLt)).2.2 j := by
  rw [outsAt0_B m c t h0]
  exact ⟨blkB4_eq pos rad (rowOf t) (colOf t) (iblk m c 0 t) (iblk m c 1 t) (iblk m c 2 t) (iblk m c 3 t)
      (hb0 t) (hb1 t) (hb2 t) (hb3 t) _ j, rfl, rfl⟩

/-- Point jc of row i is inside the grid. -/
theorem row_lt (i : Fin 8) {jc : ℕ} (hjc : jc < 8) : 8 * i.val + jc < cfg0.N := by
  have := i.isLt; have h : cfg0.N = 64 := N_0; omega

include hb0 hb1 hb2 hb3 in
/-- Along row i: at its first point the first buffer holds the pair sum against tile 0, each later point adds the pair
    sum against its own column tile, and the other two buffers hold the row tile's two sums throughout. -/
theorem row_step (i : Fin 8) (j : S1x1x128.Idx) : ∀ (jc : ℕ) (hjc : jc < 8),
    (outsAt0 m c (8 * i.val + jc) (row_lt i hjc)).2.1 j = tileGrav pos i
      ∧ (outsAt0 m c (8 * i.val + jc) (row_lt i hjc)).2.2 j = tileGround pos rad i
      ∧ (outsAt0 m c (8 * i.val + jc) (row_lt i hjc)).1 j
          = (match jc with
              | 0 => tilePair pos rad i ⟨0, by decide⟩
              | jc' + 1 => (outsAt0 m c (8 * i.val + jc') (row_lt i (by omega))).1 j
                  + tilePair pos rad i ⟨jc' + 1, hjc⟩) := by
  intro jc
  induction jc with
  | zero =>
    intro hjc
    have hr : rowOf ⟨8 * i.val + 0, row_lt i hjc⟩ = i := Fin.ext (by show (8 * i.val + 0) / 8 = i.val; omega)
    have hc : colOf ⟨8 * i.val + 0, row_lt i hjc⟩ = ⟨0, by decide⟩ :=
      Fin.ext (by show (8 * i.val + 0) % 8 = 0; omega)
    have h := outs_first m c pos rad hb0 hb1 hb2 hb3 ⟨8 * i.val + 0, row_lt i hjc⟩
      (by show (8 * i.val + 0) % 8 = 0; omega) j
    rw [hr, hc] at h
    exact ⟨h.2.1, h.2.2, h.1⟩
  | succ jc ih =>
    intro hjc
    have hr : rowOf ⟨8 * i.val + (jc + 1), row_lt i hjc⟩ = i :=
      Fin.ext (by show (8 * i.val + (jc + 1)) / 8 = i.val; omega)
    have hc : colOf ⟨8 * i.val + (jc + 1), row_lt i hjc⟩ = ⟨jc + 1, hjc⟩ :=
      Fin.ext (by show (8 * i.val + (jc + 1)) % 8 = jc + 1; omega)
    have h := outs_later m c pos rad hb0 hb1 hb2 hb3 ⟨8 * i.val + (jc + 1), row_lt i hjc⟩
      (by show ¬(8 * i.val + (jc + 1)) % 8 = 0; omega) j
    rw [hr, hc] at h
    have hp : outsAt0 m c ((⟨8 * i.val + (jc + 1), row_lt i hjc⟩ : Fin cfg0.N).val - 1)
          (Nat.lt_of_le_of_lt (Nat.sub_le _ _) (row_lt i hjc))
        = outsAt0 m c (8 * i.val + jc) (row_lt i (by omega)) :=
      outs_congr m c (by show 8 * i.val + (jc + 1) - 1 = 8 * i.val + jc; omega) _ _
    rw [hp] at h
    have ih' := ih (by omega)
    exact ⟨h.2.1.trans ih'.1, h.2.2.trans ih'.2.1, h.1⟩

end Rows

/-! ## At the end of a row -/

section RowEnd
variable (m : (ℓ : Loc nD τ sig) → Buf (Elt Ideal) ℓ) (c : Dev nD)
variable (pos : Cert.Spec.PosIdx → EReal) (rad : Cert.Spec.RadIdx → EReal)
variable
  (hb0 : ∀ (t : Fin cfg0.N) (k : Fin 3) (b : Fin 8) (x : Fin 256),
    (iblk m c 0 t : Vec Ideal S3x8x256 .f32) (ix3 k b x) = pos (ix3 b (tileBody (rowOf t) x) k))
  (hb1 : ∀ (t : Fin cfg0.N) (k : Fin 3) (b : Fin 8) (x : Fin 256),
    (iblk m c 1 t : Vec Ideal S3x8x256 .f32) (ix3 k b x) = pos (ix3 b (tileBody (colOf t) x) k))
  (hb2 : ∀ (t : Fin cfg0.N) (b : Fin 8) (x : Fin 256),
    (iblk m c 2 t : Vec Ideal S8x256 .f32) (ix2 b x) = rad (ix2 b (tileBody (rowOf t) x)))
  (hb3 : ∀ (t : Fin cfg0.N) (b : Fin 8) (x : Fin 256),
    (iblk m c 3 t : Vec Ideal S8x256 .f32) (ix2 b x) = rad (ix2 b (tileBody (colOf t) x)))

include hb0 hb1 hb2 hb3 in
/-- After the last point of row i the first buffer holds, on every lane, the row tile's pair terms against every tile:
    the running total of the eight points' pair sums. -/
theorem row_end_pair (i : Fin 8) (j : S1x1x128.Idx) :
    (outsAt0 m c (8 * i.val + 7) (row_lt i (by decide))).1 j
      = ∑ jt : Fin 8, ∑ b : Fin 8, ∑ ti : Fin 256, ∑ tj : Fin 256,
          Cert.Spec.term pos rad b (tileBody i ti) (tileBody jt tj) := by
  have h0 : (fun jc : ℕ => if h : jc < 8 then (outsAt0 m c (8 * i.val + jc) (row_lt i h)).1 j else 0) 0
      = (fun jt : Fin 8 => tilePair pos rad i jt) 0 := by
    show (if h : 0 < 8 then (outsAt0 m c (8 * i.val + 0) (row_lt i h)).1 j else 0) = tilePair pos rad i 0
    rw [dif_pos (by decide)]
    exact (row_step m c pos rad hb0 hb1 hb2 hb3 i j 0 (by decide)).2.2
  have hs : ∀ (jc : ℕ) (hj : jc < 7),
      (fun jc : ℕ => if h : jc < 8 then (outsAt0 m c (8 * i.val + jc) (row_lt i h)).1 j else 0) (jc + 1)
        = (fun jc : ℕ => if h : jc < 8 then (outsAt0 m c (8 * i.val + jc) (row_lt i h)).1 j else 0) jc
          + (fun jt : Fin 8 => tilePair pos rad i jt) ⟨jc + 1, by omega⟩ := fun jc hj => by
    show (if h : jc + 1 < 8 then (outsAt0 m c (8 * i.val + (jc + 1)) (row_lt i h)).1 j else 0)
      = (if h : jc < 8 then (outsAt0 m c (8 * i.val + jc) (row_lt i h)).1 j else 0)
        + tilePair pos rad i ⟨jc + 1, by omega⟩
    rw [dif_pos (show jc + 1 < 8 by omega), dif_pos (show jc < 8 by omega)]
    exact (row_step m c pos rad hb0 hb1 hb2 hb3 i j (jc + 1) (by omega)).2.2
  have h7 := running_total (fun jt : Fin 8 => tilePair pos rad i jt)
    (fun jc : ℕ => if h : jc < 8 then (outsAt0 m c (8 * i.val + jc) (row_lt i h)).1 j else 0) h0 hs
  rw [dif_pos (by decide)] at h7
  exact h7

include hb0 hb1 hb2 hb3 in
/-- The second buffer holds the row tile's sum of y coordinates. -/
theorem row_end_grav (i : Fin 8) (j : S1x1x128.Idx) :
    (outsAt0 m c (8 * i.val + 7) (row_lt i (by decide))).2.1 j
      = ∑ b : Fin 8, ∑ t : Fin 256, pos (ix3 b (tileBody i t) 1) :=
  (row_step m c pos rad hb0 hb1 hb2 hb3 i j 7 (by decide)).1

include hb0 hb1 hb2 hb3 in
/-- The third buffer holds the row tile's sum of the positive parts of radius less y. -/
theorem row_end_ground (i : Fin 8) (j : S1x1x128.Idx) :
    (outsAt0 m c (8 * i.val + 7) (row_lt i (by decide))).2.2 j
      = ∑ b : Fin 8, ∑ t : Fin 256,
          max ((rad (ix2 b (tileBody i t)) - pos (ix3 b (tileBody i t) 1)) + Cert.Spec.zeroE) Cert.Spec.zeroE :=
  (row_step m c pos rad hb0 hb1 hb2 hb3 i j 7 (by decide)).2.1

end RowEnd

end Cert.KernelIdeal.Hand

end
-- ==== Proof.KHost.lean ====
/-
  The host lines of the kernel program, before and after its one kernel launch, read as values over the extended reals.

  BEFORE the launch the host cuts the three coordinate planes out of the position array `[8, 2048, 3]` (a slice
  `[0:8, 0:2048, c:c+1]` for `c = 0, 1, 2`), reshapes each `[8, 2048, 1] → [8, 2048]`, puts a unit axis in front
  (`[8, 2048] → [1, 8, 2048]`) and lays the three along axis 0. Entry `(c, b, n)` of the resulting `[3, 8, 2048]` array is
  entry `(b, n, c)` of the position array: the array the kernel reads is the position array with the coordinate axis
  moved to the front.

  AFTER the launch each of the three `[8, 1, 128]` outputs is cut to its column `[0:8, 0:1, 0:1]`, reshaped to `[8]` and
  summed from the zero word, which gives `∑ i, out (i, 0, 0)`; the second and third sums are divided by 16384 and the
  first by 2^25, softplus is applied to that last quotient, and the three are added with weight 0.2 each, the second and
  third first. That is the specification's `combine` of the three sums, with the first output in the place of the pair
  sum, the second in that of the `y` sum and the third in that of the ground sum.
-/
import proofs.«104090_j82532091560339_2_alg».proof.Proof.Spec
import proofs.«104090_j82532091560339_2_alg».proof.Proof.Gen.KernelIdeal.Launch
import Idealize.ShloMosaic.Lib.StableHlo.Run
import Idealize.ShloMosaic.Lib.Pipeline.Value
import Idealize.ShloMosaic.PureOps.Ideal.Laws

noncomputable section

open scoped BigOperators

namespace Cert.KernelIdeal.HostValue

open Cert.KernelIdeal Cert.KernelIdeal.Gen Idealize.ShloMosaic Idealize.ShloMosaic.TcCoe Idealize.ShloMosaic.ValueIdx
  Idealize.ShloMosaic.StableHlo

/-! ## Before the launch: the coordinate planes -/

/-- One plane as the host builds it — the slice at offset `off = (0, 0, c)`, the reshape that drops the unit axis, the
    broadcast that puts a unit axis in front — read at `(0, b, n)`: the position array at `(b, n, c)`. -/
theorem plane_at (pos : FVec Ideal S8x2048x3 .f32) (off : Fin 3 → Nat) (h : S8x2048x3.Slices off S8x2048x1)
    (c : Fin 3) (h0 : off 0 = 0) (h1 : off 1 = 0) (h2 : off 2 = c.val) (b : Fin 8) (n : Fin 2048) :
    broadcastInDim S1x8x2048 ![1, 2] bcast_S8x2048_S1x8x2048_1_2
      (shapeCast S8x2048 (extractStridedSlice S8x2048x1 off pos h) shapeCasts_S8x2048x1_S8x2048) (ix3 (0 : Fin 1) b n)
      = pos (ix3 b n c) := by
  rw [broadcastInDim_apply _ bcast_S8x2048_S1x8x2048_1_2 _ (ix3 (0 : Fin 1) b n) (ix2 b n) (fun a => match a with
    | ⟨0, _⟩ => by show b.val = if (8 : Nat) = 1 then 0 else b.val; rw [if_neg (by decide)]
    | ⟨1, _⟩ => by show n.val = if (2048 : Nat) = 1 then 0 else n.val; rw [if_neg (by decide)])]
  rw [shapeCast_apply _ shapeCasts_S8x2048x1_S8x2048 (ix2 b n) (ix3 b n (0 : Fin 1))
    (by rw [Shape.rowMajor_val_three, Shape.rowMajor_val_two]; show (b.val * 2048 + n.val) * 1 + 0 = b.val * 2048 + n.val; omega)]
  exact extractStridedSlice_apply off pos h (ix3 b n (0 : Fin 1)) (ix3 b n c) (fun a => match a with
    | ⟨0, _⟩ => by show b.val = off 0 + b.val; omega
    | ⟨1, _⟩ => by show n.val = off 1 + n.val; omega
    | ⟨2, _⟩ => by show c.val = off 2 + 0; omega)

/-- An operation with three operands named by a literal family writes its function of the three operands' contents,
    each read at its own buffer. -/
theorem nary3_result {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Three `[1, 8, 2048]` pieces laid along axis 0: entry `(k, b, n)` of the whole is entry `(0, b, n)` of piece `k`. -/
theorem concat3_at (p0 p1 p2 : FVec Ideal S1x8x2048 .f32) (k : Fin 3) (b : Fin 8) (n : Fin 2048) :
    concatenate S3x8x2048 0 [⟨S1x8x2048, p0⟩, ⟨S1x8x2048, p1⟩, ⟨S1x8x2048, p2⟩]
      concatenates_S1x8x2048_S1x8x2048_S1x8x2048_S3x8x2048_d0 (ix3 k b n) = (![p0, p1, p2] k) (ix3 (0 : Fin 1) b n) := by
  refine concatenate_ofFn_unit_apply (t := S3x8x2048) (s₁ := S1x8x2048) (0 : Fin 3) (![p0, p1, p2] : Fin 3 → S1x8x2048.Idx → EReal)
    concatenates_S1x8x2048_S1x8x2048_S1x8x2048_S3x8x2048_d0 rfl rfl (ix3 k b n) k rfl (ix3 (0 : Fin 1) b n) (fun a ha => ?_)
  match a with
  | ⟨0, _⟩ => exact absurd rfl ha
  | ⟨1, _⟩ => rfl
  | ⟨2, _⟩ => rfl

/-- The array the kernel reads, after the host lines before the launch, from any contents `W0`: entry `(k, b, n)` is
    the position array's entry `(b, n, k)`. -/
theorem host_head (W0 : Valuation τ sig (Elt Ideal)) (k : Fin 3) (b : Fin 8) (n : Fin 2048) :
    (StableHlo.after (List.flatten [hostOps0 (F := Ideal)]) W0 (Proc.devRef .tc main_v9) : S3x8x2048.Idx → EReal) (ix3 k b n)
      = (W0 (Proc.devRef .tc main_arg0) : S8x2048x3.Idx → EReal) (ix3 b n k) := by
  simp only [hostOps0, List.flatten_cons, List.flatten_nil, List.append_nil]
  simp only [after_cons, after_nil]
  rw [nary3_result]
  repeat (first
    | rw [unary_result] | rw [reshape_result]
    | (rw [unary_result_ne]; rotate_left; decide)
    | (rw [reshape_result_ne]; rotate_left; decide))
  refine (concat3_at _ _ _ k b n).trans ?_
  match k with
  | ⟨0, _⟩ => exact plane_at _ ![0, 0, 0] slices_S8x2048x3_S8x2048x1_0_0_0 0 rfl rfl rfl b n
  | ⟨1, _⟩ => exact plane_at _ ![0, 0, 1] slices_S8x2048x3_S8x2048x1_0_0_1 1 rfl rfl rfl b n
  | ⟨2, _⟩ => exact plane_at _ ![0, 0, 2] slices_S8x2048x3_S8x2048x1_0_0_2 2 rfl rfl rfl b n

/-- The same at an arbitrary index of the `[3, 8, 2048]` array. -/
theorem host_head_idx (W0 : Valuation τ sig (Elt Ideal)) (j : S3x8x2048.Idx) :
    (StableHlo.after (List.flatten [hostOps0 (F := Ideal)]) W0 (Proc.devRef .tc main_v9) : S3x8x2048.Idx → EReal) j
      = (W0 (Proc.devRef .tc main_arg0) : S8x2048x3.Idx → EReal) (ix3 (j 1) (j 2) (j 0)) := by
  conv_lhs => rw [eq_ix3 j]
  exact host_head W0 (j 0) (j 1) (j 2)

/-! ## After the launch: the three column sums and their combination -/

/-- A rank-1 index set is its one coordinate range … -/
def idxEquiv1 {n : Nat} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- One output's column — the slice `[0:8, 0:1, 0:1]` reshaped to `[8]` — summed from the zero word: the sum of the
    output's entries `(k, 0, 0)`. -/
theorem colsum (c : FVec Ideal S8x1x128 .f32) (i : S_.Idx) :
    Host.reduceAdd (F := Ideal)
        (shapeCast S8 (extractStridedSlice S8x1x1 ![0, 0, 0] c slices_S8x1x128_S8x1x1_0_0_0) shapeCasts_S8x1x1_S8)
        (constant (F := Ideal) S_ .f32 0x00000000#32) reducesTo_S8_S_d0 h_S_ i
      = ∑ k : Fin 8, c (ix3 k 0 0) := by
  simp only [Host.reduceAdd, Ideal.hostReduceAdd_def]
  rw [Ideal.hostReduceAdd_total reducesTo_S8_S_d0 (fun b => b.elim0) _ _ i, constant_apply, Ideal.ofBits_zero_f32, zero_add,
    sum_idx1]
  refine Finset.sum_congr rfl fun k _ => ?_
  rw [shapeCast_apply _ shapeCasts_S8x1x1_S8 (ix1 k) (ix3 k 0 0)
    (by rw [Shape.rowMajor_val_three, Shape.rowMajor_val_one]; show (k.val * 1 + 0) * 1 + 0 = k.val; omega)]
  exact extractStridedSlice_apply ![0, 0, 0] c slices_S8x1x128_S8x1x1_0_0_0 (ix3 k 0 0) (ix3 k 0 0) (fun a => match a with
    | ⟨0, _⟩ => by show k.val = 0 + k.val; omega
    | ⟨1, _⟩ => by show 0 = 0 + 0; omega
    | ⟨2, _⟩ => by show 0 = 0 + 0; omega)

/-- The program's result after the host lines that follow the launch, from any contents `W` whose three output buffers
    hold `c0`, `c1`, `c2`: the specification's combination of their column sums. -/
theorem host_tail (W : Valuation τ sig (Elt Ideal)) (c0 c1 c2 : FVec Ideal S8x1x128 .f32)
    (h0 : W (Proc.devRef .tc main_v10_0) = c0) (h1 : W (Proc.devRef .tc main_v10_1) = c1)
    (h2 : W (Proc.devRef .tc main_v10_2) = c2) :
    (StableHlo.after (List.flatten [hostOps1 (F := Ideal), hostOps1_1, hostOps1_2]) W (Proc.devRef .tc main_v28) : S_.Idx → EReal)
      = fun _ => Cert.Spec.combine (∑ k : Fin 8, c0 (ix3 k 0 0)) (∑ k : Fin 8, c1 (ix3 k 0 0)) (∑ k : Fin 8, c2 (ix3 k 0 0)) := by
  simp only [hostOps1, hostOps1_1, hostOps1_2, List.flatten_cons, List.flatten_nil, List.append_nil, List.cons_append,
    List.nil_append]
  after_results_simp
  rw [h0, h1, h2]
  funext i
  unfold Cert.Spec.combine Cert.Spec.softplus
  rw [← colsum c0 i, ← colsum c1 i, ← colsum c2 i]
  rfl

/-- The same with the three outputs named by the contents themselves. -/
theorem host_tail' (W : Valuation τ sig (Elt Ideal)) :
    (StableHlo.after (List.flatten [hostOps1 (F := Ideal), hostOps1_1, hostOps1_2]) W (Proc.devRef .tc main_v28) : S_.Idx → EReal)
      = fun _ => Cert.Spec.combine
          (∑ k : Fin 8, (W (Proc.devRef .tc main_v10_0) : S8x1x128.Idx → EReal) (ix3 k 0 0))
          (∑ k : Fin 8, (W (Proc.devRef .tc main_v10_1) : S8x1x128.Idx → EReal) (ix3 k 0 0))
          (∑ k : Fin 8, (W (Proc.devRef .tc main_v10_2) : S8x1x128.Idx → EReal) (ix3 k 0 0)) :=
  host_tail W _ _ _ rfl rfl rfl

end Cert.KernelIdeal.HostValue

end
-- ==== Proof.KIValue.lean ====
/-
  The idealized kernel program's result is the specification.

  The lines after the region sum each result array's eight rows and combine the three sums; row `i` of a result array is
  what the region wrote back at the last point of grid row `i`: for the first array the total over the eight column tiles
  of the pair terms of row tile `i` against column tile `j`, for the other two the row tile's sums. A block of the stacked
  positions at a point is the positions' coordinate plane over the point's tile, and a block of the radii the radii over
  it. Summed over the row tiles (and column tiles) these are the specification's three sums: a sum over all bodies is the
  sum over the eight tiles of the sums inside each, and addition on the extended reals is commutative and associative.
-/
import proofs.«104090_j82532091560339_2_alg».proof.Proof.KILaunch
import proofs.«104090_j82532091560339_2_alg».proof.Proof.KIArrays
import proofs.«104090_j82532091560339_2_alg».proof.Proof.KIRows
import proofs.«104090_j82532091560339_2_alg».proof.Proof.KHost

set_option maxRecDepth 16384

noncomputable section

open scoped BigOperators

namespace Cert.KernelIdeal.Hand

open Cert.KernelIdeal Cert.KernelIdeal.Gen Cert.KernelIdeal.PointValue
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (c : Dev nD)

/-- The two argument arrays on core `c`, as functions of an index. -/
abbrev posOf : Cert.Spec.PosIdx → EReal := m ((c.tc : Thread nD τ).loc main_arg0)
abbrev radOf : Cert.Spec.RadIdx → EReal := m ((c.tc : Thread nD τ).loc main_arg1)

/-- A block of the stacked positions read by the row window: coordinate plane `k` over the row's tile. -/
theorem blk0 (t : Fin cfg0.N) (k : Fin 3) (b : Fin 8) (x : Fin 256) :
    (iblk m c 0 t : Vec Ideal S3x8x256 .f32) (ix3 k b x) = posOf m c (ix3 b (tileBody (rowOf t) x) k) :=
  (iblk0_apply m c t k b x).trans (Cert.KernelIdeal.HostValue.host_head (fun b => m (c, b)) k b _)
/-- By the column window: over the column's tile. -/
theorem blk1 (t : Fin cfg0.N) (k : Fin 3) (b : Fin 8) (x : Fin 256) :
    (iblk m c 1 t : Vec Ideal S3x8x256 .f32) (ix3 k b x) = posOf m c (ix3 b (tileBody (colOf t) x) k) :=
  (iblk1_apply m c t k b x).trans (Cert.KernelIdeal.HostValue.host_head (fun b => m (c, b)) k b _)
/-- A block of the radii read by the row window, -/
theorem blk2 (t : Fin cfg0.N) (b : Fin 8) (x : Fin 256) :
    (iblk m c 2 t : Vec Ideal S8x256 .f32) (ix2 b x) = radOf m c (ix2 b (tileBody (rowOf t) x)) :=
  (iblk2_apply m c t b x).trans (congrFun (V_main_arg1 m c) _)
/-- and by the column window. -/
theorem blk3 (t : Fin cfg0.N) (b : Fin 8) (x : Fin 256) :
    (iblk m c 3 t : Vec Ideal S8x256 .f32) (ix2 b x) = radOf m c (ix2 b (tileBody (colOf t) x)) :=
  (iblk3_apply m c t b x).trans (congrFun (V_main_arg1 m c) _)

/-- Row `i` of the first result array: the pair terms of row tile `i` against every column tile. -/
theorem out0_row (i : Fin 8) :
    ((dats m 0 c).arrAt 4 cfg0.N : S8x1x128.Idx → EReal) (ix3 i 0 0)
      = ∑ jt : Fin 8, ∑ b : Fin 8, ∑ ti : Fin 256, ∑ tj : Fin 256,
          Cert.Spec.term (posOf m c) (radOf m c) b (tileBody i ti) (tileBody jt tj) :=
  (arr4_apply m c i 0).trans (row_end_pair m c (posOf m c) (radOf m c) (blk0 m c) (blk1 m c) (blk2 m c) (blk3 m c) i (ix3 0 0 0))
/-- Of the second: the row tile's sum of `y` coordinates. -/
theorem out1_row (i : Fin 8) :
    ((dats m 0 c).arrAt 5 cfg0.N : S8x1x128.Idx → EReal) (ix3 i 0 0)
      = ∑ b : Fin 8, ∑ t : Fin 256, posOf m c (ix3 b (tileBody i t) 1) :=
  (arr5_apply m c i 0).trans (row_end_grav m c (posOf m c) (radOf m c) (blk0 m c) (blk1 m c) (blk2 m c) (blk3 m c) i (ix3 0 0 0))
/-- Of the third: the row tile's sum of the positive parts of radius less `y`. -/
theorem out2_row (i : Fin 8) :
    ((dats m 0 c).arrAt 6 cfg0.N : S8x1x128.Idx → EReal) (ix3 i 0 0)
      = ∑ b : Fin 8, ∑ t : Fin 256,
          max ((radOf m c (ix2 b (tileBody i t)) - posOf m c (ix3 b (tileBody i t) 1)) + Cert.Spec.zeroE) Cert.Spec.zeroE :=
  (arr6_apply m c i 0).trans (row_end_ground m c (posOf m c) (radOf m c) (blk0 m c) (blk1 m c) (blk2 m c) (blk3 m c) i (ix3 0 0 0))

/-- The result buffer ends at the specification of the two argument arrays. -/
theorem result_eq :
    (Wend m c (Proc.devRef .tc main_v28) : S_.Idx → EReal) = fun _ => Cert.Spec.result (posOf m c) (radOf m c) := by
  unfold Wend
  rw [Cert.KernelIdeal.HostValue.host_tail (Wx m c) _ _ _ (Wx_v10_0 m c) (Wx_v10_1 m c) (Wx_v10_2 m c)]
  funext _
  unfold Cert.Spec.result
  rw [collSum_tiles, gravSum_tiles, groundSum_tiles]
  simp only [out0_row, out1_row, out2_row]

end Cert.KernelIdeal.Hand

end
-- ==== Proof.RefPair.lean ====
/-
  The reference program's pairwise stage, read at one index.

  At an index `(b, n, n')` of the `[8, 2048, 2048]` arrays the reference first forms the squared distance as a sum over
  the three coordinates started from the zero word: `0 + d₀² + d₁² + d₂²`, which is the specification's
  `(d₀² + d₁²) + d₂²` once the zero is dropped. It then takes the root (of one where the square is zero) and multiplies
  by the bit of `sq > 0` converted to a number as an UNSIGNED one-bit integer; the specification reads the same bit
  widened to 32 bits as a SIGNED integer. Both give `0` for the bit `0` and `1` for the bit `1`. The radii's sum less
  that product is the specification's pair term.
-/
import proofs.«104090_j82532091560339_2_alg».proof.Proof.Spec
import proofs.«104090_j82532091560339_2_alg».proof.Proof.Gen.ReferenceIdeal.Read

noncomputable section

open scoped BigOperators

namespace Cert.ReferenceIdeal.RefValue

open Cert.ReferenceIdeal Idealize.ShloMosaic Idealize.ShloMosaic.ValueIdx

/-- A one-bit word read unsigned is the same number as the word widened to 32 bits and read signed. -/
theorem bit_number (c : BitVec 1) :
    (((c.toNat : ℝ)) : EReal) = ((((c.setWidth 32).toInt : ℝ)) : EReal) := by
  rcases BitVec.eq_zero_or_eq_one c with h | h <;> subst h <;> simp

/-- The two broadcasts of the position array, read back: the left operand of the difference at `(b, n, n', k)` is
    the position of body `n` … -/
theorem idx_left (b : Fin 8) (n n' : Fin 2048) (k : Fin 3) :
    Read.idx_main_v12 (Read.idx_main_v14 (Read.idx_main_v23 (ix3 b n n') k)) = ix3 b n k :=
  funext fun a => Fin.ext (by match a with | ⟨0, _⟩ => rfl | ⟨1, _⟩ => rfl | ⟨2, _⟩ => rfl)

/-- … and the right operand is the position of body `n'`. -/
theorem idx_right (b : Fin 8) (n n' : Fin 2048) (k : Fin 3) :
    Read.idx_main_v13 (Read.idx_main_v15 (Read.idx_main_v23 (ix3 b n n') k)) = ix3 b n' k :=
  funext fun a => Fin.ext (by match a with | ⟨0, _⟩ => rfl | ⟨1, _⟩ => rfl | ⟨2, _⟩ => rfl)

/-- The two broadcasts of the radius array, read back: the first summand at `(b, n, n')` is the radius of body `n` … -/
theorem idx_rad_left (b : Fin 8) (n n' : Fin 2048) :
    Read.idx_main_v17 (Read.idx_main_v19 (ix3 b n n')) = ix2 b n :=
  funext fun a => Fin.ext (by match a with | ⟨0, _⟩ => rfl | ⟨1, _⟩ => rfl)

/-- … and the second the radius of body `n'`. -/
theorem idx_rad_right (b : Fin 8) (n n' : Fin 2048) :
    Read.idx_main_v18 (Read.idx_main_v20 (ix3 b n n')) = ix2 b n' :=
  funext fun a => Fin.ext (by match a with | ⟨0, _⟩ => rfl | ⟨1, _⟩ => rfl)

/-- The reference's squared distance at `(b, n, n')` is the specification's. -/
theorem sq_at (pos : FVec Ideal S8x2048x3 .f32) (b : Fin 8) (n n' : Fin 2048) :
    Read.val_main_v23 (F := Ideal) pos (ix3 b n n') = Cert.Spec.sq pos b n n' := by
  rw [Read.val_main_v23_apply, Fin.sum_univ_three]
  simp only [Read.val_main_v22_apply, Read.val_main_v16_apply, Read.val_main_v14_apply, Read.val_main_v15_apply,
    Read.val_main_v12_apply, Read.val_main_v13_apply, Read.val_main_cst_4_apply, idx_left, idx_right,
    Ideal.mulf_def, Ideal.subf_def, Ideal.ofBits_def, Ideal.ofBits_zero_f32, zero_add]
  rfl

/-- The reference's pair term at `(b, n, n')` is the specification's. -/
theorem term_at (pos : FVec Ideal S8x2048x3 .f32) (rad : FVec Ideal S8x2048 .f32) (b : Fin 8) (n n' : Fin 2048) :
    Read.val_main_v32 (F := Ideal) pos rad (ix3 b n n') = Cert.Spec.term pos rad b n n' := by
  simp only [Read.val_main_v32_apply, Read.val_main_v21_apply, Read.val_main_v19_apply, Read.val_main_v20_apply,
    Read.val_main_v17_apply, Read.val_main_v18_apply, Read.val_main_v31_apply, Read.val_main_v27_apply,
    Read.val_main_v30_apply, Read.val_main_v26_apply, Read.val_main_v25_apply, Read.val_main_v29_apply,
    Read.val_main_v24_apply, Read.val_main_v28_apply, Read.val_main_call1_v1_apply, Read.val_main_call1_v0_apply,
    Read.val_main_cst_5_apply, Read.val_main_cst_6_apply, Read.val_main_cst_7_apply, sq_at, idx_rad_left, idx_rad_right,
    Ideal.mulf_def, Ideal.subf_def, Ideal.addf_def, Ideal.ofBits_def, Ideal.hostUnary_sqrt_def, Ideal.cmpf_def]
  unfold Cert.Spec.term Cert.Spec.dist
  rw [← bit_number]
  rfl

end Cert.ReferenceIdeal.RefValue

end
-- ==== Proof.RefSums.lean ====
/-
  The reference program's three sums.

  Each of the reference's reductions is, over the extended reals, the initial value (the zero word, which denotes `0`)
  plus the sum of the operand over its whole index set. The index set of a `[8, 2048]` array is the product of its two
  coordinate ranges and that of a `[8, 2048, 2048]` array the product of its three, so each sum is the specification's
  iterated sum over batches and bodies (and second bodies). The `y` coordinate the first two sums read reaches them
  through a slice `[0:8, 0:2048, 1:2]` and a reshape `[8, 2048, 1] → [8, 2048]`: entry `(b, n)` of the result is entry
  `(b, n, 1)` of the position array.
-/
import proofs.«104090_j82532091560339_2_alg».proof.Proof.RefPair

noncomputable section

open scoped BigOperators

namespace Cert.ReferenceIdeal.RefValue

open Cert.ReferenceIdeal Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Entry `(b, n)` of the sliced and reshaped array is entry `(b, n, 1)` of the position array (the gravity sum's copy) … -/
theorem idx_y (b : Fin 8) (n : Fin 2048) : Read.idx_main_v0 (Read.idx_main_v1 (ix2 b n)) = ix3 b n 1 :=
  funext fun a => Fin.ext (by
    have hb : b.val < 8 := b.isLt
    have hn : n.val < 2048 := n.isLt
    match a with
    | ⟨0, _⟩ => show (b.val * 2048 + n.val) / 2048 = b.val; omega
    | ⟨1, _⟩ => show (b.val * 2048 + n.val) / 1 % 2048 = n.val; omega
    | ⟨2, _⟩ => rfl)

/-- … and likewise for the ground sum's copy of the same slice. -/
theorem idx_y' (b : Fin 8) (n : Fin 2048) : Read.idx_main_v4 (Read.idx_main_v5 (ix2 b n)) = ix3 b n 1 :=
  funext fun a => Fin.ext (by
    have hb : b.val < 8 := b.isLt
    have hn : n.val < 2048 := n.isLt
    match a with
    | ⟨0, _⟩ => show (b.val * 2048 + n.val) / 2048 = b.val; omega
    | ⟨1, _⟩ => show (b.val * 2048 + n.val) / 1 % 2048 = n.val; omega
    | ⟨2, _⟩ => rfl)

/-- The reference's sum of the `y` coordinates is the specification's. -/
theorem grav_eq (pos : FVec Ideal S8x2048x3 .f32) (i : S_.Idx) :
    Read.val_main_v2 (F := Ideal) pos i = Cert.Spec.gravSum pos := by
  rw [Read.val_main_v2_apply, Read.val_main_cst_apply, Ideal.ofBits_def, Ideal.ofBits_zero_f32, zero_add, sum_idx2]
  simp only [Read.val_main_v1_apply, Read.val_main_v0_apply, idx_y]
  rfl

/-- The reference's sum of the positive parts of `rad - y + 0` is the specification's. -/
theorem ground_eq (pos : FVec Ideal S8x2048x3 .f32) (rad : FVec Ideal S8x2048 .f32) (i : S_.Idx) :
    Read.val_main_v10 (F := Ideal) pos rad i = Cert.Spec.groundSum pos rad := by
  rw [Read.val_main_v10_apply, Read.val_main_cst_2_apply, Ideal.ofBits_def, Ideal.ofBits_zero_f32, zero_add, sum_idx2]
  simp only [Read.val_main_v9_apply, Read.val_main_v8_apply, Read.val_main_v6_apply, Read.val_main_v7_apply,
    Read.val_main_v5_apply, Read.val_main_v4_apply, Read.val_main_call0_v0_apply, Read.val_main_call0_cst_apply,
    Read.val_main_cst_1_apply, idx_y', Ideal.maximumf_def, Ideal.addf_def, Ideal.subf_def, Ideal.ofBits_def]
  rfl

/-- The reference's sum of the pair terms over all ordered pairs is the specification's. -/
theorem coll_eq (pos : FVec Ideal S8x2048x3 .f32) (rad : FVec Ideal S8x2048 .f32) (i : S_.Idx) :
    Read.val_main_v33 (F := Ideal) pos rad i = Cert.Spec.collSum pos rad := by
  rw [Read.val_main_v33_apply, Read.val_main_cst_8_apply, Ideal.ofBits_def, Ideal.ofBits_zero_f32, zero_add, sum_idx3]
  simp only [term_at]
  rfl

end Cert.ReferenceIdeal.RefValue

end
-- ==== Proof.RefValue.lean ====
/-
  The reference program computes the specification.

  After its three sums the reference divides each by its count (16384 bodies; 2^25 ordered pairs), applies softplus to
  the pair mean — `max x 0 + log1p (exp (-|x - 0|))`, behind a guard `x - 0 ≠ x - 0` — and adds the three results
  with weight 0.2 each, the first two first. The specification's `combine` and `softplus` are those operations in that
  order, so with the three sums identified the two agree operation by operation.
-/
import proofs.«104090_j82532091560339_2_alg».proof.Proof.RefSums

noncomputable section

open scoped BigOperators

namespace Cert.ReferenceIdeal.RefValue

open Cert.ReferenceIdeal Idealize.ShloMosaic Idealize.ShloMosaic.ValueIdx

/-- The reference's result, a scalar, is the specification's value of the two argument arrays. -/
theorem ref_eq (pos : FVec Ideal S8x2048x3 .f32) (rad : FVec Ideal S8x2048 .f32) :
    Read.val_main_v40 (F := Ideal) pos rad = fun _ => Cert.Spec.result pos rad := by
  funext i
  simp only [Read.val_main_v40_apply, Read.val_main_v38_apply, Read.val_main_v39_apply, Read.val_main_v36_apply,
    Read.val_main_v37_apply, Read.val_main_v35_apply, Read.val_main_call2_v8_apply, Read.val_main_call2_v7_apply,
    Read.val_main_call2_v6_apply, Read.val_main_call2_v5_apply, Read.val_main_call2_v4_apply,
    Read.val_main_call2_v3_apply, Read.val_main_call2_v2_apply, Read.val_main_call2_v1_apply,
    Read.val_main_call2_v0_apply, Read.val_main_call2_cst_apply, Read.val_main_v34_apply, Read.val_main_v3_apply,
    Read.val_main_v11_apply, Read.val_main_cst_0_apply, Read.val_main_cst_3_apply, Read.val_main_cst_9_apply,
    Read.val_main_cst_10_apply, Read.val_main_cst_11_apply, Read.val_main_cst_12_apply,
    grav_eq, ground_eq, coll_eq]
  rfl

/-- The same at the scalar shape's one index. -/
theorem ref_eq_ix0 (pos : FVec Ideal S8x2048x3 .f32) (rad : FVec Ideal S8x2048 .f32) :
    Read.val_main_v40 (F := Ideal) pos rad ix0 = Cert.Spec.result pos rad :=
  congrFun (ref_eq pos rad) ix0

end Cert.ReferenceIdeal.RefValue

end
-- ==== Proof.lean ====
/-
  The certificate of a pairwise physics energy: a tiled kernel against its untiled reference, on the extended reals.

  Both programs compute, from positions `pos : [8, 2048, 3]` and radii `rad : [8, 2048]`,
  `0.2 · (Σ y) / 16384 + 0.2 · (Σ max(r − y + 0, 0)) / 16384 + 0.2 · softplus((Σ pairs (r + r') − dist) / 2^25)`.
  The reference takes each sum in one piece. The kernel walks an 8 × 8 grid of 256-body tiles: at each point it reduces
  the pair terms of row tile against column tile to one number and adds it into a per-row result, and on each row's first
  point it also stores the row tile's two single-body sums; the host then adds the eight rows of each result. The two
  agree because a sum over all bodies is the sum over tiles of the sums inside them, and addition on the extended reals is
  commutative and associative — no cancellation or distribution is used, so finiteness of the inputs is never needed.

  The frames: the kernel program's region reads two arrays through two windows each; each is split into two half shares at
  entry, only read, and joined again for the host lines that follow. The body's obligation is by cases on the grid point's
  column. The reference's frame is its run with the result dropped. The ideal pass rewrote nothing, so the kernel's
  idealization is its own text read at the ideal instance.
-/
import proofs.«104090_j82532091560339_2_alg».proof.Defs
import proofs.«104090_j82532091560339_2_alg».proof.Proof.Gen.Kernel
import proofs.«104090_j82532091560339_2_alg».proof.Proof.Gen.KernelIdeal
import proofs.«104090_j82532091560339_2_alg».proof.Proof.Gen.ReferenceIdeal
import proofs.«104090_j82532091560339_2_alg».proof.Proof.Gen.ReferenceIdeal.Run
import proofs.«104090_j82532091560339_2_alg».proof.Proof.Gen.ReferenceIdeal.Read
import proofs.«104090_j82532091560339_2_alg».proof.Proof.Gen.Pre_finite_inputs
import proofs.«104090_j82532091560339_2_alg».proof.Proof.KLaunch
import proofs.«104090_j82532091560339_2_alg».proof.Proof.KIValue
import proofs.«104090_j82532091560339_2_alg».proof.Proof.RefValue

noncomputable section

namespace Cert.Proof

open Idealize.ShloMosaic Idealize.ShloMosaic.TcCoe Idealize.SL.Sem

/-- The kernel program runs and leaves its arguments as they were. -/
theorem frame_k : Cert.frame_Kernel := fun m ρ _ => Cert.Kernel.Hand.frame m ρ

/-- So does its reading at the ideal instance. -/
theorem frame_ki : Cert.frame_KernelIdeal := fun m ρ _ => Cert.KernelIdeal.Hand.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten for the ideal reading. -/
theorem preserves : Cert.preserves_Kernel_KernelIdeal := trivial

/-- From memories agreeing on the arguments both programs end with the specification's value of those arguments. -/
theorem algebraic : Cert.algebraic_KernelIdeal_ReferenceIdeal := by
  intro m ρ m' ρ' _ hagree
  refine ⟨fun c => fun _ => Cert.Spec.result (Cert.KernelIdeal.Hand.posOf m c) (Cert.KernelIdeal.Hand.radOf m c), ?_, ?_⟩
  · exact (θ_run Cert.KernelIdeal.defs _ _).mono
      (fun _ h c => ⟨(h c).1.trans (Cert.KernelIdeal.Hand.result_eq m c), (h c).2.1, (h c).2.2⟩)
      (Cert.KernelIdeal.Hand.value_run m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v40_eq, Cert.ReferenceIdeal.RefValue.ref_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
